-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v396) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S3x128x128 .f32) (main_arg13 : FVec F S128 .f32) (main_arg14 : FVec F S3x128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S3x128x128 .f32 := Host.absf main_arg12
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S3x128x128 .f32 := Host.absf main_arg14
  let main_cst_24 : FVec F S_ .f32 := constant S_ .f32 0x7F800000#32
  let main_v65 : FVec F S3x128x128 .f32 := broadcastInDim S3x128x128 ![] bcast_S_S3x128x128 main_cst_24
  let main_v66 : IVec S3x128x128 1 := cmpf .olt main_v64 main_v65
  let main_c_25 : IVec S_ 1 := constantI S_ 1 1#1
  let main_v67 : IVec S_ 1 := (fun x v => Host.reduce IntOp.andi x v reducesTo_S3x128x128_S_d0_1_2 h_S_) main_v66 main_c_25
  fn_part4 (F := F) main_arg15 main_v63 main_v67

def fn_part2 {F : FTy → Type} [FloatOps F] (main_arg8 : FVec F S3x128x128 .f32) (main_arg9 : FVec F S128 .f32) (main_arg10 : FVec F S3x128x128 .f32) (main_arg11 : FVec F S128 .f32) (main_arg12 : FVec F S3x128x128 .f32) (main_arg13 : FVec F S128 .f32) (main_arg14 : FVec F S3x128x128 .f32) (main_arg15 : FVec F S128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3x128x128 .f32 := Host.absf main_arg10
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S3x128x128 .f32) (main_arg7 : FVec F S128 .f32) (main_arg8 : FVec F S3x128x128 .f32) (main_arg9 : FVec F S128 .f32) (main_arg10 : FVec F S3x128x128 .f32) (main_arg11 : FVec F S128 .f32) (main_arg12 : FVec F S3x128x128 .f32) (main_arg13 : FVec F S128 .f32) (main_arg14 : FVec F S3x128x128 .f32) (main_arg15 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x600000 32) (main_arg2 : FVec F S600000 .f32) (main_arg3 : FVec F S50000x128 .f32) (main_arg4 : FVec F S3x128x128 .f32) (main_arg5 : FVec F S128 .f32) (main_arg6 : FVec F S3x128x128 .f32) (main_arg7 : FVec F S128 .f32) (main_arg8 : FVec F S3x128x128 .f32) (main_arg9 : FVec F S128 .f32) (main_arg10 : FVec F S3x128x128 .f32) (main_arg11 : FVec F S128 .f32) (main_arg12 : FVec F S3x128x128 .f32) (main_arg13 : FVec F S128 .f32) (main_arg14 : FVec F S3x128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S128 : Shape := ⟨1, ![128]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S2000x128 : Shape := ⟨2, ![2000, 128]⟩
abbrev S1x128 : Shape := ⟨2, ![1, 128]⟩

abbrev nBuf : Space → Nat
  | .hbm => 257
  | .vmem => 60
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S50000x128, .f32⟩
  | 4 => ⟨S3x128x128, .f32⟩
  | 5 => ⟨S128, .f32⟩
  | 6 => ⟨S3x128x128, .f32⟩
  | 7 => ⟨S128, .f32⟩
  | 8 => ⟨S3x128x128, .f32⟩
  | 9 => ⟨S128, .f32⟩
  | 10 => ⟨S3x128x128, .f32⟩
  | 11 => ⟨S128, .f32⟩
  | 12 => ⟨S3x128x128, .f32⟩
  | 13 => ⟨S128, .f32⟩
  | 14 => ⟨S3x128x128, .f32⟩
  | 15 => ⟨S128, .f32⟩
  | 16 => ⟨S1x600000, .i32⟩
  | 17 => ⟨S600000, .i32⟩
  | 18 => ⟨S1x600000, .i32⟩
  | 19 => ⟨S600000, .i32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .i1⟩
  | 30 => ⟨S_, .f32⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S_, .f32⟩
  | 49 => ⟨S600000, .f32⟩
  | 50 => ⟨S600000, .f32⟩
  | 51 => ⟨S600000, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000, .f32⟩
  | 61 => ⟨S600000, .f32⟩
  | 62 => ⟨S1x600000, .i32⟩
  | 63 => ⟨S600000, .i32⟩
  | 64 => ⟨S1x600000, .i32⟩
  | 65 => ⟨S600000, .i32⟩
  | 66 => ⟨S600000x1, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S600000x128, .f32⟩
  | 77 => ⟨S600000x128, .f32⟩
  | 78 => ⟨S_, .f32⟩
  | 79 => ⟨S50000x128, .f32⟩
  | 80 => ⟨S600000x1, .i32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x600000, .i32⟩
  | 87 => ⟨S600000, .i32⟩
  | 88 => ⟨S1x600000, .i32⟩
  | 89 => ⟨S600000, .i32⟩
  | 90 => ⟨S600000x1, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S600000x128, .f32⟩
  | 101 => ⟨S600000x128, .f32⟩
  | 102 => ⟨S_, .f32⟩
  | 103 => ⟨S50000x128, .f32⟩
  | 104 => ⟨S600000x1, .i32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S1x600000, .i32⟩
  | 115 => ⟨S600000, .i32⟩
  | 116 => ⟨S1x600000, .i32⟩
  | 117 => ⟨S600000, .i32⟩
  | 118 => ⟨S600000x1, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S50000x128, .f32⟩

abbrev hbmTy0_1 (i : Nat) : BufTy := match i % 128 with
  | 0 => ⟨S600000x128, .f32⟩
  | 1 => ⟨S600000x128, .f32⟩
  | 2 => ⟨S_, .f32⟩
  | 3 => ⟨S50000x128, .f32⟩
  | 4 => ⟨S600000x1, .i32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1x600000, .i32⟩
  | 11 => ⟨S600000, .i32⟩
  | 12 => ⟨S1x600000, .i32⟩
  | 13 => ⟨S600000, .i32⟩
  | 14 => ⟨S600000x1, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S600000x128, .f32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S1x128x128, .f32⟩
  | 41 => ⟨S128x128, .f32⟩
  | 42 => ⟨S1x128x128, .f32⟩
  | 43 => ⟨S128x128, .f32⟩
  | 44 => ⟨S1x128x128, .f32⟩
  | 45 => ⟨S128x128, .f32⟩
  | 46 => ⟨S1x128x128, .f32⟩
  | 47 => ⟨S128x128, .f32⟩
  | 48 => ⟨S1x128x128, .f32⟩
  | 49 => ⟨S128x128, .f32⟩
  | 50 => ⟨S1x128x128, .f32⟩
  | 51 => ⟨S128x128, .f32⟩
  | 52 => ⟨S1x128x128, .f32⟩
  | 53 => ⟨S128x128, .f32⟩
  | 54 => ⟨S1x128x128, .f32⟩
  | 55 => ⟨S128x128, .f32⟩
  | 56 => ⟨S1x128x128, .f32⟩
  | 57 => ⟨S128x128, .f32⟩
  | 58 => ⟨S1x128x128, .f32⟩
  | 59 => ⟨S128x128, .f32⟩
  | 60 => ⟨S1x128x128, .f32⟩
  | 61 => ⟨S128x128, .f32⟩
  | 62 => ⟨S1x128x128, .f32⟩
  | 63 => ⟨S128x128, .f32⟩
  | 64 => ⟨S1x128x128, .f32⟩
  | 65 => ⟨S128x128, .f32⟩
  | 66 => ⟨S1x128x128, .f32⟩
  | 67 => ⟨S128x128, .f32⟩
  | 68 => ⟨S1x128x128, .f32⟩
  | 69 => ⟨S128x128, .f32⟩
  | 70 => ⟨S1x128x128, .f32⟩
  | 71 => ⟨S128x128, .f32⟩
  | 72 => ⟨S1x128x128, .f32⟩
  | 73 => ⟨S128x128, .f32⟩
  | 74 => ⟨S50000x128, .f32⟩
  | 75 => ⟨S50000x128, .f32⟩
  | 76 => ⟨S1x600000, .i32⟩
  | 77 => ⟨S600000, .i32⟩
  | 78 => ⟨S1x600000, .i32⟩
  | 79 => ⟨S600000, .i32⟩
  | 80 => ⟨S600000x1, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S600000x128, .f32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S1x600000, .i32⟩
  | 101 => ⟨S600000, .i32⟩
  | 102 => ⟨S1x600000, .i32⟩
  | 103 => ⟨S600000, .i32⟩
  | 104 => ⟨S600000x1, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S600000x128, .f32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S128x128, .f32⟩
  | .local _ .vmem, ⟨52, _⟩ => ⟨S128x128, .f32⟩
  | .local _ .vmem, ⟨53, _⟩ => ⟨S128x128, .f32⟩
  | .local _ .vmem, ⟨54, _⟩ => ⟨S128x128, .f32⟩
  | .local _ .vmem, ⟨55, _⟩ => ⟨S128x128, .f32⟩
  | .local _ .vmem, ⟨56, _⟩ => ⟨S128, .f32⟩
  | .local _ .vmem, ⟨57, _⟩ => ⟨S128, .f32⟩
  | .local _ .vmem, ⟨58, _⟩ => ⟨S2000x128, .f32⟩
  | .local _ .vmem, ⟨59, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_11 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_21 : Ref sig .tc := ⟨.hbm, 143, rfl⟩
abbrev main_v100 : Ref sig .tc := ⟨.hbm, 144, rfl⟩
abbrev main_v101 : Ref sig .tc := ⟨.hbm, 145, rfl⟩
abbrev main_c_22 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_24 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154_0 : Ref sig .tc := ⟨.hbm, 202, rfl⟩
abbrev main_v154_1 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_c_26 : Ref sig .tc := ⟨.hbm, 209, rfl⟩
abbrev main_v160 : Ref sig .tc := ⟨.hbm, 210, rfl⟩
abbrev main_v161 : Ref sig .tc := ⟨.hbm, 211, rfl⟩
abbrev main_c_27 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_28 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_29 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_c_30 : Ref sig .tc := ⟨.hbm, 233, rfl⟩
abbrev main_v180 : Ref sig .tc := ⟨.hbm, 234, rfl⟩
abbrev main_v181 : Ref sig .tc := ⟨.hbm, 235, rfl⟩
abbrev main_c_31 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_32 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_cst_33 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_cst_34 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc1_stg0_0 : Ref sig .tc := ⟨.vmem, 34, rfl⟩
abbrev cc1_stg0_1 : Ref sig .tc := ⟨.vmem, 35, rfl⟩
abbrev cc1_stg1_0 : Ref sig .tc := ⟨.vmem, 36, rfl⟩
abbrev cc1_stg1_1 : Ref sig .tc := ⟨.vmem, 37, rfl⟩
abbrev cc1_stg2_0 : Ref sig .tc := ⟨.vmem, 38, rfl⟩
abbrev cc1_stg2_1 : Ref sig .tc := ⟨.vmem, 39, rfl⟩
abbrev cc1_stg3_0 : Ref sig .tc := ⟨.vmem, 40, rfl⟩
abbrev cc1_stg3_1 : Ref sig .tc := ⟨.vmem, 41, rfl⟩
abbrev cc1_stg4_0 : Ref sig .tc := ⟨.vmem, 42, rfl⟩
abbrev cc1_stg4_1 : Ref sig .tc := ⟨.vmem, 43, rfl⟩
abbrev cc1_stg5_0 : Ref sig .tc := ⟨.vmem, 44, rfl⟩
abbrev cc1_stg5_1 : Ref sig .tc := ⟨.vmem, 45, rfl⟩
abbrev cc1_stg6_0 : Ref sig .tc := ⟨.vmem, 46, rfl⟩
abbrev cc1_stg6_1 : Ref sig .tc := ⟨.vmem, 47, rfl⟩
abbrev cc1_stg7_0 : Ref sig .tc := ⟨.vmem, 48, rfl⟩
abbrev cc1_stg7_1 : Ref sig .tc := ⟨.vmem, 49, rfl⟩
abbrev cc1_stg8_0 : Ref sig .tc := ⟨.vmem, 50, rfl⟩
abbrev cc1_stg9_0 : Ref sig .tc := ⟨.vmem, 51, rfl⟩
abbrev cc1_stg10_0 : Ref sig .tc := ⟨.vmem, 52, rfl⟩
abbrev cc1_stg11_0 : Ref sig .tc := ⟨.vmem, 53, rfl⟩
abbrev cc1_stg12_0 : Ref sig .tc := ⟨.vmem, 54, rfl⟩
abbrev cc1_stg13_0 : Ref sig .tc := ⟨.vmem, 55, rfl⟩
abbrev cc1_stg14_0 : Ref sig .tc := ⟨.vmem, 56, rfl⟩
abbrev cc1_stg15_0 : Ref sig .tc := ⟨.vmem, 57, rfl⟩
abbrev cc1_stg16_0 : Ref sig .tc := ⟨.vmem, 58, rfl⟩
abbrev cc1_stg16_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem23_0 : DmaSem sig := 30
abbrev cc0_sem23_1 : DmaSem sig := 31
abbrev cc0_sem24_0 : DmaSem sig := 32
abbrev cc0_sem24_1 : DmaSem sig := 33
abbrev cc1_sem0_0 : DmaSem sig := 34
abbrev cc1_sem0_1 : DmaSem sig := 35
abbrev cc1_sem1_0 : DmaSem sig := 36
abbrev cc1_sem1_1 : DmaSem sig := 37
abbrev cc1_sem2_0 : DmaSem sig := 38
abbrev cc1_sem2_1 : DmaSem sig := 39
abbrev cc1_sem3_0 : DmaSem sig := 40
abbrev cc1_sem3_1 : DmaSem sig := 41
abbrev cc1_sem4_0 : DmaSem sig := 42
abbrev cc1_sem4_1 : DmaSem sig := 43
abbrev cc1_sem5_0 : DmaSem sig := 44
abbrev cc1_sem5_1 : DmaSem sig := 45
abbrev cc1_sem6_0 : DmaSem sig := 46
abbrev cc1_sem6_1 : DmaSem sig := 47
abbrev cc1_sem7_0 : DmaSem sig := 48
abbrev cc1_sem7_1 : DmaSem sig := 49
abbrev cc1_sem8_0 : DmaSem sig := 50
abbrev cc1_sem9_0 : DmaSem sig := 51
abbrev cc1_sem10_0 : DmaSem sig := 52
abbrev cc1_sem11_0 : DmaSem sig := 53
abbrev cc1_sem12_0 : DmaSem sig := 54
abbrev cc1_sem13_0 : DmaSem sig := 55
abbrev cc1_sem14_0 : DmaSem sig := 56
abbrev cc1_sem15_0 : DmaSem sig := 57
abbrev cc1_sem16_0 : DmaSem sig := 58
abbrev cc1_sem16_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2000x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2000x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S2000x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128.size a ≤ S128.size a
  hwx0_21 : ∀ i : grid0.Coords, EltTy.bits .f32 = 32 ∨ (Rect.block (s := S128) S128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2000x128.size a ≤ S50000x128.size a
  hwx0_23 : ∀ i : grid0.Coords, EltTy.bits .f32 = 32 ∨ (Rect.block (s := S50000x128) S2000x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2000x128.size a ≤ S50000x128.size a
  hwx0_24 : ∀ i : grid0.Coords, EltTy.bits .f32 = 32 ∨ (Rect.block (s := S50000x128) S2000x128.size (cc0_transform_24 i) (hinb0_24 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x128.size a ≤ S128x128.size a
  hwx1_13 : ∀ i : grid1.Coords, EltTy.bits .f32 = 32 ∨ (Rect.block (s := S128x128) S128x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128.size a ≤ S128.size a
  hwx1_15 : ∀ i : grid1.Coords, EltTy.bits .f32 = 32 ∨ (Rect.block (s := S128) S128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x128.size a ≤ S50000x128.size a
  hwx1_16 : ∀ i : grid1.Coords, EltTy.bits .f32 = 32 ∨ (Rect.block (s := S50000x128) S2000x128.size (cc1_transform_16 i) (hinb1_16 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v94) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v117) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v119) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v121) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v123) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v125) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v127) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v129) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v131) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v133) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v135) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v137) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v139) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v141) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg5) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg7) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg9) S128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg11) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v154_0) S2000x128.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v154_1) S2000x128.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v154_1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v174) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v197) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v154_0) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg3) S2000x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v143) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v145) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v147) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v149) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v151) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v153) S128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg13) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg15) S128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v198) S2000x128.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S128 : Shape := ⟨1, ![128]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S1x128x128 : Shape := ⟨3, ![1, 128, 128]⟩
abbrev S128x128 : Shape := ⟨2, ![128, 128]⟩
abbrev S600000x128 : Shape := ⟨2, ![600000, 128]⟩
abbrev S1x128 : Shape := ⟨2, ![1, 128]⟩

abbrev nBuf : Space → Nat
  | .hbm => 486
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S50000x128, .f32⟩
  | 4 => ⟨S3x128x128, .f32⟩
  | 5 => ⟨S128, .f32⟩
  | 6 => ⟨S3x128x128, .f32⟩
  | 7 => ⟨S128, .f32⟩
  | 8 => ⟨S3x128x128, .f32⟩
  | 9 => ⟨S128, .f32⟩
  | 10 => ⟨S3x128x128, .f32⟩
  | 11 => ⟨S128, .f32⟩
  | 12 => ⟨S3x128x128, .f32⟩
  | 13 => ⟨S128, .f32⟩
  | 14 => ⟨S3x128x128, .f32⟩
  | 15 => ⟨S128, .f32⟩
  | 16 => ⟨S1x600000, .i32⟩
  | 17 => ⟨S600000, .i32⟩
  | 18 => ⟨S1x600000, .i32⟩
  | 19 => ⟨S600000, .i32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .i1⟩
  | 30 => ⟨S_, .f32⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S_, .f32⟩
  | 49 => ⟨S600000, .f32⟩
  | 50 => ⟨S600000, .f32⟩
  | 51 => ⟨S600000, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000, .f32⟩
  | 61 => ⟨S600000, .f32⟩
  | 62 => ⟨S1x128x128, .f32⟩
  | 63 => ⟨S128x128, .f32⟩
  | 64 => ⟨S50000x128, .f32⟩
  | 65 => ⟨S1x600000, .i32⟩
  | 66 => ⟨S600000, .i32⟩
  | 67 => ⟨S1x600000, .i32⟩
  | 68 => ⟨S600000, .i32⟩
  | 69 => ⟨S600000x1, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S50000x128, .f32⟩
  | 93 => ⟨S1x600000, .i32⟩
  | 94 => ⟨S600000, .i32⟩
  | 95 => ⟨S1x600000, .i32⟩
  | 96 => ⟨S600000, .i32⟩
  | 97 => ⟨S600000x1, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S600000x128, .f32⟩
  | 108 => ⟨S600000x128, .f32⟩
  | 109 => ⟨S_, .f32⟩
  | 110 => ⟨S50000x128, .f32⟩
  | 111 => ⟨S600000x1, .i32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S50000x128, .f32⟩
  | 3 => ⟨S1x600000, .i32⟩
  | 4 => ⟨S600000, .i32⟩
  | 5 => ⟨S1x600000, .i32⟩
  | 6 => ⟨S600000, .i32⟩
  | 7 => ⟨S600000x1, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x128, .f32⟩
  | 17 => ⟨S600000x128, .f32⟩
  | 18 => ⟨S600000x128, .f32⟩
  | 19 => ⟨S_, .f32⟩
  | 20 => ⟨S50000x128, .f32⟩
  | 21 => ⟨S600000x1, .i32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S50000x128, .f32⟩
  | 31 => ⟨S1x600000, .i32⟩
  | 32 => ⟨S600000, .i32⟩
  | 33 => ⟨S1x600000, .i32⟩
  | 34 => ⟨S600000, .i32⟩
  | 35 => ⟨S600000x1, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S600000x128, .f32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S1x128x128, .f32⟩
  | 60 => ⟨S128x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S1x128x128, .f32⟩
  | 76 => ⟨S128x128, .f32⟩
  | 77 => ⟨S50000x128, .f32⟩
  | 78 => ⟨S1x600000, .i32⟩
  | 79 => ⟨S600000, .i32⟩
  | 80 => ⟨S1x600000, .i32⟩
  | 81 => ⟨S600000, .i32⟩
  | 82 => ⟨S600000x1, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S600000x128, .f32⟩
  | 93 => ⟨S600000x128, .f32⟩
  | 94 => ⟨S_, .f32⟩
  | 95 => ⟨S50000x128, .f32⟩
  | 96 => ⟨S600000x1, .i32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S50000x128, .f32⟩
  | 106 => ⟨S1x600000, .i32⟩
  | 107 => ⟨S600000, .i32⟩
  | 108 => ⟨S1x600000, .i32⟩
  | 109 => ⟨S600000, .i32⟩
  | 110 => ⟨S600000x1, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S600000x128, .f32⟩
  | 121 => ⟨S600000x128, .f32⟩
  | 122 => ⟨S_, .f32⟩
  | 123 => ⟨S50000x128, .f32⟩
  | 124 => ⟨S600000x1, .i32⟩
  | 125 => ⟨S50000x128, .f32⟩
  | 126 => ⟨S_, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S1x600000, .i32⟩
  | 17 => ⟨S600000, .i32⟩
  | 18 => ⟨S1x600000, .i32⟩
  | 19 => ⟨S600000, .i32⟩
  | 20 => ⟨S600000x1, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S50000x128, .f32⟩
  | 44 => ⟨S1x600000, .i32⟩
  | 45 => ⟨S600000, .i32⟩
  | 46 => ⟨S1x600000, .i32⟩
  | 47 => ⟨S600000, .i32⟩
  | 48 => ⟨S600000x1, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x128, .f32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S1x600000, .i32⟩
  | 92 => ⟨S600000, .i32⟩
  | 93 => ⟨S1x600000, .i32⟩
  | 94 => ⟨S600000, .i32⟩
  | 95 => ⟨S600000x1, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S600000x128, .f32⟩
  | 106 => ⟨S600000x128, .f32⟩
  | 107 => ⟨S_, .f32⟩
  | 108 => ⟨S50000x128, .f32⟩
  | 109 => ⟨S600000x1, .i32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S50000x128, .f32⟩
  | 119 => ⟨S1x600000, .i32⟩
  | 120 => ⟨S600000, .i32⟩
  | 121 => ⟨S1x600000, .i32⟩
  | 122 => ⟨S600000, .i32⟩
  | 123 => ⟨S600000x1, .f32⟩
  | 124 => ⟨S_, .i32⟩
  | 125 => ⟨S600000, .i32⟩
  | 126 => ⟨S600000, .i1⟩
  | 127 => ⟨S_, .i32⟩
  | _ => ⟨S50000x128, .f32⟩

abbrev hbmTy0_3 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S600000x128, .f32⟩
  | 6 => ⟨S600000x128, .f32⟩
  | 7 => ⟨S_, .f32⟩
  | 8 => ⟨S50000x128, .f32⟩
  | 9 => ⟨S600000x1, .i32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S1x128x128, .f32⟩
  | 20 => ⟨S128x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x600000, .i32⟩
  | 31 => ⟨S600000, .i32⟩
  | 32 => ⟨S1x600000, .i32⟩
  | 33 => ⟨S600000, .i32⟩
  | 34 => ⟨S600000x1, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x128, .f32⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S50000x128, .f32⟩
  | 58 => ⟨S1x600000, .i32⟩
  | 59 => ⟨S600000, .i32⟩
  | 60 => ⟨S1x600000, .i32⟩
  | 61 => ⟨S600000, .i32⟩
  | 62 => ⟨S600000x1, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S600000x128, .f32⟩
  | 73 => ⟨S600000x128, .f32⟩
  | 74 => ⟨S_, .f32⟩
  | 75 => ⟨S50000x128, .f32⟩
  | 76 => ⟨S600000x1, .i32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_8 : Ref sig .tc := ⟨.hbm, 70, rfl⟩
abbrev main_v40 : Ref sig .tc := ⟨.hbm, 71, rfl⟩
abbrev main_v41 : Ref sig .tc := ⟨.hbm, 72, rfl⟩
abbrev main_c_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_17 : Ref sig .tc := ⟨.hbm, 136, rfl⟩
abbrev main_v97 : Ref sig .tc := ⟨.hbm, 137, rfl⟩
abbrev main_v98 : Ref sig .tc := ⟨.hbm, 138, rfl⟩
abbrev main_c_18 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_19 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_20 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_21 : Ref sig .tc := ⟨.hbm, 164, rfl⟩
abbrev main_v121 : Ref sig .tc := ⟨.hbm, 165, rfl⟩
abbrev main_v122 : Ref sig .tc := ⟨.hbm, 166, rfl⟩
abbrev main_c_22 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_23 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_24 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_25 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_26 : Ref sig .tc := ⟨.hbm, 197, rfl⟩
abbrev main_v149 : Ref sig .tc := ⟨.hbm, 198, rfl⟩
abbrev main_v150 : Ref sig .tc := ⟨.hbm, 199, rfl⟩
abbrev main_cst_27 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c_28 : Ref sig .tc := ⟨.hbm, 211, rfl⟩
abbrev main_v161 : Ref sig .tc := ⟨.hbm, 212, rfl⟩
abbrev main_v162 : Ref sig .tc := ⟨.hbm, 213, rfl⟩
abbrev main_c_29 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_30 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_31 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_c_32 : Ref sig .tc := ⟨.hbm, 239, rfl⟩
abbrev main_v185 : Ref sig .tc := ⟨.hbm, 240, rfl⟩
abbrev main_v186 : Ref sig .tc := ⟨.hbm, 241, rfl⟩
abbrev main_c_33 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_cst_34 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_cst_35 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_36 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_c_37 : Ref sig .tc := ⟨.hbm, 277, rfl⟩
abbrev main_v218 : Ref sig .tc := ⟨.hbm, 278, rfl⟩
abbrev main_v219 : Ref sig .tc := ⟨.hbm, 279, rfl⟩
abbrev main_c_38 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_cst_39 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_40 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_c_41 : Ref sig .tc := ⟨.hbm, 305, rfl⟩
abbrev main_v242 : Ref sig .tc := ⟨.hbm, 306, rfl⟩
abbrev main_v243 : Ref sig .tc := ⟨.hbm, 307, rfl⟩
abbrev main_c_42 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_cst_43 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_cst_44 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_cst_45 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_cst_46 : Ref sig .tc := ⟨.hbm, 338, rfl⟩
abbrev main_v270 : Ref sig .tc := ⟨.hbm, 339, rfl⟩
abbrev main_v271 : Ref sig .tc := ⟨.hbm, 340, rfl⟩
abbrev main_cst_47 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_c_48 : Ref sig .tc := ⟨.hbm, 352, rfl⟩
abbrev main_v282 : Ref sig .tc := ⟨.hbm, 353, rfl⟩
abbrev main_v283 : Ref sig .tc := ⟨.hbm, 354, rfl⟩
abbrev main_c_49 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_cst_50 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_cst_51 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_c_52 : Ref sig .tc := ⟨.hbm, 380, rfl⟩
abbrev main_v306 : Ref sig .tc := ⟨.hbm, 381, rfl⟩
abbrev main_v307 : Ref sig .tc := ⟨.hbm, 382, rfl⟩
abbrev main_c_53 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_cst_54 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_cst_55 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_cst_56 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_v332 : Ref sig .tc := ⟨.hbm, 411, rfl⟩
abbrev main_v333 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_c_57 : Ref sig .tc := ⟨.hbm, 419, rfl⟩
abbrev main_v340 : Ref sig .tc := ⟨.hbm, 420, rfl⟩
abbrev main_v341 : Ref sig .tc := ⟨.hbm, 421, rfl⟩
abbrev main_c_58 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_cst_59 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_cst_60 : Ref sig .tc := ⟨.hbm, 434, rfl⟩
abbrev main_v352 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_v358 : Ref sig .tc := ⟨.hbm, 441, rfl⟩
abbrev main_v359 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_c_61 : Ref sig .tc := ⟨.hbm, 447, rfl⟩
abbrev main_v364 : Ref sig .tc := ⟨.hbm, 448, rfl⟩
abbrev main_v365 : Ref sig .tc := ⟨.hbm, 449, rfl⟩
abbrev main_c_62 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_cst_63 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_cst_64 : Ref sig .tc := ⟨.hbm, 462, rfl⟩
abbrev main_v376 : Ref sig .tc := ⟨.hbm, 463, rfl⟩
abbrev main_v377 : Ref sig .tc := ⟨.hbm, 464, rfl⟩
abbrev main_v378 : Ref sig .tc := ⟨.hbm, 465, rfl⟩
abbrev main_cst_65 : Ref sig .tc := ⟨.hbm, 466, rfl⟩
abbrev main_v379 : Ref sig .tc := ⟨.hbm, 467, rfl⟩
abbrev main_v380 : Ref sig .tc := ⟨.hbm, 468, rfl⟩
abbrev main_v381 : Ref sig .tc := ⟨.hbm, 469, rfl⟩
abbrev main_v382 : Ref sig .tc := ⟨.hbm, 470, rfl⟩
abbrev main_v383 : Ref sig .tc := ⟨.hbm, 471, rfl⟩
abbrev main_v384 : Ref sig .tc := ⟨.hbm, 472, rfl⟩
abbrev main_v385 : Ref sig .tc := ⟨.hbm, 473, rfl⟩
abbrev main_v386 : Ref sig .tc := ⟨.hbm, 474, rfl⟩
abbrev main_v387 : Ref sig .tc := ⟨.hbm, 475, rfl⟩
abbrev main_v388 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_cst_66 : Ref sig .tc := ⟨.hbm, 481, rfl⟩
abbrev main_v393 : Ref sig .tc := ⟨.hbm, 482, rfl⟩
abbrev main_v394 : Ref sig .tc := ⟨.hbm, 483, rfl⟩
abbrev main_v395 : Ref sig .tc := ⟨.hbm, 484, rfl⟩
abbrev main_v396 : Ref sig .tc := ⟨.hbm, 485, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  slices_S3x128x128_S1x128x128_0_0_0 : S3x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KiBody0.lean ====
/-
  Region 0 of the kernel program (the gate kernel), stated at the buffer contents `V` the region is entered from.

  The grid has 25 points; point `t` handles rows 2000·t … 2000·t + 1999 of every node-feature array. A weight matrix
  or a bias has one block, the whole array, at every point. What the body leaves in an output's staging buffer is one
  store of the whole block: the body's arithmetic (the named payloads) of the blocks it loaded.
  Here: each input's staging buffer holds its block at every point; the body's triple; the proof data of the
  pipeline; the body obligation at a generic point.
-/
import proofs.«145498_j1855425872361_1_alg».proof.Proof.Gen.KernelIdeal.Launch
import proofs.«145498_j1855425872361_1_alg».proof.Proof.Gen.KernelIdeal.Skeleton
import proofs.«145498_j1855425872361_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev r0_S2000x128 : Rect S2000x128 := Rect.unit (s := S2000x128) ![0, 0] S2000x128.size inb_S2000x128_S2000x128_0_0
abbrev r0_S128x128 : Rect S128x128 := Rect.unit (s := S128x128) ![0, 0] S128x128.size inb_S128x128_S128x128_0_0
abbrev r0_S128 : Rect S128 := Rect.unit (s := S128) ![0] S128.size inb_S128_S128_0

/-! ## What the body leaves in each output's staging buffer -/

/-- Output window 23's staging buffer after the body: its one store, of the body's arithmetic of the loaded blocks. -/
def out0_23 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128 .f32) (x20 : Vec F S128 .f32) (x21 : Vec F S128 .f32) (x22 : Vec F S128 .f32) : Vec F S2000x128 .f32 :=
  View.canon [⟨r0_S2000x128, k0_pay9 (k0_pay5 (View.ld x3 r0_S2000x128)) (k0_pay6 (View.ld x4 r0_S2000x128)) (k0_pay7 (View.ld x5 r0_S2000x128)) (k0_pay8 (View.ld x0 r0_S2000x128) (View.ld x1 r0_S2000x128) (View.ld x2 r0_S2000x128) (View.ld x7 r0_S128x128) (View.ld x8 r0_S128x128) (View.ld x9 r0_S128x128) (View.ld x19 r0_S128)) (View.ld x10 r0_S128x128) (View.ld x11 r0_S128x128) (View.ld x12 r0_S128x128) (View.ld x20 r0_S128)⟩]

/-- The store covers the buffer. -/
theorem cover0_23 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-- Output window 24's staging buffer after the body: its one store, of the body's arithmetic of the loaded blocks. -/
def out0_24 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128 .f32) (x20 : Vec F S128 .f32) (x21 : Vec F S128 .f32) (x22 : Vec F S128 .f32) : Vec F S2000x128 .f32 :=
  View.canon [⟨r0_S2000x128, k0_pay1 (k0_pay5 (View.ld x3 r0_S2000x128)) (k0_pay6 (View.ld x4 r0_S2000x128)) (k0_pay7 (View.ld x5 r0_S2000x128)) (View.ld x6 r0_S2000x128) (k0_pay10 (k0_pay2 (View.ld x0 r0_S2000x128)) (k0_pay3 (View.ld x1 r0_S2000x128)) (k0_pay4 (View.ld x2 r0_S2000x128)) (View.ld x13 r0_S128x128) (View.ld x14 r0_S128x128) (View.ld x15 r0_S128x128) (View.ld x21 r0_S128)) (View.ld x16 r0_S128x128) (View.ld x17 r0_S128x128) (View.ld x18 r0_S128x128) (View.ld x22 r0_S128)⟩]

/-- The store covers the buffer. -/
theorem cover0_24 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-! ## The body's triple -/

set_option maxHeartbeats 4000000 in
/-- The kernel body on whole staging memrefs, the inputs' at read contents `xW` and the outputs' at anything, runs to the
    continuation holding the inputs' as they were and each output's at its one store of the payload of the inputs'. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128 .f32) (harg20 : arg20.IsWhole) (arg21 : Memref sig .tc .vmem S128 .f32) (harg21 : arg21.IsWhole) (arg22 : Memref sig .tc .vmem S128 .f32) (harg22 : arg22.IsWhole) (arg23 : Memref sig .tc .vmem S128 .f32) (harg23 : arg23.IsWhole) (arg24 : Memref sig .tc .vmem S2000x128 .f32) (harg24 : arg24.IsWhole) (arg25 : Memref sig .tc .vmem S2000x128 .f32) (harg25 : arg25.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128 .f32) (x20 : Vec F S128 .f32) (x21 : Vec F S128 .f32) (x22 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 x0 x1 x2 x3 x4 x5 x6 x7 x8 x9 x10 x11 x12 x13 x14 x15 x16 x17 x18 x19 x20 x21 x22) ∗ owns (c : Thread nD τ) arg25 fullShare (out0_24 x0 x1 x2 x3 x4 x5 x6 x7 x8 x9 x10 x11 x12 x13 x14 x15 x16 x17 x18 x19 x20 x21 x22)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__gate_kernel_eq_skeleton]; unfold cc0__gate_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    try dsimp only
    exact View.read_writes_eq_canon _ _ _ (cover0_23 _)
  iexists _; isplitr
  swap; · iexact H24
  ipureintro
  try dsimp only
  exact View.read_writes_eq_canon _ _ _ (cover0_24 _)

/-! ## The pipeline's proof data -/

/-- The proof data of pipeline 0 on core `c`: the arrays as the region finds them; after the body at point `t` each
    input's buffer at its block and each output's at its store of the input blocks' payload; the invariant the scoped
    rest and the generator register, untouched; nothing owed; the state array, read through two windows (as the
    state's first basis and as the state itself), is held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t)
    | ⟨24, _⟩ => out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t)
    | ⟨_ + 25, h⟩ => absurd h (Nat.not_lt.2 (Nat.le_add_left _ _))
  Φ _ := Pipeline.ΦA spec0 c
  q w := if w = 3 then fullShare.left else if w = 6 then fullShare.right else fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) := by dsimp only [dat0]
theorem after0_24 (c : Dev nD) (t : Fin cfg0.N) : (dat0 V c).after 24 t = out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel0 c Set.univ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  Region 1 of the kernel program (the candidate kernel), stated at the buffer contents `V` the region is entered from.

  The grid has 25 points; point `t` handles rows 2000·t … 2000·t + 1999 of every node-feature array. A weight matrix
  or a bias has one block, the whole array, at every point. What the body leaves in an output's staging buffer is one
  store of the whole block: the body's arithmetic (the named payloads) of the blocks it loaded.
  Here: each input's staging buffer holds its block at every point; the body's triple; the proof data of the
  pipeline; the body obligation at a generic point.
-/
import proofs.«145498_j1855425872361_1_alg».proof.Proof.Gen.KernelIdeal.Launch
import proofs.«145498_j1855425872361_1_alg».proof.Proof.Gen.KernelIdeal.Skeleton
import proofs.«145498_j1855425872361_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/

abbrev r1_S2000x128 : Rect S2000x128 := Rect.unit (s := S2000x128) ![0, 0] S2000x128.size inb_S2000x128_S2000x128_0_0
abbrev r1_S128x128 : Rect S128x128 := Rect.unit (s := S128x128) ![0, 0] S128x128.size inb_S128x128_S128x128_0_0
abbrev r1_S128 : Rect S128 := Rect.unit (s := S128) ![0] S128.size inb_S128_S128_0

/-! ## What the body leaves in each output's staging buffer -/

/-- Output window 16's staging buffer after the body: its one store, of the body's arithmetic of the loaded blocks. -/
def out1_16 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128 .f32) (x15 : Vec F S128 .f32) : Vec F S2000x128 .f32 :=
  View.canon [⟨r1_S2000x128, k1_pay1 (k1_pay2 (View.ld x3 r1_S2000x128)) (k1_pay3 (View.ld x4 r1_S2000x128)) (k1_pay4 (View.ld x5 r1_S2000x128)) (k1_pay5 (View.ld x6 r1_S2000x128)) (View.ld x7 r1_S2000x128) (k1_pay6 (View.ld x0 r1_S2000x128) (View.ld x1 r1_S2000x128) (View.ld x2 r1_S2000x128) (View.ld x8 r1_S128x128) (View.ld x9 r1_S128x128) (View.ld x10 r1_S128x128)) (View.ld x14 r1_S128) (View.ld x11 r1_S128x128) (View.ld x12 r1_S128x128) (View.ld x13 r1_S128x128) (View.ld x15 r1_S128)⟩]

/-- The store covers the buffer. -/
theorem cover1_16 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

/-! ## The body's triple -/

set_option maxHeartbeats 4000000 in
/-- The kernel body on whole staging memrefs, the inputs' at read contents `xW` and the outputs' at anything, runs to the
    continuation holding the inputs' as they were and each output's at its one store of the payload of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128 .f32) (harg16 : arg16.IsWhole) (arg17 : Memref sig .tc .vmem S2000x128 .f32) (harg17 : arg17.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128 .f32) (x15 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out1_16 x0 x1 x2 x3 x4 x5 x6 x7 x8 x9 x10 x11 x12 x13 x14 x15)) -∗ K ⟨⟩))
      ⊢ wp frame (wpE (defs₀ (F := F)) Variants.none c none) E (cc1__cand_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__cand_kernel_eq_skeleton]; unfold cc1__cand_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover1_16 _)

/-! ## The pipeline's proof data -/

/-- The proof data of pipeline 1 on core `c`: the arrays as the region finds them; after the body at point `t` each
    input's buffer at its block and each output's at its store of the input blocks' payload; the invariant the scoped
    rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiKept.lean ====
/-
  The host stretches of the kernel program write only their own result buffers: each stretch's list of written
  buffers, and that a buffer outside the list keeps its contents through the stretch. (The sixteen argument arrays
  are outside every list: no host operation writes an argument.)
-/
import proofs.«145498_j1855425872361_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- A one-buffer write set lies in a list's set when the buffer is in the list. -/
theorem writes_sub_of_mem {W : List (Ref sig .tc)} {y : Ref sig .tc} (h : y ∈ W) :
    ({Proc.devRef .tc y} : Finset (DevRef τ sig)) ⊆ (W.map (Proc.devRef (τ := τ) .tc)).toFinset := by
  rw [Finset.singleton_subset_iff, List.mem_toFinset]
  exact List.mem_map_of_mem h

/-- The buffers `hostOps0` writes, in order. -/
abbrev wr_hostOps0 : List (Ref sig .tc) := [main_v0, main_v1, main_v2, main_v3, main_cst, main_v4, main_v5, main_v6, main_cst_0, main_v7, main_v8, main_cst_1, main_v9, main_v10, main_cst_2]

theorem hostOps0_writes : (hostOps0 : List (HloOp τ sig (Elt F))).Forall fun op => op.writes ⊆ ((wr_hostOps0).map (Proc.devRef (τ := τ) .tc)).toFinset := by
  simp only [hostOps0, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0` does not write keeps its contents through it. -/
theorem keep_hostOps0 (V : Valuation τ sig (Elt F)) (r : Ref sig .tc) (hr : r ∉ wr_hostOps0) :
    StableHlo.after (hostOps0 : List (HloOp τ sig (Elt F))) V (Proc.devRef .tc r) = V (Proc.devRef .tc r) :=
  StableHlo.after_of_writes_sub _ V hostOps0_writes hr

/-- No operation of `hostOps0` allocates a buffer. -/
theorem hostOps0_fresh : (hostOps0 : List (HloOp τ sig (Elt F))).Forall fun op => op.fresh = ∅ := by
  simp only [List.Forall]; repeat' constructor

/-- The buffers `hostOps0_1` writes, in order. -/
abbrev wr_hostOps0_1 : List (Ref sig .tc) := [main_call0_v0, main_call0_v1, main_v11]

theorem hostOps0_1_writes : (hostOps0_1 : List (HloOp τ sig (Elt F))).Forall fun op => op.writes ⊆ ((wr_hostOps0_1).map (Proc.devRef (τ := τ) .tc)).toFinset := by
  simp only [hostOps0_1, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_1` does not write keeps its contents through it. -/
theorem keep_hostOps0_1 (V : Valuation τ sig (Elt F)) (r : Ref sig .tc) (hr : r ∉ wr_hostOps0_1) :
    StableHlo.after (hostOps0_1 : List (HloOp τ sig (Elt F))) V (Proc.devRef .tc r) = V (Proc.devRef .tc r) :=
  StableHlo.after_of_writes_sub _ V hostOps0_1_writes hr

/-- No operation of `hostOps0_1` allocates a buffer. -/
theorem hostOps0_1_fresh : (hostOps0_1 : List (HloOp τ sig (Elt F))).Forall fun op => op.fresh = ∅ := by
  simp only [List.Forall]; repeat' constructor

/-- The buffers `hostOps0_2` writes, in order. -/
abbrev wr_hostOps0_2 : List (Ref sig .tc) := [main_v12, main_cst_3]

theorem hostOps0_2_writes : (hostOps0_2 : List (HloOp τ sig (Elt F))).Forall fun op => op.writes ⊆ ((wr_hostOps0_2).map (Proc.devRef (τ := τ) .tc)).toFinset := by
  simp only [hostOps0_2, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_2` does not write keeps its contents through it. -/
theorem keep_hostOps0_2 (V : Valuation τ sig (Elt F)) (r : Ref sig .tc) (hr : r ∉ wr_hostOps0_2) :
    StableHlo.after (hostOps0_2 : List (HloOp τ sig (Elt F))) V (Proc.devRef .tc r) = V (Proc.devRef .tc r) :=
  StableHlo.after_of_writes_sub _ V hostOps0_2_writes hr

/-- No operation of `hostOps0_2` allocates a buffer. -/
theorem hostOps0_2_fresh : (hostOps0_2 : List (HloOp τ sig (Elt F))).Forall fun op => op.fresh = ∅ := by
  simp only [List.Forall]; repeat' constructor

/-- The buffers `hostOps0_3` writes, in order. -/
abbrev wr_hostOps0_3 : List (Ref sig .tc) := [main_call1_v0, main_call1_v1, main_v13]

theorem hostOps0_3_writes : (hostOps0_3 : List (HloOp τ sig (Elt F))).Forall fun op => op.writes ⊆ ((wr_hostOps0_3).map (Proc.devRef (τ := τ) .tc)).toFinset := by
  simp only [hostOps0_3, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_3` does not write keeps its contents through it. -/
theorem keep_hostOps0_3 (V : Valuation τ sig (Elt F)) (r : Ref sig .tc) (hr : r ∉ wr_hostOps0_3) :
    StableHlo.after (hostOps0_3 : List (HloOp τ sig (Elt F))) V (Proc.devRef .tc r) = V (Proc.devRef .tc r) :=
  StableHlo.after_of_writes_sub _ V hostOps0_3_writes hr

/-- No operation of `hostOps0_3` allocates a buffer. -/
theorem hostOps0_3_fresh : (hostOps0_3 : List (HloOp τ sig (Elt F))).Forall fun op => op.fresh = ∅ := by
  simp only [List.Forall]; repeat' constructor

/-- The buffers `hostOps0_4` writes, in order. -/
abbrev wr_hostOps0_4 : List (Ref sig .tc) := [main_c, main_v14, main_v15, main_c_4, main_v16, main_v17, main_v18, main_v19, main_v20, main_cst_5, main_v21, main_v22, main_v23, main_c_6, main_v24, main_v25, main_c_7, main_v26, main_v27, main_v28, main_v29, main_v30, main_v31, main_v32, main_v33, main_v34, main_v35, main_v36, main_c_8, main_v37, main_v38, main_c_9, main_v39, main_v40, main_v41, main_v42, main_v43, main_v44, main_v45, main_cst_10, main_v46, main_v47, main_v48, main_cst_11, main_v49, main_v50, main_v51, main_v52, main_v53, main_v54, main_v55, main_v56, main_c_12, main_v57, main_v58, main_c_13, main_v59, main_v60, main_v61, main_v62, main_v63, main_v64, main_v65, main_cst_14, main_v66, main_v67, main_v68, main_cst_15, main_v69, main_v70, main_v71, main_cst_16, main_v72, main_v73, main_v74, main_v75, main_v76, main_v77, main_v78, main_v79, main_c_17, main_v80, main_v81, main_c_18, main_v82, main_v83, main_v84, main_v85, main_v86, main_v87, main_v88, main_cst_19, main_v89, main_v90, main_v91, main_cst_20, main_v92, main_v93, main_v94, main_v95, main_v96, main_v97, main_v98, main_v99, main_c_21, main_v100, main_v101, main_c_22, main_v102, main_v103, main_v104, main_v105, main_v106, main_v107, main_v108, main_cst_23, main_v109, main_v110, main_v111, main_cst_24, main_v112, main_v113, main_v114, main_cst_25, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153]

theorem hostOps0_4_writes : (hostOps0_4 : List (HloOp τ sig (Elt F))).Forall fun op => op.writes ⊆ ((wr_hostOps0_4).map (Proc.devRef (τ := τ) .tc)).toFinset := by
  simp only [hostOps0_4, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_4` does not write keeps its contents through it. -/
theorem keep_hostOps0_4 (V : Valuation τ sig (Elt F)) (r : Ref sig .tc) (hr : r ∉ wr_hostOps0_4) :
    StableHlo.after (hostOps0_4 : List (HloOp τ sig (Elt F))) V (Proc.devRef .tc r) = V (Proc.devRef .tc r) :=
  StableHlo.after_of_writes_sub _ V hostOps0_4_writes hr

/-- No operation of `hostOps0_4` allocates a buffer. -/
theorem hostOps0_4_fresh : (hostOps0_4 : List (HloOp τ sig (Elt F))).Forall fun op => op.fresh = ∅ := by
  simp only [List.Forall]; repeat' constructor

/-- The buffers `hostOps1` writes, in order. -/
abbrev wr_hostOps1 : List (Ref sig .tc) := [main_v155, main_v156, main_v157, main_v158, main_v159, main_c_26, main_v160, main_v161, main_c_27, main_v162, main_v163, main_v164, main_v165, main_v166, main_v167, main_v168, main_cst_28, main_v169, main_v170, main_v171, main_cst_29, main_v172, main_v173, main_v174, main_v175, main_v176, main_v177, main_v178, main_v179, main_c_30, main_v180, main_v181, main_c_31, main_v182, main_v183, main_v184, main_v185, main_v186, main_v187, main_v188, main_cst_32, main_v189, main_v190, main_v191, main_cst_33, main_v192, main_v193, main_v194, main_cst_34, main_v195, main_v196, main_v197]

theorem hostOps1_writes : (hostOps1 : List (HloOp τ sig (Elt F))).Forall fun op => op.writes ⊆ ((wr_hostOps1).map (Proc.devRef (τ := τ) .tc)).toFinset := by
  simp only [hostOps1, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps1` does not write keeps its contents through it. -/
theorem keep_hostOps1 (V : Valuation τ sig (Elt F)) (r : Ref sig .tc) (hr : r ∉ wr_hostOps1) :
    StableHlo.after (hostOps1 : List (HloOp τ sig (Elt F))) V (Proc.devRef .tc r) = V (Proc.devRef .tc r) :=
  StableHlo.after_of_writes_sub _ V hostOps1_writes hr

/-- No operation of `hostOps1` allocates a buffer. -/
theorem hostOps1_fresh : (hostOps1 : List (HloOp τ sig (Elt F))).Forall fun op => op.fresh = ∅ := by
  simp only [List.Forall]; repeat' constructor

end Cert.KernelIdeal.Hand

end
-- ==== Proof.KiChain.lean ====
/-
  The buffer contents at each boundary of the kernel program's @main, a fold from the launch memory: five stretches
  of host operations (the graph normalisation, the Chebyshev bases of the input and of the state, the weight slices),
  the gate kernel's region, one more stretch (the bases of the reset state), the candidate kernel's region.
  A region leaves its output arrays at what its write-backs make of them and every other buffer as entered.
-/
import proofs.«145498_j1855425872361_1_alg».proof.Proof.KiBody0
import proofs.«145498_j1855425872361_1_alg».proof.Proof.KiBody1
import proofs.«145498_j1855425872361_1_alg».proof.Proof.KiKept

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- At the gate kernel's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At the gate kernel's exit: its two outputs at what the write-backs leave, every other buffer as entered. -/
def W6 (c : Dev nD) : Valuation τ sig (Elt F) :=
  Function.update (Function.update (W5 m ρ c) (Proc.devRef .tc main_v154_0) ((dat0 (V5 m ρ) c).arrAt 23 cfg0.N))
    (Proc.devRef .tc main_v154_1) ((dat0 (V5 m ρ) c).arrAt 24 cfg0.N)
abbrev V6 : (c : Dev nD) → (b : Ref sig .tc) → Buf (Elt F) ((c : Thread nD τ).loc b) := fun c b => W6 m ρ c b
/-- At the candidate kernel's entry. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At the candidate kernel's exit. -/
def W8 (c : Dev nD) : Valuation τ sig (Elt F) :=
  Function.update (W7 m ρ c) (Proc.devRef .tc main_v198) ((dat1 (V7 m ρ) c).arrAt 16 cfg1.N)
abbrev V8 : (c : Dev nD) → (b : Ref sig .tc) → Buf (Elt F) ((c : Thread nD τ).loc b) := fun c b => W8 m ρ c b

theorem W6_z (c : Dev nD) : W6 m ρ c (Proc.devRef .tc main_v154_0) = (dat0 (V5 m ρ) c).arrAt 23 cfg0.N := by
  unfold W6
  rw [Function.update_of_ne (StableHlo.devRef_ne_of_ne (by decide)), Function.update_self]
theorem W6_hr (c : Dev nD) : W6 m ρ c (Proc.devRef .tc main_v154_1) = (dat0 (V5 m ρ) c).arrAt 24 cfg0.N := by
  unfold W6
  rw [Function.update_self]
theorem W6_of_ne (c : Dev nD) (b : Ref sig .tc) (h0 : b ≠ main_v154_0) (h1 : b ≠ main_v154_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
theorem W8_out (c : Dev nD) : W8 m ρ c (Proc.devRef .tc main_v198) = (dat1 (V7 m ρ) c).arrAt 16 cfg1.N := by
  unfold W8
  rw [Function.update_self]
theorem W8_of_ne (c : Dev nD) (b : Ref sig .tc) (h : b ≠ main_v198) :
    W8 m ρ c (Proc.devRef .tc b) = W7 m ρ c (Proc.devRef .tc b) := by
  unfold W8
  rw [Function.update_of_ne (StableHlo.devRef_ne_of_ne h)]

/-- A buffer no host operation and no region writes ends as launched. -/
theorem W8_kept (c : Dev nD) (r : Ref sig .tc) (h0 : r ∉ wr_hostOps0) (h1 : r ∉ wr_hostOps0_1) (h2 : r ∉ wr_hostOps0_2)
    (h3 : r ∉ wr_hostOps0_3) (h4 : r ∉ wr_hostOps0_4) (h5 : r ∉ wr_hostOps1)
    (hz : r ≠ main_v154_0) (hhr : r ≠ main_v154_1) (ho : r ≠ main_v198) :
    W8 m ρ c (Proc.devRef .tc r) = m ((c : Thread nD τ).loc r) := by
  rw [W8_of_ne m ρ c r ho]
  unfold W7
  rw [keep_hostOps1 _ r h5, W6_of_ne m ρ c r hz hhr]
  unfold W5 W4 W3 W2 W1
  rw [keep_hostOps0_4 _ r h4, keep_hostOps0_3 _ r h3, keep_hostOps0_2 _ r h2, keep_hostOps0_1 _ r h1, keep_hostOps0 _ r h0]

theorem W8_main_arg0 (c : Dev nD) : W8 m ρ c (Proc.devRef .tc main_arg0) = m ((c : Thread nD τ).loc main_arg0) :=
  W8_kept m ρ c main_arg0 (by decide) (by decide) (by decide) (by decide) (by decide) (by decide) (by decide) (by decide) (by decide)
theorem W8_main_arg1 (c : Dev nD) : W8 m ρ c (Proc.devRef .tc main_arg1) = m ((c : Thread nD τ).loc main_arg1) :=
  W8_kept m ρ c main_arg1 (by decide) (by decide) (by decide) (by decide) (by decide) (by decide) (by decide) (by decide) (by decide)
theorem W8_main_arg2 (c : Dev nD) : W8 m ρ c (Proc.devRef .tc main_arg2) = m ((c : Thread nD τ).loc main_arg2) :=
  W8_kept m ρ c main_arg2 (by decide) (by decide) (by decide) (by decide) (by decide) (by decide) (by decide) (by decide) (by decide)
theorem W8_main_arg3 (c : Dev nD) : W8 m ρ c (Proc.devRef .tc main_arg3) = m ((c : Thread nD τ).loc main_arg3) :=
  W8_kept m ρ c main_arg3 (by decide) (by decide) (by decide) (by decide) (by decide) (by decide) (by decide) (by decide) (by decide)
theorem W8_main_arg4 (c : Dev nD) : W8 m ρ c (Proc.devRef .tc main_arg4) = m ((c : Thread nD τ).loc main_arg4) :=
  W8_kept m ρ c main_arg4 (by decide) (by decide) (by decide) (by decide) (by decide) (by decide) (by decide) (by decide) (by decide)
theorem W8_main_arg5 (c : Dev nD) : W8 m ρ c (Proc.devRef .tc main_arg5) = m ((c : Thread nD τ).loc main_arg5) :=
  W8_kept m ρ c main_arg5 (by decide) (by decide) (by decide) (by decide) (by decide) (by decide) (by decide) (by decide) (by decide)
theorem W8_main_arg6 (c : Dev nD) : W8 m ρ c (Proc.devRef .tc main_arg6) = m ((c : Thread nD τ).loc main_arg6) :=
  W8_kept m ρ c main_arg6 (by decide) (by decide) (by decide) (by decide) (by decide) (by decide) (by decide) (by decide) (by decide)
theorem W8_main_arg7 (c : Dev nD) : W8 m ρ c (Proc.devRef .tc main_arg7) = m ((c : Thread nD τ).loc main_arg7) :=
  W8_kept m ρ c main_arg7 (by decide) (by decide) (by decide) (by decide) (by decide) (by decide) (by decide) (by decide) (by decide)
theorem W8_main_arg8 (c : Dev nD) : W8 m ρ c (Proc.devRef .tc main_arg8) = m ((c : Thread nD τ).loc main_arg8) :=
  W8_kept m ρ c main_arg8 (by decide) (by decide) (by decide) (by decide) (by decide) (by decide) (by decide) (by decide) (by decide)
theorem W8_main_arg9 (c : Dev nD) : W8 m ρ c (Proc.devRef .tc main_arg9) = m ((c : Thread nD τ).loc main_arg9) :=
  W8_kept m ρ c main_arg9 (by decide) (by decide) (by decide) (by decide) (by decide) (by decide) (by decide) (by decide) (by decide)
theorem W8_main_arg10 (c : Dev nD) : W8 m ρ c (Proc.devRef .tc main_arg10) = m ((c : Thread nD τ).loc main_arg10) :=
  W8_kept m ρ c main_arg10 (by decide) (by decide) (by decide) (by decide) (by decide) (by decide) (by decide) (by decide) (by decide)
theorem W8_main_arg11 (c : Dev nD) : W8 m ρ c (Proc.devRef .tc main_arg11) = m ((c : Thread nD τ).loc main_arg11) :=
  W8_kept m ρ c main_arg11 (by decide) (by decide) (by decide) (by decide) (by decide) (by decide) (by decide) (by decide) (by decide)
theorem W8_main_arg12 (c : Dev nD) : W8 m ρ c (Proc.devRef .tc main_arg12) = m ((c : Thread nD τ).loc main_arg12) :=
  W8_kept m ρ c main_arg12 (by decide) (by decide) (by decide) (by decide) (by decide) (by decide) (by decide) (by decide) (by decide)
theorem W8_main_arg13 (c : Dev nD) : W8 m ρ c (Proc.devRef .tc main_arg13) = m ((c : Thread nD τ).loc main_arg13) :=
  W8_kept m ρ c main_arg13 (by decide) (by decide) (by decide) (by decide) (by decide) (by decide) (by decide) (by decide) (by decide)
theorem W8_main_arg14 (c : Dev nD) : W8 m ρ c (Proc.devRef .tc main_arg14) = m ((c : Thread nD τ).loc main_arg14) :=
  W8_kept m ρ c main_arg14 (by decide) (by decide) (by decide) (by decide) (by decide) (by decide) (by decide) (by decide) (by decide)
theorem W8_main_arg15 (c : Dev nD) : W8 m ρ c (Proc.devRef .tc main_arg15) = m ((c : Thread nD τ).loc main_arg15) :=
  W8_kept m ρ c main_arg15 (by decide) (by decide) (by decide) (by decide) (by decide) (by decide) (by decide) (by decide) (by decide)

end Cert.KernelIdeal.Hand

end
-- ==== Proof.KiShare.lean ====
/-
  The gate kernel reads the state array through TWO windows (as the first Chebyshev basis of the state and as the
  state itself). Its 25 windows therefore stand on 24 distinct buffers, and the state array's buffer, held whole at
  the region's entry, is dealt to the two windows half and half; at the exit the halves — both input windows, so both
  still at the entry contents — are put together again. Every other window holds its buffer whole.
-/
import proofs.«145498_j1855425872361_1_alg».proof.Proof.KiBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows but the second one on the state array. -/
abbrev S0 : Finset (Fin 25) := Finset.univ.erase 6

theorem image0 : Finset.univ.image (Pipeline.arrRef spec0) = S0.image (Pipeline.arrRef spec0) := by decide

theorem inj0 : Set.InjOn (Pipeline.arrRef spec0) (S0 : Set (Fin 25)) := by
  have h : ∀ a b : Fin 25, a ≠ 6 → b ≠ 6 → Pipeline.arrRef spec0 a = Pipeline.arrRef spec0 b → a = b := by decide
  intro a ha b hb e
  exact h a b (Finset.ne_of_mem_erase ha) (Finset.ne_of_mem_erase hb) e

theorem share0_3 (c : Dev nD) : (dat0 V c).share 3 = fullShare.left := rfl
theorem share0_6 (c : Dev nD) : (dat0 V c).share 6 = fullShare.right := rfl
theorem share0_of_ne (c : Dev nD) (w : Fin 25) (h3 : w ≠ 3) (h6 : w ≠ 6) : (dat0 V c).share w = fullShare := by
  unfold Dat.share
  dsimp only [dat0]
  split
  · rfl
  · first | rfl | (rw [if_neg h3, if_neg h6])

/-- ENTRY: the distinct buffers behind the windows, each whole at the entry contents, are the windows' arrays at the
    proof data's shares. -/
theorem arrays_of_arrBufs0 (c : Dev nD) :
    (Pipeline.arrBufs (Ix := Unit) (Name := ℕ) (U := UR sig nD τ) (Lvl := ℕ) spec0 c (V c) : sProp 𝕄) ⊢ (dat0 V c).arrays (dat0 V c).A := by
  unfold Pipeline.arrBufs Dat.arrays
  rw [image0, bigSep_image_of_injOn inj0, bigSep_erase (s := S0) (i := (3 : Fin 25)) (by decide),
    bigSep_univ_split (6 : Fin 25), bigSep_erase (s := Finset.univ.erase (6 : Fin 25)) (i := (3 : Fin 25)) (by decide)]
  have h36 : ((((c : Thread nD τ).loc (Pipeline.arrRef spec0 3)) ↦{fullShare} V c (Pipeline.arrRef spec0 3)) : sProp 𝕄)
      ⊢ iprop(((cfg0.win 3).arr.view.loc (c : Thread nD τ) ↦[(cfg0.win 3).arr.view.set]{(dat0 V c).share 3} (dat0 V c).A 3)
        ∗ ((cfg0.win 6).arr.view.loc (c : Thread nD τ) ↦[(cfg0.win 6).arr.view.set]{(dat0 V c).share 6} (dat0 V c).A 6)) := by
    rw [share0_3, share0_6, (arr_whole0 3).set_eq_univ, A_eq0, A_eq0]
    exact (pointsTo_share (PosShare.mem_left_op_right fullShare)).1
  have hrest : ∀ w ∈ (S0.erase 3), ((((c : Thread nD τ).loc (Pipeline.arrRef spec0 w)) ↦{fullShare} V c (Pipeline.arrRef spec0 w)) : sProp 𝕄)
      ⊢ ((cfg0.win w).arr.view.loc (c : Thread nD τ) ↦[(cfg0.win w).arr.view.set]{(dat0 V c).share w} (dat0 V c).A w) := by
    intro w hw
    rw [share0_of_ne V c w (Finset.ne_of_mem_erase hw) (Finset.ne_of_mem_erase (Finset.mem_of_mem_erase hw)), (arr_whole0 w).set_eq_univ]
    exact .rfl
  exact (BI.sep_mono h36 (bigSep_mono hrest)).trans ((BI.sep_mono_l BI.sep_comm).trans BI.sep_assoc)

/-- EXIT: the windows' arrays at contents `G`, the two windows on the state array at the same contents, are the
    distinct buffers behind them, each whole at `G`'s contents. -/
theorem arrBufs_of_arrays0 (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (dat0 V c).arrays G ⊢ (Pipeline.arrBufs (Ix := Unit) (Name := ℕ) (U := UR sig nD τ) (Lvl := ℕ) spec0 c V' : sProp 𝕄) := by
  unfold Pipeline.arrBufs Dat.arrays
  rw [image0, bigSep_image_of_injOn inj0, bigSep_erase (s := S0) (i := (3 : Fin 25)) (by decide),
    bigSep_univ_split (6 : Fin 25), bigSep_erase (s := Finset.univ.erase (6 : Fin 25)) (i := (3 : Fin 25)) (by decide)]
  have h36 : iprop(((cfg0.win 3).arr.view.loc (c : Thread nD τ) ↦[(cfg0.win 3).arr.view.set]{(dat0 V c).share 3} G 3)
        ∗ ((cfg0.win 6).arr.view.loc (c : Thread nD τ) ↦[(cfg0.win 6).arr.view.set]{(dat0 V c).share 6} G 6))
      ⊢ ((((c : Thread nD τ).loc (Pipeline.arrRef spec0 3)) ↦{fullShare} V' (Pipeline.arrRef spec0 3)) : sProp 𝕄) := by
    rw [share0_3, share0_6, (arr_whole0 3).set_eq_univ, hG 3, hG 6]
    exact (pointsTo_share (PosShare.mem_left_op_right fullShare)).2
  have hrest : ∀ w ∈ (S0.erase 3), ((cfg0.win w).arr.view.loc (c : Thread nD τ) ↦[(cfg0.win w).arr.view.set]{(dat0 V c).share w} G w)
      ⊢ ((((c : Thread nD τ).loc (Pipeline.arrRef spec0 w)) ↦{fullShare} V' (Pipeline.arrRef spec0 w)) : sProp 𝕄) := by
    intro w hw
    rw [share0_of_ne V c w (Finset.ne_of_mem_erase hw) (Finset.ne_of_mem_erase (Finset.mem_of_mem_erase hw)), (arr_whole0 w).set_eq_univ, hG w] <;> exact .rfl
  exact (BI.sep_assoc'.trans (BI.sep_mono_l BI.sep_comm)).trans (BI.sep_mono h36 (bigSep_mono hrest))

end Cert.KernelIdeal.Hand

end
-- ==== Proof.KiSegs.lean ====
/-
  The kernel program's run: @main as eight segments — five stretches of host operations, the gate kernel's region,
  one more stretch, the candidate kernel's region — over the thread state "every unscoped buffer at the boundary's
  contents, the generator register at some state, nothing owed". Each region splits its windows' arrays out of the
  unscoped buffers at its entry and puts them back, at what its write-backs leave, at its exit. The launch over the
  segments gives: every weakly fair execution terminates, nothing faults, the result array ends at what the candidate
  kernel's write-backs leave, and the sixteen argument arrays end as launched.
-/
import proofs.«145498_j1855425872361_1_alg».proof.Proof.KiBody0
import proofs.«145498_j1855425872361_1_alg».proof.Proof.KiBody1
import proofs.«145498_j1855425872361_1_alg».proof.Proof.KiKept
import proofs.«145498_j1855425872361_1_alg».proof.Proof.KiChain
import proofs.«145498_j1855425872361_1_alg».proof.Proof.KiShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each region's arrays at its exit, and the rest as entered -/

theorem isIn0 : ∀ w : Fin 25, w ≠ 23 → w ≠ 24 → (cfg0.win w).isOut = false := by decide
theorem arr0_ne_z : ∀ w : Fin 25, w ≠ 23 → Pipeline.arrRef spec0 w ≠ main_v154_0 := by decide
theorem arr0_ne_hr : ∀ w : Fin 25, w ≠ 24 → Pipeline.arrRef spec0 w ≠ main_v154_1 := by decide

theorem hF0 (c : Dev nD) (w : Fin cfg0.W) : (dat0 (V5 m ρ) c).arrAt w cfg0.N = V6 m ρ c (Pipeline.arrRef spec0 w) := by
  by_cases h23 : w = 23
  · subst h23; exact (W6_z m ρ c).symm
  by_cases h24 : w = 24
  · subst h24; exact (W6_hr m ρ c).symm
  exact ((dat0 (V5 m ρ) c).arrAt_in w (isIn0 w h23 h24) _).trans
    ((A_eq0 (V5 m ρ) c w).trans (W6_of_ne m ρ c _ (arr0_ne_z w h23) (arr0_ne_hr w h24)).symm)

theorem hrest0 (c : Dev nD) : ∀ b, b ∉ Finset.univ.image (Pipeline.arrRef spec0) → V6 m ρ c b = V5 m ρ c b :=
  fun b hb => W6_of_ne m ρ c b
    (fun e => hb (Finset.mem_image.mpr ⟨23, Finset.mem_univ _, (show Pipeline.arrRef spec0 23 = main_v154_0 from rfl).trans e.symm⟩))
    (fun e => hb (Finset.mem_image.mpr ⟨24, Finset.mem_univ _, (show Pipeline.arrRef spec0 24 = main_v154_1 from rfl).trans e.symm⟩))

theorem isIn1 : ∀ w : Fin 17, w ≠ 16 → (cfg1.win w).isOut = false := by decide
theorem arr1_ne_out : ∀ w : Fin 17, w ≠ 16 → Pipeline.arrRef spec1 w ≠ main_v198 := by decide

theorem hF1 (c : Dev nD) (w : Fin cfg1.W) : (dat1 (V7 m ρ) c).arrAt w cfg1.N = V8 m ρ c (Pipeline.arrRef spec1 w) := by
  by_cases h16 : w = 16
  · subst h16; exact (W8_out m ρ c).symm
  exact ((dat1 (V7 m ρ) c).arrAt_in w (isIn1 w h16) _).trans
    ((A_eq1 (V7 m ρ) c w).trans (W8_of_ne m ρ c _ (arr1_ne_out w h16)).symm)

theorem hrest1 (c : Dev nD) : ∀ b, b ∉ Finset.univ.image (Pipeline.arrRef spec1) → V8 m ρ c b = V7 m ρ c b :=
  fun b hb => W8_of_ne m ρ c b
    (fun e => hb (Finset.mem_image.mpr ⟨16, Finset.mem_univ _, (show Pipeline.arrRef spec1 16 = main_v198 from rfl).trans e.symm⟩))

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The gate kernel's region: entered from every unscoped buffer at `W5`, left at `W6`. The state array's buffer is
    dealt to its two windows at the entry and put together again at the exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit : (unscopedBufs (Ix := Unit) (Name := ℕ) (U := UR sig nD τ) (Lvl := ℕ) c (V5 m ρ c) : sProp 𝕄)
        ⊢ iprop((pdats m ρ 0 c).arrays ((pdats m ρ 0 c).arrAt · 0) ∗ Pipeline.unscopedRest spec0 c (V5 m ρ c)) := by
      rw [Pipeline.unscopedBufs_split₀ cfgs 0 winFacts₀0.arr_unscoped c (V5 m ρ c)]
      exact sep_mono (arrays_of_arrBufs0 (V5 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V5 m ρ c))
        ⊢ (unscopedBufs (Ix := Unit) (Name := ℕ) (U := UR sig nD τ) (Lvl := ℕ) c (V6 m ρ c) : sProp 𝕄) := by
      rw [Pipeline.unscopedBufs_split₀ cfgs 0 winFacts₀0.arr_unscoped c (V6 m ρ c)]
      refine sep_mono (arrBufs_of_arrays0 (V5 m ρ) c (V6 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The candidate kernel's region: entered from every unscoped buffer at `W7`, left at `W8`; its windows stand on
    distinct buffers, each held whole. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]

/-- @main is the run of the segments: its chain of items is the segments' fragments in order. -/
theorem main_run (c : Dev nD) : main (F := F) c = Pipeline.Seg.run (segs m ρ) :=
  (main_chain c).trans (by rw [Pipeline.Seg.run_eq_chain]; rfl)

set_option backward.isDefEq.respectTransparency.types false in
/-- THE RUN: from any memory with zero counters, every weakly fair execution of @main on the TensorCores terminates,
    nothing faulting, with the result array at what the candidate kernel's write-backs leave of the contents it was
    entered from, and the sixteen argument arrays as launched. -/
theorem run_main : θ_run defs (onTc (τ := τ) (main (F := F))) ⟨m, fun _ => 0, ρ⟩ (fun r => ∀ c : Dev nD,
      r.2.mem ((c.tc : Thread nD τ).loc main_v198) = (dat1 (V7 m ρ) c).arrAt 16 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v198 (by decide))).trans (W8_out m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Cert.KernelIdeal.Hand

end
-- ==== Proof.KbBody0.lean ====
/-
  Region 0 of the kernel program (the gate kernel), stated at the buffer contents `V` the region is entered from.

  The grid has 25 points; point `t` handles rows 2000·t … 2000·t + 1999 of every node-feature array. A weight matrix
  or a bias has one block, the whole array, at every point. What the body leaves in an output's staging buffer is one
  store of the whole block: the body's arithmetic (the named payloads) of the blocks it loaded.
  Here: each input's staging buffer holds its block at every point; the body's triple; the proof data of the
  pipeline; the body obligation at a generic point.
-/
import proofs.«145498_j1855425872361_1_alg».proof.Proof.Gen.Kernel.Launch
import proofs.«145498_j1855425872361_1_alg».proof.Proof.Gen.Kernel.Skeleton
import proofs.«145498_j1855425872361_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/

abbrev r0_S2000x128 : Rect S2000x128 := Rect.unit (s := S2000x128) ![0, 0] S2000x128.size inb_S2000x128_S2000x128_0_0
abbrev r0_S128x128 : Rect S128x128 := Rect.unit (s := S128x128) ![0, 0] S128x128.size inb_S128x128_S128x128_0_0
abbrev r0_S128 : Rect S128 := Rect.unit (s := S128) ![0] S128.size inb_S128_S128_0

/-! ## What the body leaves in each output's staging buffer -/

/-- Output window 23's staging buffer after the body: its one store, of the body's arithmetic of the loaded blocks. -/
def out0_23 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128 .f32) (x20 : Vec F S128 .f32) (x21 : Vec F S128 .f32) (x22 : Vec F S128 .f32) : Vec F S2000x128 .f32 :=
  View.canon [⟨r0_S2000x128, k0_pay9 (k0_pay5 (View.ld x3 r0_S2000x128)) (k0_pay6 (View.ld x4 r0_S2000x128)) (k0_pay7 (View.ld x5 r0_S2000x128)) (k0_pay8 (View.ld x0 r0_S2000x128) (View.ld x1 r0_S2000x128) (View.ld x2 r0_S2000x128) (View.ld x7 r0_S128x128) (View.ld x8 r0_S128x128) (View.ld x9 r0_S128x128) (View.ld x19 r0_S128)) (View.ld x10 r0_S128x128) (View.ld x11 r0_S128x128) (View.ld x12 r0_S128x128) (View.ld x20 r0_S128)⟩]

/-- The store covers the buffer. -/
theorem cover0_23 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-- Output window 24's staging buffer after the body: its one store, of the body's arithmetic of the loaded blocks. -/
def out0_24 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128 .f32) (x20 : Vec F S128 .f32) (x21 : Vec F S128 .f32) (x22 : Vec F S128 .f32) : Vec F S2000x128 .f32 :=
  View.canon [⟨r0_S2000x128, k0_pay1 (k0_pay5 (View.ld x3 r0_S2000x128)) (k0_pay6 (View.ld x4 r0_S2000x128)) (k0_pay7 (View.ld x5 r0_S2000x128)) (View.ld x6 r0_S2000x128) (k0_pay10 (k0_pay2 (View.ld x0 r0_S2000x128)) (k0_pay3 (View.ld x1 r0_S2000x128)) (k0_pay4 (View.ld x2 r0_S2000x128)) (View.ld x13 r0_S128x128) (View.ld x14 r0_S128x128) (View.ld x15 r0_S128x128) (View.ld x21 r0_S128)) (View.ld x16 r0_S128x128) (View.ld x17 r0_S128x128) (View.ld x18 r0_S128x128) (View.ld x22 r0_S128)⟩]

/-- The store covers the buffer. -/
theorem cover0_24 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-! ## The body's triple -/

set_option maxHeartbeats 4000000 in
/-- The kernel body on whole staging memrefs, the inputs' at read contents `xW` and the outputs' at anything, runs to the
    continuation holding the inputs' as they were and each output's at its one store of the payload of the inputs'. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128 .f32) (harg20 : arg20.IsWhole) (arg21 : Memref sig .tc .vmem S128 .f32) (harg21 : arg21.IsWhole) (arg22 : Memref sig .tc .vmem S128 .f32) (harg22 : arg22.IsWhole) (arg23 : Memref sig .tc .vmem S128 .f32) (harg23 : arg23.IsWhole) (arg24 : Memref sig .tc .vmem S2000x128 .f32) (harg24 : arg24.IsWhole) (arg25 : Memref sig .tc .vmem S2000x128 .f32) (harg25 : arg25.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128 .f32) (x20 : Vec F S128 .f32) (x21 : Vec F S128 .f32) (x22 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 x0 x1 x2 x3 x4 x5 x6 x7 x8 x9 x10 x11 x12 x13 x14 x15 x16 x17 x18 x19 x20 x21 x22) ∗ owns (c : Thread nD τ) arg25 fullShare (out0_24 x0 x1 x2 x3 x4 x5 x6 x7 x8 x9 x10 x11 x12 x13 x14 x15 x16 x17 x18 x19 x20 x21 x22)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__gate_kernel_eq_skeleton]; unfold cc0__gate_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    try dsimp only
    exact View.read_writes_eq_canon _ _ _ (cover0_23 _)
  iexists _; isplitr
  swap; · iexact H24
  ipureintro
  try dsimp only
  exact View.read_writes_eq_canon _ _ _ (cover0_24 _)

/-! ## The pipeline's proof data -/

/-- The proof data of pipeline 0 on core `c`: the arrays as the region finds them; after the body at point `t` each
    input's buffer at its block and each output's at its store of the input blocks' payload; the invariant the scoped
    rest and the generator register, untouched; nothing owed; the state array, read through two windows (as the
    state's first basis and as the state itself), is held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t)
    | ⟨24, _⟩ => out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t)
    | ⟨_ + 25, h⟩ => absurd h (Nat.not_lt.2 (Nat.le_add_left _ _))
  Φ _ := Pipeline.ΦA spec0 c
  q w := if w = 3 then fullShare.left else if w = 6 then fullShare.right else fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) := by dsimp only [dat0]
theorem after0_24 (c : Dev nD) (t : Fin cfg0.N) : (dat0 V c).after 24 t = out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel0 c Set.univ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbBody1.lean ====
/-
  Region 1 of the kernel program (the candidate kernel), stated at the buffer contents `V` the region is entered from.

  The grid has 25 points; point `t` handles rows 2000·t … 2000·t + 1999 of every node-feature array. A weight matrix
  or a bias has one block, the whole array, at every point. What the body leaves in an output's staging buffer is one
  store of the whole block: the body's arithmetic (the named payloads) of the blocks it loaded.
  Here: each input's staging buffer holds its block at every point; the body's triple; the proof data of the
  pipeline; the body obligation at a generic point.
-/
import proofs.«145498_j1855425872361_1_alg».proof.Proof.Gen.Kernel.Launch
import proofs.«145498_j1855425872361_1_alg».proof.Proof.Gen.Kernel.Skeleton
import proofs.«145498_j1855425872361_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/

abbrev r1_S2000x128 : Rect S2000x128 := Rect.unit (s := S2000x128) ![0, 0] S2000x128.size inb_S2000x128_S2000x128_0_0
abbrev r1_S128x128 : Rect S128x128 := Rect.unit (s := S128x128) ![0, 0] S128x128.size inb_S128x128_S128x128_0_0
abbrev r1_S128 : Rect S128 := Rect.unit (s := S128) ![0] S128.size inb_S128_S128_0

/-! ## What the body leaves in each output's staging buffer -/

/-- Output window 16's staging buffer after the body: its one store, of the body's arithmetic of the loaded blocks. -/
def out1_16 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128 .f32) (x15 : Vec F S128 .f32) : Vec F S2000x128 .f32 :=
  View.canon [⟨r1_S2000x128, k1_pay1 (k1_pay2 (View.ld x3 r1_S2000x128)) (k1_pay3 (View.ld x4 r1_S2000x128)) (k1_pay4 (View.ld x5 r1_S2000x128)) (k1_pay5 (View.ld x6 r1_S2000x128)) (View.ld x7 r1_S2000x128) (k1_pay6 (View.ld x0 r1_S2000x128) (View.ld x1 r1_S2000x128) (View.ld x2 r1_S2000x128) (View.ld x8 r1_S128x128) (View.ld x9 r1_S128x128) (View.ld x10 r1_S128x128)) (View.ld x14 r1_S128) (View.ld x11 r1_S128x128) (View.ld x12 r1_S128x128) (View.ld x13 r1_S128x128) (View.ld x15 r1_S128)⟩]

/-- The store covers the buffer. -/
theorem cover1_16 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

/-! ## The body's triple -/

set_option maxHeartbeats 4000000 in
/-- The kernel body on whole staging memrefs, the inputs' at read contents `xW` and the outputs' at anything, runs to the
    continuation holding the inputs' as they were and each output's at its one store of the payload of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S128 .f32) (harg16 : arg16.IsWhole) (arg17 : Memref sig .tc .vmem S2000x128 .f32) (harg17 : arg17.IsWhole)
    (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x128 .f32) (x7 : Vec F S2000x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128 .f32) (x15 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out1_16 x0 x1 x2 x3 x4 x5 x6 x7 x8 x9 x10 x11 x12 x13 x14 x15)) -∗ K ⟨⟩))
      ⊢ wp frame (wpE (defs₀ (F := F)) Variants.none c none) E (cc1__cand_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__cand_kernel_eq_skeleton]; unfold cc1__cand_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover1_16 _)

/-! ## The pipeline's proof data -/

/-- The proof data of pipeline 1 on core `c`: the arrays as the region finds them; after the body at point `t` each
    input's buffer at its block and each output's at its store of the input blocks' payload; the invariant the scoped
    rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbKept.lean ====
/-
  The host stretches of the kernel program write only their own result buffers: each stretch's list of written
  buffers, and that a buffer outside the list keeps its contents through the stretch. (The sixteen argument arrays
  are outside every list: no host operation writes an argument.)
-/
import proofs.«145498_j1855425872361_1_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe

variable {F : FTy → Type} [FloatOps F]

/-- A one-buffer write set lies in a list's set when the buffer is in the list. -/
theorem writes_sub_of_mem {W : List (Ref sig .tc)} {y : Ref sig .tc} (h : y ∈ W) :
    ({Proc.devRef .tc y} : Finset (DevRef τ sig)) ⊆ (W.map (Proc.devRef (τ := τ) .tc)).toFinset := by
  rw [Finset.singleton_subset_iff, List.mem_toFinset]
  exact List.mem_map_of_mem h

/-- The buffers `hostOps0` writes, in order. -/
abbrev wr_hostOps0 : List (Ref sig .tc) := [main_v0, main_v1, main_v2, main_v3, main_cst, main_v4, main_v5, main_v6, main_cst_0, main_v7, main_v8, main_cst_1, main_v9, main_v10, main_cst_2]

theorem hostOps0_writes : (hostOps0 : List (HloOp τ sig (Elt F))).Forall fun op => op.writes ⊆ ((wr_hostOps0).map (Proc.devRef (τ := τ) .tc)).toFinset := by
  simp only [hostOps0, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0` does not write keeps its contents through it. -/
theorem keep_hostOps0 (V : Valuation τ sig (Elt F)) (r : Ref sig .tc) (hr : r ∉ wr_hostOps0) :
    StableHlo.after (hostOps0 : List (HloOp τ sig (Elt F))) V (Proc.devRef .tc r) = V (Proc.devRef .tc r) :=
  StableHlo.after_of_writes_sub _ V hostOps0_writes hr

/-- No operation of `hostOps0` allocates a buffer. -/
theorem hostOps0_fresh : (hostOps0 : List (HloOp τ sig (Elt F))).Forall fun op => op.fresh = ∅ := by
  simp only [List.Forall]; repeat' constructor

/-- The buffers `hostOps0_1` writes, in order. -/
abbrev wr_hostOps0_1 : List (Ref sig .tc) := [main_call0_v0, main_call0_v1, main_v11]

theorem hostOps0_1_writes : (hostOps0_1 : List (HloOp τ sig (Elt F))).Forall fun op => op.writes ⊆ ((wr_hostOps0_1).map (Proc.devRef (τ := τ) .tc)).toFinset := by
  simp only [hostOps0_1, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_1` does not write keeps its contents through it. -/
theorem keep_hostOps0_1 (V : Valuation τ sig (Elt F)) (r : Ref sig .tc) (hr : r ∉ wr_hostOps0_1) :
    StableHlo.after (hostOps0_1 : List (HloOp τ sig (Elt F))) V (Proc.devRef .tc r) = V (Proc.devRef .tc r) :=
  StableHlo.after_of_writes_sub _ V hostOps0_1_writes hr

/-- No operation of `hostOps0_1` allocates a buffer. -/
theorem hostOps0_1_fresh : (hostOps0_1 : List (HloOp τ sig (Elt F))).Forall fun op => op.fresh = ∅ := by
  simp only [List.Forall]; repeat' constructor

/-- The buffers `hostOps0_2` writes, in order. -/
abbrev wr_hostOps0_2 : List (Ref sig .tc) := [main_v12, main_cst_3]

theorem hostOps0_2_writes : (hostOps0_2 : List (HloOp τ sig (Elt F))).Forall fun op => op.writes ⊆ ((wr_hostOps0_2).map (Proc.devRef (τ := τ) .tc)).toFinset := by
  simp only [hostOps0_2, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_2` does not write keeps its contents through it. -/
theorem keep_hostOps0_2 (V : Valuation τ sig (Elt F)) (r : Ref sig .tc) (hr : r ∉ wr_hostOps0_2) :
    StableHlo.after (hostOps0_2 : List (HloOp τ sig (Elt F))) V (Proc.devRef .tc r) = V (Proc.devRef .tc r) :=
  StableHlo.after_of_writes_sub _ V hostOps0_2_writes hr

/-- No operation of `hostOps0_2` allocates a buffer. -/
theorem hostOps0_2_fresh : (hostOps0_2 : List (HloOp τ sig (Elt F))).Forall fun op => op.fresh = ∅ := by
  simp only [List.Forall]; repeat' constructor

/-- The buffers `hostOps0_3` writes, in order. -/
abbrev wr_hostOps0_3 : List (Ref sig .tc) := [main_call1_v0, main_call1_v1, main_v13]

theorem hostOps0_3_writes : (hostOps0_3 : List (HloOp τ sig (Elt F))).Forall fun op => op.writes ⊆ ((wr_hostOps0_3).map (Proc.devRef (τ := τ) .tc)).toFinset := by
  simp only [hostOps0_3, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_3` does not write keeps its contents through it. -/
theorem keep_hostOps0_3 (V : Valuation τ sig (Elt F)) (r : Ref sig .tc) (hr : r ∉ wr_hostOps0_3) :
    StableHlo.after (hostOps0_3 : List (HloOp τ sig (Elt F))) V (Proc.devRef .tc r) = V (Proc.devRef .tc r) :=
  StableHlo.after_of_writes_sub _ V hostOps0_3_writes hr

/-- No operation of `hostOps0_3` allocates a buffer. -/
theorem hostOps0_3_fresh : (hostOps0_3 : List (HloOp τ sig (Elt F))).Forall fun op => op.fresh = ∅ := by
  simp only [List.Forall]; repeat' constructor

/-- The buffers `hostOps0_4` writes, in order. -/
abbrev wr_hostOps0_4 : List (Ref sig .tc) := [main_c, main_v14, main_v15, main_c_4, main_v16, main_v17, main_v18, main_v19, main_v20, main_cst_5, main_v21, main_v22, main_v23, main_c_6, main_v24, main_v25, main_c_7, main_v26, main_v27, main_v28, main_v29, main_v30, main_v31, main_v32, main_v33, main_v34, main_v35, main_v36, main_c_8, main_v37, main_v38, main_c_9, main_v39, main_v40, main_v41, main_v42, main_v43, main_v44, main_v45, main_cst_10, main_v46, main_v47, main_v48, main_cst_11, main_v49, main_v50, main_v51, main_v52, main_v53, main_v54, main_v55, main_v56, main_c_12, main_v57, main_v58, main_c_13, main_v59, main_v60, main_v61, main_v62, main_v63, main_v64, main_v65, main_cst_14, main_v66, main_v67, main_v68, main_cst_15, main_v69, main_v70, main_v71, main_cst_16, main_v72, main_v73, main_v74, main_v75, main_v76, main_v77, main_v78, main_v79, main_c_17, main_v80, main_v81, main_c_18, main_v82, main_v83, main_v84, main_v85, main_v86, main_v87, main_v88, main_cst_19, main_v89, main_v90, main_v91, main_cst_20, main_v92, main_v93, main_v94, main_v95, main_v96, main_v97, main_v98, main_v99, main_c_21, main_v100, main_v101, main_c_22, main_v102, main_v103, main_v104, main_v105, main_v106, main_v107, main_v108, main_cst_23, main_v109, main_v110, main_v111, main_cst_24, main_v112, main_v113, main_v114, main_cst_25, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153]

theorem hostOps0_4_writes : (hostOps0_4 : List (HloOp τ sig (Elt F))).Forall fun op => op.writes ⊆ ((wr_hostOps0_4).map (Proc.devRef (τ := τ) .tc)).toFinset := by
  simp only [hostOps0_4, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps0_4` does not write keeps its contents through it. -/
theorem keep_hostOps0_4 (V : Valuation τ sig (Elt F)) (r : Ref sig .tc) (hr : r ∉ wr_hostOps0_4) :
    StableHlo.after (hostOps0_4 : List (HloOp τ sig (Elt F))) V (Proc.devRef .tc r) = V (Proc.devRef .tc r) :=
  StableHlo.after_of_writes_sub _ V hostOps0_4_writes hr

/-- No operation of `hostOps0_4` allocates a buffer. -/
theorem hostOps0_4_fresh : (hostOps0_4 : List (HloOp τ sig (Elt F))).Forall fun op => op.fresh = ∅ := by
  simp only [List.Forall]; repeat' constructor

/-- The buffers `hostOps1` writes, in order. -/
abbrev wr_hostOps1 : List (Ref sig .tc) := [main_v155, main_v156, main_v157, main_v158, main_v159, main_c_26, main_v160, main_v161, main_c_27, main_v162, main_v163, main_v164, main_v165, main_v166, main_v167, main_v168, main_cst_28, main_v169, main_v170, main_v171, main_cst_29, main_v172, main_v173, main_v174, main_v175, main_v176, main_v177, main_v178, main_v179, main_c_30, main_v180, main_v181, main_c_31, main_v182, main_v183, main_v184, main_v185, main_v186, main_v187, main_v188, main_cst_32, main_v189, main_v190, main_v191, main_cst_33, main_v192, main_v193, main_v194, main_cst_34, main_v195, main_v196, main_v197]

theorem hostOps1_writes : (hostOps1 : List (HloOp τ sig (Elt F))).Forall fun op => op.writes ⊆ ((wr_hostOps1).map (Proc.devRef (τ := τ) .tc)).toFinset := by
  simp only [hostOps1, List.Forall, StableHlo.nullary_writes, StableHlo.unary_writes, StableHlo.binary_writes, StableHlo.ternary_writes, StableHlo.quaternary_writes, StableHlo.reshape_writes]
  repeat' apply And.intro
  all_goals exact writes_sub_of_mem (by decide)

/-- A buffer `hostOps1` does not write keeps its contents through it. -/
theorem keep_hostOps1 (V : Valuation τ sig (Elt F)) (r : Ref sig .tc) (hr : r ∉ wr_hostOps1) :
    StableHlo.after (hostOps1 : List (HloOp τ sig (Elt F))) V (Proc.devRef .tc r) = V (Proc.devRef .tc r) :=
  StableHlo.after_of_writes_sub _ V hostOps1_writes hr

/-- No operation of `hostOps1` allocates a buffer. -/
theorem hostOps1_fresh : (hostOps1 : List (HloOp τ sig (Elt F))).Forall fun op => op.fresh = ∅ := by
  simp only [List.Forall]; repeat' constructor

end Cert.Kernel.Hand

end
-- ==== Proof.KbChain.lean ====
/-
  The buffer contents at each boundary of the kernel program's @main, a fold from the launch memory: five stretches
  of host operations (the graph normalisation, the Chebyshev bases of the input and of the state, the weight slices),
  the gate kernel's region, one more stretch (the bases of the reset state), the candidate kernel's region.
  A region leaves its output arrays at what its write-backs make of them and every other buffer as entered.
-/
import proofs.«145498_j1855425872361_1_alg».proof.Proof.KbBody0
import proofs.«145498_j1855425872361_1_alg».proof.Proof.KbBody1
import proofs.«145498_j1855425872361_1_alg».proof.Proof.KbKept

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- At the gate kernel's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At the gate kernel's exit: its two outputs at what the write-backs leave, every other buffer as entered. -/
def W6 (c : Dev nD) : Valuation τ sig (Elt F) :=
  Function.update (Function.update (W5 m ρ c) (Proc.devRef .tc main_v154_0) ((dat0 (V5 m ρ) c).arrAt 23 cfg0.N))
    (Proc.devRef .tc main_v154_1) ((dat0 (V5 m ρ) c).arrAt 24 cfg0.N)
abbrev V6 : (c : Dev nD) → (b : Ref sig .tc) → Buf (Elt F) ((c : Thread nD τ).loc b) := fun c b => W6 m ρ c b
/-- At the candidate kernel's entry. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At the candidate kernel's exit. -/
def W8 (c : Dev nD) : Valuation τ sig (Elt F) :=
  Function.update (W7 m ρ c) (Proc.devRef .tc main_v198) ((dat1 (V7 m ρ) c).arrAt 16 cfg1.N)
abbrev V8 : (c : Dev nD) → (b : Ref sig .tc) → Buf (Elt F) ((c : Thread nD τ).loc b) := fun c b => W8 m ρ c b

theorem W6_z (c : Dev nD) : W6 m ρ c (Proc.devRef .tc main_v154_0) = (dat0 (V5 m ρ) c).arrAt 23 cfg0.N := by
  unfold W6
  rw [Function.update_of_ne (StableHlo.devRef_ne_of_ne (by decide)), Function.update_self]
theorem W6_hr (c : Dev nD) : W6 m ρ c (Proc.devRef .tc main_v154_1) = (dat0 (V5 m ρ) c).arrAt 24 cfg0.N := by
  unfold W6
  rw [Function.update_self]
theorem W6_of_ne (c : Dev nD) (b : Ref sig .tc) (h0 : b ≠ main_v154_0) (h1 : b ≠ main_v154_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
theorem W8_out (c : Dev nD) : W8 m ρ c (Proc.devRef .tc main_v198) = (dat1 (V7 m ρ) c).arrAt 16 cfg1.N := by
  unfold W8
  rw [Function.update_self]
theorem W8_of_ne (c : Dev nD) (b : Ref sig .tc) (h : b ≠ main_v198) :
    W8 m ρ c (Proc.devRef .tc b) = W7 m ρ c (Proc.devRef .tc b) := by
  unfold W8
  rw [Function.update_of_ne (StableHlo.devRef_ne_of_ne h)]

/-- A buffer no host operation and no region writes ends as launched. -/
theorem W8_kept (c : Dev nD) (r : Ref sig .tc) (h0 : r ∉ wr_hostOps0) (h1 : r ∉ wr_hostOps0_1) (h2 : r ∉ wr_hostOps0_2)
    (h3 : r ∉ wr_hostOps0_3) (h4 : r ∉ wr_hostOps0_4) (h5 : r ∉ wr_hostOps1)
    (hz : r ≠ main_v154_0) (hhr : r ≠ main_v154_1) (ho : r ≠ main_v198) :
    W8 m ρ c (Proc.devRef .tc r) = m ((c : Thread nD τ).loc r) := by
  rw [W8_of_ne m ρ c r ho]
  unfold W7
  rw [keep_hostOps1 _ r h5, W6_of_ne m ρ c r hz hhr]
  unfold W5 W4 W3 W2 W1
  rw [keep_hostOps0_4 _ r h4, keep_hostOps0_3 _ r h3, keep_hostOps0_2 _ r h2, keep_hostOps0_1 _ r h1, keep_hostOps0 _ r h0]

theorem W8_main_arg0 (c : Dev nD) : W8 m ρ c (Proc.devRef .tc main_arg0) = m ((c : Thread nD τ).loc main_arg0) :=
  W8_kept m ρ c main_arg0 (by decide) (by decide) (by decide) (by decide) (by decide) (by decide) (by decide) (by decide) (by decide)
theorem W8_main_arg1 (c : Dev nD) : W8 m ρ c (Proc.devRef .tc main_arg1) = m ((c : Thread nD τ).loc main_arg1) :=
  W8_kept m ρ c main_arg1 (by decide) (by decide) (by decide) (by decide) (by decide) (by decide) (by decide) (by decide) (by decide)
theorem W8_main_arg2 (c : Dev nD) : W8 m ρ c (Proc.devRef .tc main_arg2) = m ((c : Thread nD τ).loc main_arg2) :=
  W8_kept m ρ c main_arg2 (by decide) (by decide) (by decide) (by decide) (by decide) (by decide) (by decide) (by decide) (by decide)
theorem W8_main_arg3 (c : Dev nD) : W8 m ρ c (Proc.devRef .tc main_arg3) = m ((c : Thread nD τ).loc main_arg3) :=
  W8_kept m ρ c main_arg3 (by decide) (by decide) (by decide) (by decide) (by decide) (by decide) (by decide) (by decide) (by decide)
theorem W8_main_arg4 (c : Dev nD) : W8 m ρ c (Proc.devRef .tc main_arg4) = m ((c : Thread nD τ).loc main_arg4) :=
  W8_kept m ρ c main_arg4 (by decide) (by decide) (by decide) (by decide) (by decide) (by decide) (by decide) (by decide) (by decide)
theorem W8_main_arg5 (c : Dev nD) : W8 m ρ c (Proc.devRef .tc main_arg5) = m ((c : Thread nD τ).loc main_arg5) :=
  W8_kept m ρ c main_arg5 (by decide) (by decide) (by decide) (by decide) (by decide) (by decide) (by decide) (by decide) (by decide)
theorem W8_main_arg6 (c : Dev nD) : W8 m ρ c (Proc.devRef .tc main_arg6) = m ((c : Thread nD τ).loc main_arg6) :=
  W8_kept m ρ c main_arg6 (by decide) (by decide) (by decide) (by decide) (by decide) (by decide) (by decide) (by decide) (by decide)
theorem W8_main_arg7 (c : Dev nD) : W8 m ρ c (Proc.devRef .tc main_arg7) = m ((c : Thread nD τ).loc main_arg7) :=
  W8_kept m ρ c main_arg7 (by decide) (by decide) (by decide) (by decide) (by decide) (by decide) (by decide) (by decide) (by decide)
theorem W8_main_arg8 (c : Dev nD) : W8 m ρ c (Proc.devRef .tc main_arg8) = m ((c : Thread nD τ).loc main_arg8) :=
  W8_kept m ρ c main_arg8 (by decide) (by decide) (by decide) (by decide) (by decide) (by decide) (by decide) (by decide) (by decide)
theorem W8_main_arg9 (c : Dev nD) : W8 m ρ c (Proc.devRef .tc main_arg9) = m ((c : Thread nD τ).loc main_arg9) :=
  W8_kept m ρ c main_arg9 (by decide) (by decide) (by decide) (by decide) (by decide) (by decide) (by decide) (by decide) (by decide)
theorem W8_main_arg10 (c : Dev nD) : W8 m ρ c (Proc.devRef .tc main_arg10) = m ((c : Thread nD τ).loc main_arg10) :=
  W8_kept m ρ c main_arg10 (by decide) (by decide) (by decide) (by decide) (by decide) (by decide) (by decide) (by decide) (by decide)
theorem W8_main_arg11 (c : Dev nD) : W8 m ρ c (Proc.devRef .tc main_arg11) = m ((c : Thread nD τ).loc main_arg11) :=
  W8_kept m ρ c main_arg11 (by decide) (by decide) (by decide) (by decide) (by decide) (by decide) (by decide) (by decide) (by decide)
theorem W8_main_arg12 (c : Dev nD) : W8 m ρ c (Proc.devRef .tc main_arg12) = m ((c : Thread nD τ).loc main_arg12) :=
  W8_kept m ρ c main_arg12 (by decide) (by decide) (by decide) (by decide) (by decide) (by decide) (by decide) (by decide) (by decide)
theorem W8_main_arg13 (c : Dev nD) : W8 m ρ c (Proc.devRef .tc main_arg13) = m ((c : Thread nD τ).loc main_arg13) :=
  W8_kept m ρ c main_arg13 (by decide) (by decide) (by decide) (by decide) (by decide) (by decide) (by decide) (by decide) (by decide)
theorem W8_main_arg14 (c : Dev nD) : W8 m ρ c (Proc.devRef .tc main_arg14) = m ((c : Thread nD τ).loc main_arg14) :=
  W8_kept m ρ c main_arg14 (by decide) (by decide) (by decide) (by decide) (by decide) (by decide) (by decide) (by decide) (by decide)
theorem W8_main_arg15 (c : Dev nD) : W8 m ρ c (Proc.devRef .tc main_arg15) = m ((c : Thread nD τ).loc main_arg15) :=
  W8_kept m ρ c main_arg15 (by decide) (by decide) (by decide) (by decide) (by decide) (by decide) (by decide) (by decide) (by decide)

end Cert.Kernel.Hand

end
-- ==== Proof.KbShare.lean ====
/-
  The gate kernel reads the state array through TWO windows (as the first Chebyshev basis of the state and as the
  state itself). Its 25 windows therefore stand on 24 distinct buffers, and the state array's buffer, held whole at
  the region's entry, is dealt to the two windows half and half; at the exit the halves — both input windows, so both
  still at the entry contents — are put together again. Every other window holds its buffer whole.
-/
import proofs.«145498_j1855425872361_1_alg».proof.Proof.KbBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows but the second one on the state array. -/
abbrev S0 : Finset (Fin 25) := Finset.univ.erase 6

theorem image0 : Finset.univ.image (Pipeline.arrRef spec0) = S0.image (Pipeline.arrRef spec0) := by decide

theorem inj0 : Set.InjOn (Pipeline.arrRef spec0) (S0 : Set (Fin 25)) := by
  have h : ∀ a b : Fin 25, a ≠ 6 → b ≠ 6 → Pipeline.arrRef spec0 a = Pipeline.arrRef spec0 b → a = b := by decide
  intro a ha b hb e
  exact h a b (Finset.ne_of_mem_erase ha) (Finset.ne_of_mem_erase hb) e

theorem share0_3 (c : Dev nD) : (dat0 V c).share 3 = fullShare.left := rfl
theorem share0_6 (c : Dev nD) : (dat0 V c).share 6 = fullShare.right := rfl
theorem share0_of_ne (c : Dev nD) (w : Fin 25) (h3 : w ≠ 3) (h6 : w ≠ 6) : (dat0 V c).share w = fullShare := by
  unfold Dat.share
  dsimp only [dat0]
  split
  · rfl
  · first | rfl | (rw [if_neg h3, if_neg h6])

/-- ENTRY: the distinct buffers behind the windows, each whole at the entry contents, are the windows' arrays at the
    proof data's shares. -/
theorem arrays_of_arrBufs0 (c : Dev nD) :
    (Pipeline.arrBufs (Ix := Unit) (Name := ℕ) (U := UR sig nD τ) (Lvl := ℕ) spec0 c (V c) : sProp 𝕄) ⊢ (dat0 V c).arrays (dat0 V c).A := by
  unfold Pipeline.arrBufs Dat.arrays
  rw [image0, bigSep_image_of_injOn inj0, bigSep_erase (s := S0) (i := (3 : Fin 25)) (by decide),
    bigSep_univ_split (6 : Fin 25), bigSep_erase (s := Finset.univ.erase (6 : Fin 25)) (i := (3 : Fin 25)) (by decide)]
  have h36 : ((((c : Thread nD τ).loc (Pipeline.arrRef spec0 3)) ↦{fullShare} V c (Pipeline.arrRef spec0 3)) : sProp 𝕄)
      ⊢ iprop(((cfg0.win 3).arr.view.loc (c : Thread nD τ) ↦[(cfg0.win 3).arr.view.set]{(dat0 V c).share 3} (dat0 V c).A 3)
        ∗ ((cfg0.win 6).arr.view.loc (c : Thread nD τ) ↦[(cfg0.win 6).arr.view.set]{(dat0 V c).share 6} (dat0 V c).A 6)) := by
    rw [share0_3, share0_6, (arr_whole0 3).set_eq_univ, A_eq0, A_eq0]
    exact (pointsTo_share (PosShare.mem_left_op_right fullShare)).1
  have hrest : ∀ w ∈ (S0.erase 3), ((((c : Thread nD τ).loc (Pipeline.arrRef spec0 w)) ↦{fullShare} V c (Pipeline.arrRef spec0 w)) : sProp 𝕄)
      ⊢ ((cfg0.win w).arr.view.loc (c : Thread nD τ) ↦[(cfg0.win w).arr.view.set]{(dat0 V c).share w} (dat0 V c).A w) := by
    intro w hw
    rw [share0_of_ne V c w (Finset.ne_of_mem_erase hw) (Finset.ne_of_mem_erase (Finset.mem_of_mem_erase hw)), (arr_whole0 w).set_eq_univ]
    exact .rfl
  exact (BI.sep_mono h36 (bigSep_mono hrest)).trans ((BI.sep_mono_l BI.sep_comm).trans BI.sep_assoc)

/-- EXIT: the windows' arrays at contents `G`, the two windows on the state array at the same contents, are the
    distinct buffers behind them, each whole at `G`'s contents. -/
theorem arrBufs_of_arrays0 (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (dat0 V c).arrays G ⊢ (Pipeline.arrBufs (Ix := Unit) (Name := ℕ) (U := UR sig nD τ) (Lvl := ℕ) spec0 c V' : sProp 𝕄) := by
  unfold Pipeline.arrBufs Dat.arrays
  rw [image0, bigSep_image_of_injOn inj0, bigSep_erase (s := S0) (i := (3 : Fin 25)) (by decide),
    bigSep_univ_split (6 : Fin 25), bigSep_erase (s := Finset.univ.erase (6 : Fin 25)) (i := (3 : Fin 25)) (by decide)]
  have h36 : iprop(((cfg0.win 3).arr.view.loc (c : Thread nD τ) ↦[(cfg0.win 3).arr.view.set]{(dat0 V c).share 3} G 3)
        ∗ ((cfg0.win 6).arr.view.loc (c : Thread nD τ) ↦[(cfg0.win 6).arr.view.set]{(dat0 V c).share 6} G 6))
      ⊢ ((((c : Thread nD τ).loc (Pipeline.arrRef spec0 3)) ↦{fullShare} V' (Pipeline.arrRef spec0 3)) : sProp 𝕄) := by
    rw [share0_3, share0_6, (arr_whole0 3).set_eq_univ, hG 3, hG 6]
    exact (pointsTo_share (PosShare.mem_left_op_right fullShare)).2
  have hrest : ∀ w ∈ (S0.erase 3), ((cfg0.win w).arr.view.loc (c : Thread nD τ) ↦[(cfg0.win w).arr.view.set]{(dat0 V c).share w} G w)
      ⊢ ((((c : Thread nD τ).loc (Pipeline.arrRef spec0 w)) ↦{fullShare} V' (Pipeline.arrRef spec0 w)) : sProp 𝕄) := by
    intro w hw
    rw [share0_of_ne V c w (Finset.ne_of_mem_erase hw) (Finset.ne_of_mem_erase (Finset.mem_of_mem_erase hw)), (arr_whole0 w).set_eq_univ, hG w] <;> exact .rfl
  exact (BI.sep_assoc'.trans (BI.sep_mono_l BI.sep_comm)).trans (BI.sep_mono h36 (bigSep_mono hrest))

end Cert.Kernel.Hand

end
-- ==== Proof.KbSegs.lean ====
/-
  The kernel program's run: @main as eight segments — five stretches of host operations, the gate kernel's region,
  one more stretch, the candidate kernel's region — over the thread state "every unscoped buffer at the boundary's
  contents, the generator register at some state, nothing owed". Each region splits its windows' arrays out of the
  unscoped buffers at its entry and puts them back, at what its write-backs leave, at its exit. The launch over the
  segments gives: every weakly fair execution terminates, nothing faults, the result array ends at what the candidate
  kernel's write-backs leave, and the sixteen argument arrays end as launched.
-/
import proofs.«145498_j1855425872361_1_alg».proof.Proof.KbBody0
import proofs.«145498_j1855425872361_1_alg».proof.Proof.KbBody1
import proofs.«145498_j1855425872361_1_alg».proof.Proof.KbKept
import proofs.«145498_j1855425872361_1_alg».proof.Proof.KbChain
import proofs.«145498_j1855425872361_1_alg».proof.Proof.KbShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each region's arrays at its exit, and the rest as entered -/

theorem isIn0 : ∀ w : Fin 25, w ≠ 23 → w ≠ 24 → (cfg0.win w).isOut = false := by decide
theorem arr0_ne_z : ∀ w : Fin 25, w ≠ 23 → Pipeline.arrRef spec0 w ≠ main_v154_0 := by decide
theorem arr0_ne_hr : ∀ w : Fin 25, w ≠ 24 → Pipeline.arrRef spec0 w ≠ main_v154_1 := by decide

theorem hF0 (c : Dev nD) (w : Fin cfg0.W) : (dat0 (V5 m ρ) c).arrAt w cfg0.N = V6 m ρ c (Pipeline.arrRef spec0 w) := by
  by_cases h23 : w = 23
  · subst h23; exact (W6_z m ρ c).symm
  by_cases h24 : w = 24
  · subst h24; exact (W6_hr m ρ c).symm
  exact ((dat0 (V5 m ρ) c).arrAt_in w (isIn0 w h23 h24) _).trans
    ((A_eq0 (V5 m ρ) c w).trans (W6_of_ne m ρ c _ (arr0_ne_z w h23) (arr0_ne_hr w h24)).symm)

theorem hrest0 (c : Dev nD) : ∀ b, b ∉ Finset.univ.image (Pipeline.arrRef spec0) → V6 m ρ c b = V5 m ρ c b :=
  fun b hb => W6_of_ne m ρ c b
    (fun e => hb (Finset.mem_image.mpr ⟨23, Finset.mem_univ _, (show Pipeline.arrRef spec0 23 = main_v154_0 from rfl).trans e.symm⟩))
    (fun e => hb (Finset.mem_image.mpr ⟨24, Finset.mem_univ _, (show Pipeline.arrRef spec0 24 = main_v154_1 from rfl).trans e.symm⟩))

theorem isIn1 : ∀ w : Fin 17, w ≠ 16 → (cfg1.win w).isOut = false := by decide
theorem arr1_ne_out : ∀ w : Fin 17, w ≠ 16 → Pipeline.arrRef spec1 w ≠ main_v198 := by decide

theorem hF1 (c : Dev nD) (w : Fin cfg1.W) : (dat1 (V7 m ρ) c).arrAt w cfg1.N = V8 m ρ c (Pipeline.arrRef spec1 w) := by
  by_cases h16 : w = 16
  · subst h16; exact (W8_out m ρ c).symm
  exact ((dat1 (V7 m ρ) c).arrAt_in w (isIn1 w h16) _).trans
    ((A_eq1 (V7 m ρ) c w).trans (W8_of_ne m ρ c _ (arr1_ne_out w h16)).symm)

theorem hrest1 (c : Dev nD) : ∀ b, b ∉ Finset.univ.image (Pipeline.arrRef spec1) → V8 m ρ c b = V7 m ρ c b :=
  fun b hb => W8_of_ne m ρ c b
    (fun e => hb (Finset.mem_image.mpr ⟨16, Finset.mem_univ _, (show Pipeline.arrRef spec1 16 = main_v198 from rfl).trans e.symm⟩))

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The gate kernel's region: entered from every unscoped buffer at `W5`, left at `W6`. The state array's buffer is
    dealt to its two windows at the entry and put together again at the exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit : (unscopedBufs (Ix := Unit) (Name := ℕ) (U := UR sig nD τ) (Lvl := ℕ) c (V5 m ρ c) : sProp 𝕄)
        ⊢ iprop((pdats m ρ 0 c).arrays ((pdats m ρ 0 c).arrAt · 0) ∗ Pipeline.unscopedRest spec0 c (V5 m ρ c)) := by
      rw [Pipeline.unscopedBufs_split₀ cfgs 0 winFacts₀0.arr_unscoped c (V5 m ρ c)]
      exact sep_mono (arrays_of_arrBufs0 (V5 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V5 m ρ c))
        ⊢ (unscopedBufs (Ix := Unit) (Name := ℕ) (U := UR sig nD τ) (Lvl := ℕ) c (V6 m ρ c) : sProp 𝕄) := by
      rw [Pipeline.unscopedBufs_split₀ cfgs 0 winFacts₀0.arr_unscoped c (V6 m ρ c)]
      refine sep_mono (arrBufs_of_arrays0 (V5 m ρ) c (V6 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The candidate kernel's region: entered from every unscoped buffer at `W7`, left at `W8`; its windows stand on
    distinct buffers, each held whole. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]

/-- @main is the run of the segments: its chain of items is the segments' fragments in order. -/
theorem main_run (c : Dev nD) : main (F := F) c = Pipeline.Seg.run (segs m ρ) :=
  (main_chain c).trans (by rw [Pipeline.Seg.run_eq_chain]; rfl)

set_option backward.isDefEq.respectTransparency.types false in
/-- THE RUN: from any memory with zero counters, every weakly fair execution of @main on the TensorCores terminates,
    nothing faulting, with the result array at what the candidate kernel's write-backs leave of the contents it was
    entered from, and the sixteen argument arrays as launched. -/
theorem run_main : θ_run defs (onTc (τ := τ) (main (F := F))) ⟨m, fun _ => 0, ρ⟩ (fun r => ∀ c : Dev nD,
      r.2.mem ((c.tc : Thread nD τ).loc main_v198) = (dat1 (V7 m ρ) c).arrAt 16 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v198 (by decide))).trans (W8_out m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Cert.Kernel.Hand

end
-- ==== Proof.KPayLin.lean ====
/-
  One block matmul of the kernel bodies read at an index, and the bias row read at an index.

  The bodies contract a 2000 × 128 block of rows against a 128 × 128 weight matrix into the zero
  accumulator; at the output index (r, f) that is the sum over the 128 input features k of the block
  at (r, k) times the weight at (k, f). A bias vector of 128 entries is re-laid as one row and that
  row repeated over the 2000 rows; at (r, f) it reads the bias at f.
-/
import proofs.«145498_j1855425872361_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPay

open Idealize.ShloMosaic Idealize.ShloMosaic.ValueIdx Cert.KernelIdeal Cert.KernelIdeal.Gen

/-- The left operand's row coordinate is the output's row. -/
theorem dot_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction index. -/
theorem dot_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction index. -/
theorem dot_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem dot_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block matmul into the zero accumulator at (r, f): row r of the left operand against column f
    of the right, summed over the 128 input features. -/
theorem matmul_zero_ix2 {φ₁ φ₂ : FTy} (x : FVec Ideal S2000x128 φ₁) (w : FVec Ideal S128x128 φ₂) (r : Fin 2000) (f : Fin 128) :
    matmul dot_S2000x128_S128x128_S2000x128_1_0_0_1_n_n none x w (constant (F := Ideal) S2000x128 .f32 0x00000000#32) (ix2 r f)
      = ∑ k : Fin 128, x (ix2 r k) * w (ix2 k f) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r f) ((contrEquiv1 dot_S2000x128_S128x128_S2000x128_1_0_0_1_n_n 128 rfl rfl).symm k) = ix2 r k := funext fun a => Fin.ext (by
    match a with
    | ⟨0, _⟩ => exact dot_lhs0 _ _
    | ⟨1, _⟩ => exact (dot_lhs1 _ _).trans hk)
  have er : dot_S2000x128_S128x128_S2000x128_1_0_0_1_n_n.rhsIdx (ix2 r f) ((contrEquiv1 dot_S2000x128_S128x128_S2000x128_1_0_0_1_n_n 128 rfl rfl).symm k) = ix2 k f := funext fun a => Fin.ext (by
    match a with
    | ⟨0, _⟩ => exact (dot_rhs0 _ _).trans hk
    | ⟨1, _⟩ => exact dot_rhs1 _ _)
  rw [el, er]

/-- A weight matrix as the bodies pass it to the matmul (re-laid onto its own shape, its float format
    narrowed: both the identity on the extended reals) reads the loaded matrix. -/
theorem weight_ix2 (w : Vec Ideal S128x128 .f32) (hs : S128x128.ShapeCasts S128x128) (ht : FTy.bits .bf16 < FTy.bits .f32)
    (k f : Fin 128) : (truncf .bf16 (shapeCast S128x128 w hs) ht : FVec Ideal S128x128 .bf16) (ix2 k f) = w (ix2 k f) :=
  congrFun (shapeCast_self w hs) (ix2 k f)

/-- A block re-laid onto its own shape and narrowed reads the loaded block. -/
theorem block_apply (x : Vec Ideal S2000x128 .f32) (hs : S2000x128.ShapeCasts S2000x128) (ht : FTy.bits .bf16 < FTy.bits .f32)
    (i : S2000x128.Idx) : (truncf .bf16 (shapeCast S2000x128 x hs) ht : FVec Ideal S2000x128 .bf16) i = x i :=
  congrFun (shapeCast_self x hs) i

/-- The bias as one row repeated over the block's rows reads, at (r, f), the bias at f. -/
theorem bias_ix2 (b : Vec Ideal S128 .f32) (h1 : S128.ShapeCasts S1x128) (h2 : S1x128.Broadcasts S2000x128)
    (r : Fin 2000) (f : Fin 128) : broadcastTo S2000x128 (shapeCast S1x128 b h1) h2 (ix2 r f) = b (ix1 f) :=
  (broadcastTo_1b_ab_apply (shapeCast S1x128 b h1) h2 r f).trans (shapeCast_a_1a_apply b h1 0 f)

end Cert.KernelIdeal.KPay

end
-- ==== Proof.Spec.lean ====
/-
  The mathematics both programs compute, index by index, on the extended reals.

  A node-feature array is a function of a node `n` and a feature `f`; a weight matrix a function of an input
  feature `k` and an output feature `f`. One Chebyshev convolution of order three is

      conv3 a₀ a₁ a₂ w₀ w₁ w₂ b (n, f) = ((Σₖ a₀(n,k)·w₀(k,f) + Σₖ a₁(n,k)·w₁(k,f)) + Σₖ a₂(n,k)·w₂(k,f)) + b(f)

  where a₀, a₁, a₂ are the three Chebyshev bases of one signal (the signal, its propagation along the graph, and
  twice the propagation of that minus the signal). The gated recurrent unit then takes

      z  = σ(conv3 of the input's bases + conv3 of the state's bases)          (update gate)
      r  = σ(the same with the reset gate's weights),   hr = h · r              (reset state)
      s  = conv3 of the input's bases + conv3 of hr's bases
      out = z · h + (1 − z) · (tanh s + s)                                      (residual candidate)

  with σ(x) = 1 / (1 + e⁻ˣ). The row count `R` is a parameter: the whole arrays have 50000 rows, one block 2000.
-/
import Idealize.ShloMosaic.PureOps.Ideal
import Idealize.ShloMosaic.PureOps.Ideal.Laws
import Idealize.ShloMosaic.Lib.ValueIdx

noncomputable section

namespace Cert.Spec

open Idealize.ShloMosaic

/-- A feature matrix with `R` rows and 128 features. -/
abbrev NF (R : Nat) := Fin R → Fin 128 → EReal
/-- A 128 × 128 weight matrix (input feature, output feature). -/
abbrev WM := Fin 128 → Fin 128 → EReal
/-- A bias vector. -/
abbrev BV := Fin 128 → EReal

/-- Rows times a weight matrix: the contraction over the 128 input features. -/
def lin {R : Nat} (a : NF R) (w : WM) : NF R := fun n f => ∑ k : Fin 128, a n k * w k f

/-- A Chebyshev convolution of order three over given bases, summed left to right, the bias last. -/
def conv3 {R : Nat} (a0 a1 a2 : NF R) (w0 w1 w2 : WM) (b : BV) : NF R :=
  fun n f => ((lin a0 w0 n f + lin a1 w1 n f) + lin a2 w2 n f) + b f

/-- A gate: the logistic function of the sum of the input's and the state's convolutions. -/
def gate {R : Nat} (cx ch : NF R) : NF R := fun n f => Ideal.logistic (cx n f + ch n f)

/-- The reset state `h · r`. -/
def hreset {R : Nat} (h r : NF R) : NF R := fun n f => h n f * r n f

/-- The float literal one, kept as its word (the same word on both sides is never evaluated). -/
def one : EReal := Ideal.ofBits .f32 0x3F800000#32

/-- The new state from the update gate, the old state and the candidate's two convolutions. -/
def cand {R : Nat} (z h cx ch : NF R) : NF R :=
  fun n f => z n f * h n f + (one - z n f) * (Ideal.tanh (cx n f + ch n f) + (cx n f + ch n f))

end Cert.Spec

end
-- ==== Proof.KPayConv.lean ====
/-
  The kernel bodies' convolution read at an index, in the specification's words.

  Each body forms, for one signal, the three contractions of its Chebyshev bases with three weight
  matrices, adds them left to right, and adds the bias row last. Read at (r, f) with the narrowed
  operand blocks read as matrices A0, A1, A2, that is the specification's `conv3` over those bases.
-/
import proofs.«145498_j1855425872361_1_alg».proof.Proof.KPayLin
import proofs.«145498_j1855425872361_1_alg».proof.Proof.Spec

noncomputable section

namespace Cert.KernelIdeal.KPay

open Idealize.ShloMosaic Idealize.ShloMosaic.ValueIdx Cert.KernelIdeal Cert.KernelIdeal.Gen

/-- One block matmul of the bodies is the specification's contraction: the left operand read as the
    matrix `A`, the weights as loaded. -/
theorem lin_ix2 {φ : FTy} (a : FVec Ideal S2000x128 φ) (A : Cert.Spec.NF 2000) (ha : ∀ r k, a (ix2 r k) = A r k)
    (w : Vec Ideal S128x128 .f32) (hs : S128x128.ShapeCasts S128x128) (ht : FTy.bits .bf16 < FTy.bits .f32)
    (r : Fin 2000) (f : Fin 128) :
    (matmul dot_S2000x128_S128x128_S2000x128_1_0_0_1_n_n none a (truncf .bf16 (shapeCast S128x128 w hs) ht) (constant (F := Ideal) S2000x128 .f32 0x00000000#32)) (ix2 r f)
      = Cert.Spec.lin A (fun k f => w (ix2 k f)) r f := by
  show _ = ∑ k : Fin 128, A r k * w (ix2 k f)
  rw [matmul_zero_ix2]
  exact Finset.sum_congr rfl fun k _ => by rw [ha r k, weight_ix2 w hs ht k f]

/-- Three block matmuls summed left to right. -/
theorem lin3_ix2 {φ : FTy} (a0 a1 a2 : FVec Ideal S2000x128 φ) (A0 A1 A2 : Cert.Spec.NF 2000)
    (h0 : ∀ r k, a0 (ix2 r k) = A0 r k) (h1 : ∀ r k, a1 (ix2 r k) = A1 r k) (h2 : ∀ r k, a2 (ix2 r k) = A2 r k)
    (w0 w1 w2 : Vec Ideal S128x128 .f32) (hs : S128x128.ShapeCasts S128x128) (ht : FTy.bits .bf16 < FTy.bits .f32)
    (r : Fin 2000) (f : Fin 128) :
    addf (addf (matmul dot_S2000x128_S128x128_S2000x128_1_0_0_1_n_n none a0 (truncf .bf16 (shapeCast S128x128 w0 hs) ht) (constant (F := Ideal) S2000x128 .f32 0x00000000#32))
               (matmul dot_S2000x128_S128x128_S2000x128_1_0_0_1_n_n none a1 (truncf .bf16 (shapeCast S128x128 w1 hs) ht) (constant (F := Ideal) S2000x128 .f32 0x00000000#32)))
         (matmul dot_S2000x128_S128x128_S2000x128_1_0_0_1_n_n none a2 (truncf .bf16 (shapeCast S128x128 w2 hs) ht) (constant (F := Ideal) S2000x128 .f32 0x00000000#32)) (ix2 r f)
      = (Cert.Spec.lin A0 (fun k f => w0 (ix2 k f)) r f + Cert.Spec.lin A1 (fun k f => w1 (ix2 k f)) r f)
          + Cert.Spec.lin A2 (fun k f => w2 (ix2 k f)) r f := by
  rw [addf_apply, addf_apply, lin_ix2 a0 A0 h0, lin_ix2 a1 A1 h1, lin_ix2 a2 A2 h2]

/-- Three block matmuls summed left to right and the bias row added last: the specification's
    convolution over the bases `A0 A1 A2`. -/
theorem conv_ix2 {φ : FTy} (a0 a1 a2 : FVec Ideal S2000x128 φ) (A0 A1 A2 : Cert.Spec.NF 2000)
    (h0 : ∀ r k, a0 (ix2 r k) = A0 r k) (h1 : ∀ r k, a1 (ix2 r k) = A1 r k) (h2 : ∀ r k, a2 (ix2 r k) = A2 r k)
    (w0 w1 w2 : Vec Ideal S128x128 .f32) (b : Vec Ideal S128 .f32)
    (hs : S128x128.ShapeCasts S128x128) (ht : FTy.bits .bf16 < FTy.bits .f32)
    (hb1 : S128.ShapeCasts S1x128) (hb2 : S1x128.Broadcasts S2000x128) (r : Fin 2000) (f : Fin 128) :
    addf (addf (addf (matmul dot_S2000x128_S128x128_S2000x128_1_0_0_1_n_n none a0 (truncf .bf16 (shapeCast S128x128 w0 hs) ht) (constant (F := Ideal) S2000x128 .f32 0x00000000#32))
                     (matmul dot_S2000x128_S128x128_S2000x128_1_0_0_1_n_n none a1 (truncf .bf16 (shapeCast S128x128 w1 hs) ht) (constant (F := Ideal) S2000x128 .f32 0x00000000#32)))
               (matmul dot_S2000x128_S128x128_S2000x128_1_0_0_1_n_n none a2 (truncf .bf16 (shapeCast S128x128 w2 hs) ht) (constant (F := Ideal) S2000x128 .f32 0x00000000#32)))
         (broadcastTo S2000x128 (shapeCast S1x128 b hb1) hb2) (ix2 r f)
      = Cert.Spec.conv3 A0 A1 A2 (fun k f => w0 (ix2 k f)) (fun k f => w1 (ix2 k f)) (fun k f => w2 (ix2 k f))
          (fun f => b (ix1 f)) r f := by
  show _ = ((Cert.Spec.lin A0 (fun k f => w0 (ix2 k f)) r f + Cert.Spec.lin A1 (fun k f => w1 (ix2 k f)) r f)
          + Cert.Spec.lin A2 (fun k f => w2 (ix2 k f)) r f) + b (ix1 f)
  rw [addf_apply, lin3_ix2 a0 a1 a2 A0 A1 A2 h0 h1 h2, bias_ix2]

end Cert.KernelIdeal.KPay

end
-- ==== Proof.KPayGate.lean ====
/-
  Region 0 at an index: the update gate and the reset state.

  The first body computes the input's convolution with the update gate's weights and the state's with
  the same gate's state weights, adds them and applies the logistic function: the update gate. It does
  the same with the reset gate's weights and multiplies the old state by that gate: the reset state.
  Narrowing a block's float format and re-laying it onto its own shape are the identity on the
  extended reals, so the operand blocks read as the loaded blocks.
-/
import proofs.«145498_j1855425872361_1_alg».proof.Proof.KPayConv

noncomputable section

namespace Cert.KernelIdeal.KPay

open Idealize.ShloMosaic Idealize.ShloMosaic.ValueIdx Cert.KernelIdeal Cert.KernelIdeal.Gen

/-- The input's convolution with the update gate's weights (the first sum of region 0). -/
theorem k0_pay8_ix2 (v0 v2 v5 : Vec Ideal S2000x128 .f32) (w0 w1 w2 : Vec Ideal S128x128 .f32) (b : Vec Ideal S128 .f32)
    (r : Fin 2000) (f : Fin 128) :
    k0_pay8 (F := Ideal) v0 v2 v5 w0 w1 w2 b (ix2 r f)
      = Cert.Spec.conv3 (fun r k => v0 (ix2 r k)) (fun r k => v2 (ix2 r k)) (fun r k => v5 (ix2 r k)) (fun k f => w0 (ix2 k f)) (fun k f => w1 (ix2 k f)) (fun k f => w2 (ix2 k f)) (fun f => b (ix1 f)) r f := by
  unfold k0_pay8
  exact conv_ix2 (k0_pay2 v0) (k0_pay3 v2) (k0_pay4 v5) _ _ _ (fun _ _ => rfl)
    (fun r k => block_apply v2 _ _ (ix2 r k)) (fun r k => block_apply v5 _ _ (ix2 r k)) w0 w1 w2 b _ _ _ _ r f

/-- The input's convolution with the reset gate's weights, over narrowed blocks read as `A0 A1 A2`. -/
theorem k0_pay10_ix2 (a0 a1 a2 : FVec Ideal S2000x128 .bf16) (A0 A1 A2 : Cert.Spec.NF 2000)
    (h0 : ∀ r k, a0 (ix2 r k) = A0 r k) (h1 : ∀ r k, a1 (ix2 r k) = A1 r k) (h2 : ∀ r k, a2 (ix2 r k) = A2 r k)
    (w0 w1 w2 : Vec Ideal S128x128 .f32) (b : Vec Ideal S128 .f32) (r : Fin 2000) (f : Fin 128) :
    k0_pay10 (F := Ideal) a0 a1 a2 w0 w1 w2 b (ix2 r f) = Cert.Spec.conv3 A0 A1 A2 (fun k f => w0 (ix2 k f)) (fun k f => w1 (ix2 k f)) (fun k f => w2 (ix2 k f)) (fun f => b (ix1 f)) r f := by
  unfold k0_pay10
  exact conv_ix2 a0 a1 a2 A0 A1 A2 h0 h1 h2 w0 w1 w2 b _ _ _ _ r f

/-- The update gate: the logistic function of the carried sum plus the state's convolution. -/
theorem k0_pay9_ix2 (a0 a1 a2 : FVec Ideal S2000x128 .bf16) (A0 A1 A2 : Cert.Spec.NF 2000)
    (h0 : ∀ r k, a0 (ix2 r k) = A0 r k) (h1 : ∀ r k, a1 (ix2 r k) = A1 r k) (h2 : ∀ r k, a2 (ix2 r k) = A2 r k)
    (c : FVec Ideal S2000x128 .f32) (w0 w1 w2 : Vec Ideal S128x128 .f32) (b : Vec Ideal S128 .f32) (r : Fin 2000) (f : Fin 128) :
    k0_pay9 (F := Ideal) a0 a1 a2 c w0 w1 w2 b (ix2 r f)
      = Ideal.logistic (c (ix2 r f) + Cert.Spec.conv3 A0 A1 A2 (fun k f => w0 (ix2 k f)) (fun k f => w1 (ix2 k f)) (fun k f => w2 (ix2 k f)) (fun f => b (ix1 f)) r f) := by
  unfold k0_pay9
  exact congrArg (fun t => Ideal.logistic (c (ix2 r f) + t)) (conv_ix2 a0 a1 a2 A0 A1 A2 h0 h1 h2 w0 w1 w2 b _ _ _ _ r f)

/-- The reset state: the old state times the reset gate. -/
theorem k0_pay1_ix2 (a0 a1 a2 : FVec Ideal S2000x128 .bf16) (A0 A1 A2 : Cert.Spec.NF 2000)
    (h0 : ∀ r k, a0 (ix2 r k) = A0 r k) (h1 : ∀ r k, a1 (ix2 r k) = A1 r k) (h2 : ∀ r k, a2 (ix2 r k) = A2 r k)
    (h : Vec Ideal S2000x128 .f32) (c : FVec Ideal S2000x128 .f32) (w0 w1 w2 : Vec Ideal S128x128 .f32) (b : Vec Ideal S128 .f32)
    (r : Fin 2000) (f : Fin 128) :
    k0_pay1 (F := Ideal) a0 a1 a2 h c w0 w1 w2 b (ix2 r f)
      = h (ix2 r f) * Ideal.logistic (c (ix2 r f) + Cert.Spec.conv3 A0 A1 A2 (fun k f => w0 (ix2 k f)) (fun k f => w1 (ix2 k f)) (fun k f => w2 (ix2 k f)) (fun f => b (ix1 f)) r f) := by
  unfold k0_pay1
  exact congrArg (fun t => h (ix2 r f) * Ideal.logistic (c (ix2 r f) + t)) (conv_ix2 a0 a1 a2 A0 A1 A2 h0 h1 h2 w0 w1 w2 b _ _ _ _ r f)

/-- Region 0's first stored value is the update gate of the input's and the state's convolutions. -/
theorem Z_ix2 (tx0 tx1 tx2 th0 th1 th2 : Vec Ideal S2000x128 .f32)
    (wxz0 wxz1 wxz2 whz0 whz1 whz2 : Vec Ideal S128x128 .f32) (bxz bhz : Vec Ideal S128 .f32) (r : Fin 2000) (f : Fin 128) :
    k0_pay9 (F := Ideal) (k0_pay5 th0) (k0_pay6 th1) (k0_pay7 th2) (k0_pay8 tx0 tx1 tx2 wxz0 wxz1 wxz2 bxz) whz0 whz1 whz2 bhz (ix2 r f)
      = Cert.Spec.gate (Cert.Spec.conv3 (fun r k => tx0 (ix2 r k)) (fun r k => tx1 (ix2 r k)) (fun r k => tx2 (ix2 r k)) (fun k f => wxz0 (ix2 k f)) (fun k f => wxz1 (ix2 k f)) (fun k f => wxz2 (ix2 k f)) (fun f => bxz (ix1 f)))
          (Cert.Spec.conv3 (fun r k => th0 (ix2 r k)) (fun r k => th1 (ix2 r k)) (fun r k => th2 (ix2 r k)) (fun k f => whz0 (ix2 k f)) (fun k f => whz1 (ix2 k f)) (fun k f => whz2 (ix2 k f)) (fun f => bhz (ix1 f))) r f := by
  rw [k0_pay9_ix2 (k0_pay5 th0) (k0_pay6 th1) (k0_pay7 th2) (fun r k => th0 (ix2 r k)) (fun r k => th1 (ix2 r k))
      (fun r k => th2 (ix2 r k)) (fun _ _ => rfl) (fun r k => block_apply th1 _ _ (ix2 r k))
      (fun r k => block_apply th2 _ _ (ix2 r k)), k0_pay8_ix2]
  rfl

/-- Region 0's second stored value is the old state times the reset gate. -/
theorem HR_ix2 (tx0 tx1 tx2 th0 th1 th2 h : Vec Ideal S2000x128 .f32)
    (wxr0 wxr1 wxr2 whr0 whr1 whr2 : Vec Ideal S128x128 .f32) (bxr bhr : Vec Ideal S128 .f32) (r : Fin 2000) (f : Fin 128) :
    k0_pay1 (F := Ideal) (k0_pay5 th0) (k0_pay6 th1) (k0_pay7 th2) h (k0_pay10 (k0_pay2 tx0) (k0_pay3 tx1) (k0_pay4 tx2) wxr0 wxr1 wxr2 bxr) whr0 whr1 whr2 bhr (ix2 r f)
      = Cert.Spec.hreset (fun r k => h (ix2 r k)) (Cert.Spec.gate (Cert.Spec.conv3 (fun r k => tx0 (ix2 r k)) (fun r k => tx1 (ix2 r k)) (fun r k => tx2 (ix2 r k)) (fun k f => wxr0 (ix2 k f)) (fun k f => wxr1 (ix2 k f)) (fun k f => wxr2 (ix2 k f)) (fun f => bxr (ix1 f)))
          (Cert.Spec.conv3 (fun r k => th0 (ix2 r k)) (fun r k => th1 (ix2 r k)) (fun r k => th2 (ix2 r k)) (fun k f => whr0 (ix2 k f)) (fun k f => whr1 (ix2 k f)) (fun k f => whr2 (ix2 k f)) (fun f => bhr (ix1 f)))) r f := by
  rw [k0_pay1_ix2 (k0_pay5 th0) (k0_pay6 th1) (k0_pay7 th2) (fun r k => th0 (ix2 r k)) (fun r k => th1 (ix2 r k))
      (fun r k => th2 (ix2 r k)) (fun _ _ => rfl) (fun r k => block_apply th1 _ _ (ix2 r k))
      (fun r k => block_apply th2 _ _ (ix2 r k)),
    k0_pay10_ix2 (k0_pay2 tx0) (k0_pay3 tx1) (k0_pay4 tx2) (fun r k => tx0 (ix2 r k)) (fun r k => tx1 (ix2 r k))
      (fun r k => tx2 (ix2 r k)) (fun _ _ => rfl) (fun r k => block_apply tx1 _ _ (ix2 r k))
      (fun r k => block_apply tx2 _ _ (ix2 r k))]
  rfl

end Cert.KernelIdeal.KPay

end
-- ==== Proof.KPayCand.lean ====
/-
  Region 1 at an index: the new state.

  The second body adds the input's three contractions with the candidate's weights and their bias, the
  reset state's convolution, takes s + tanh s of that sum, and mixes it with the old state by the
  update gate: z · h + (1 − z) · (tanh s + s).
-/
import proofs.«145498_j1855425872361_1_alg».proof.Proof.KPayConv

noncomputable section

namespace Cert.KernelIdeal.KPay

open Idealize.ShloMosaic Idealize.ShloMosaic.ValueIdx Cert.KernelIdeal Cert.KernelIdeal.Gen

/-- The input's three contractions with the candidate's weights, before the bias. -/
theorem k1_pay6_ix2 (v0 v2 v5 : Vec Ideal S2000x128 .f32) (w0 w1 w2 : Vec Ideal S128x128 .f32) (r : Fin 2000) (f : Fin 128) :
    k1_pay6 (F := Ideal) v0 v2 v5 w0 w1 w2 (ix2 r f)
      = (Cert.Spec.lin (fun r k => v0 (ix2 r k)) (fun k f => w0 (ix2 k f)) r f
          + Cert.Spec.lin (fun r k => v2 (ix2 r k)) (fun k f => w1 (ix2 k f)) r f)
          + Cert.Spec.lin (fun r k => v5 (ix2 r k)) (fun k f => w2 (ix2 k f)) r f := by
  unfold k1_pay6
  exact lin3_ix2 (truncf .bf16 v0 bitsLt_bf16_f32) _ _ _ _ _ (fun _ _ => rfl)
    (fun r k => block_apply v2 _ _ (ix2 r k)) (fun r k => block_apply v5 _ _ (ix2 r k)) w0 w1 w2 _ _ r f

/-- The new state from the update gate `z`, the old state `h`, the input's contractions `c` with their
    bias `bx`, and the reset state's convolution. -/
theorem k1_pay1_ix2 (a0 a1 a2 : FVec Ideal S2000x128 .bf16) (A0 A1 A2 : Cert.Spec.NF 2000)
    (h0 : ∀ r k, a0 (ix2 r k) = A0 r k) (h1 : ∀ r k, a1 (ix2 r k) = A1 r k) (h2 : ∀ r k, a2 (ix2 r k) = A2 r k)
    (z : FVec Ideal S2000x128 .f32) (h : Vec Ideal S2000x128 .f32) (c : FVec Ideal S2000x128 .f32)
    (bx : Vec Ideal S128 .f32) (w0 w1 w2 : Vec Ideal S128x128 .f32) (b : Vec Ideal S128 .f32) (r : Fin 2000) (f : Fin 128) :
    k1_pay1 (F := Ideal) a0 a1 a2 z h c bx w0 w1 w2 b (ix2 r f)
      = z (ix2 r f) * h (ix2 r f) + (Cert.Spec.one - z (ix2 r f))
          * (Ideal.tanh ((c (ix2 r f) + bx (ix1 f)) + Cert.Spec.conv3 A0 A1 A2 (fun k f => w0 (ix2 k f)) (fun k f => w1 (ix2 k f)) (fun k f => w2 (ix2 k f)) (fun f => b (ix1 f)) r f)
              + ((c (ix2 r f) + bx (ix1 f)) + Cert.Spec.conv3 A0 A1 A2 (fun k f => w0 (ix2 k f)) (fun k f => w1 (ix2 k f)) (fun k f => w2 (ix2 k f)) (fun f => b (ix1 f)) r f)) := by
  unfold k1_pay1
  have e1 := bias_ix2 bx shapeCasts_S128_S1x128 broadcasts_S1x128_S2000x128 r f
  have e2 := conv_ix2 a0 a1 a2 A0 A1 A2 h0 h1 h2 w0 w1 w2 b shapeCasts_S128x128_S128x128 bitsLt_bf16_f32
    shapeCasts_S128_S1x128 broadcasts_S1x128_S2000x128 r f
  exact congrArg₂ (fun s t => z (ix2 r f) * h (ix2 r f) + (Cert.Spec.one - z (ix2 r f))
      * (Ideal.tanh ((c (ix2 r f) + s) + t) + ((c (ix2 r f) + s) + t))) e1 e2

/-- The update gate re-laid onto its own shape reads the loaded gate. -/
theorem k1_pay5_apply (z : Vec Ideal S2000x128 .f32) (i : S2000x128.Idx) : k1_pay5 (F := Ideal) z i = z i :=
  congrFun (shapeCast_self z shapeCasts_S2000x128_S2000x128) i

/-- Region 1's stored value is the new state. -/
theorem OUT_ix2 (tx0 tx1 tx2 tr0 tr1 tr2 z h : Vec Ideal S2000x128 .f32)
    (wxh0 wxh1 wxh2 whh0 whh1 whh2 : Vec Ideal S128x128 .f32) (bxh bhh : Vec Ideal S128 .f32) (r : Fin 2000) (f : Fin 128) :
    k1_pay1 (F := Ideal) (k1_pay2 tr0) (k1_pay3 tr1) (k1_pay4 tr2) (k1_pay5 z) h (k1_pay6 tx0 tx1 tx2 wxh0 wxh1 wxh2) bxh whh0 whh1 whh2 bhh (ix2 r f)
      = Cert.Spec.cand (fun r k => z (ix2 r k)) (fun r k => h (ix2 r k)) (Cert.Spec.conv3 (fun r k => tx0 (ix2 r k)) (fun r k => tx1 (ix2 r k)) (fun r k => tx2 (ix2 r k)) (fun k f => wxh0 (ix2 k f)) (fun k f => wxh1 (ix2 k f)) (fun k f => wxh2 (ix2 k f)) (fun f => bxh (ix1 f)))
          (Cert.Spec.conv3 (fun r k => tr0 (ix2 r k)) (fun r k => tr1 (ix2 r k)) (fun r k => tr2 (ix2 r k)) (fun k f => whh0 (ix2 k f)) (fun k f => whh1 (ix2 k f)) (fun k f => whh2 (ix2 k f)) (fun f => bhh (ix1 f))) r f := by
  rw [k1_pay1_ix2 (k1_pay2 tr0) (k1_pay3 tr1) (k1_pay4 tr2) (fun r k => tr0 (ix2 r k)) (fun r k => tr1 (ix2 r k))
      (fun r k => tr2 (ix2 r k)) (fun r k => block_apply tr0 _ _ (ix2 r k)) (fun r k => block_apply tr1 _ _ (ix2 r k))
      (fun r k => block_apply tr2 _ _ (ix2 r k)), k1_pay6_ix2, k1_pay5_apply]
  rfl

end Cert.KernelIdeal.KPay

end
-- ==== Proof.KPay.lean ====
/-
  The kernel bodies' stored values at an index: the update gate and the reset state (region 0) and the
  new state (region 1), each as the specification's function of the loaded blocks, weights and biases.
-/
import proofs.«145498_j1855425872361_1_alg».proof.Proof.KPayGate
import proofs.«145498_j1855425872361_1_alg».proof.Proof.KPayCand
-- ==== Proof.SpecRead.lean ====
/-
  Arrays read as the specification's matrices, and the locality of the specification's functions.

  A node-feature array of R rows is read as the matrix (n, k) ↦ a(n, k), a 128 × 128 array as a weight
  matrix, a 128-entry array as a bias vector. Every function of the specification at (n, f) reads only row
  n of its feature matrices, column f of its weights and entry f of its biases: two settings that agree
  there give the same value. That is how a block's row r is matched with the whole array's row n.
-/
import proofs.«145498_j1855425872361_1_alg».proof.Proof.Spec

noncomputable section

namespace Cert.Spec

open Idealize.ShloMosaic

/-- An array of `R` rows of 128 features read as a feature matrix. -/
def M {R : Nat} (a : (⟨2, ![R, 128]⟩ : Shape).Idx → EReal) : NF R := fun n k => a (ValueIdx.ix2 n k)
/-- A 128 × 128 array read as a weight matrix. -/
def Wm (a : (⟨2, ![128, 128]⟩ : Shape).Idx → EReal) : WM := fun k f => a (ValueIdx.ix2 k f)
/-- An array of 128 entries read as a bias vector. -/
def Bv (a : (⟨1, ![128]⟩ : Shape).Idx → EReal) : BV := fun f => a (ValueIdx.ix1 f)

theorem M_apply {R : Nat} (a : (⟨2, ![R, 128]⟩ : Shape).Idx → EReal) (n : Fin R) (k : Fin 128) :
    M a n k = a (ValueIdx.ix2 n k) := rfl
theorem Wm_apply (a : (⟨2, ![128, 128]⟩ : Shape).Idx → EReal) (k f : Fin 128) : Wm a k f = a (ValueIdx.ix2 k f) := rfl
theorem Bv_apply (a : (⟨1, ![128]⟩ : Shape).Idx → EReal) (f : Fin 128) : Bv a f = a (ValueIdx.ix1 f) := rfl

theorem lin_congr {R R' : Nat} {A : NF R} {A' : NF R'} {W W' : WM} {r : Fin R} {n : Fin R'} {f : Fin 128}
    (hA : ∀ k, A r k = A' n k) (hW : ∀ k, W k f = W' k f) : lin A W r f = lin A' W' n f :=
  Finset.sum_congr rfl fun k _ => by rw [hA k, hW k]

theorem conv3_congr {R R' : Nat} {A0 A1 A2 : NF R} {A0' A1' A2' : NF R'} {W0 W1 W2 W0' W1' W2' : WM} {B B' : BV}
    {r : Fin R} {n : Fin R'} {f : Fin 128}
    (h0 : ∀ k, A0 r k = A0' n k) (h1 : ∀ k, A1 r k = A1' n k) (h2 : ∀ k, A2 r k = A2' n k)
    (g0 : ∀ k, W0 k f = W0' k f) (g1 : ∀ k, W1 k f = W1' k f) (g2 : ∀ k, W2 k f = W2' k f) (hb : B f = B' f) :
    conv3 A0 A1 A2 W0 W1 W2 B r f = conv3 A0' A1' A2' W0' W1' W2' B' n f := by
  unfold conv3
  rw [lin_congr h0 g0, lin_congr h1 g1, lin_congr h2 g2, hb]

theorem gate_congr {R R' : Nat} {cx ch : NF R} {cx' ch' : NF R'} {r : Fin R} {n : Fin R'} {f : Fin 128}
    (hx : cx r f = cx' n f) (hh : ch r f = ch' n f) : gate cx ch r f = gate cx' ch' n f := by
  unfold gate; rw [hx, hh]

theorem hreset_congr {R R' : Nat} {h g : NF R} {h' g' : NF R'} {r : Fin R} {n : Fin R'} {f : Fin 128}
    (hh : h r f = h' n f) (hg : g r f = g' n f) : hreset h g r f = hreset h' g' n f := by
  unfold hreset; rw [hh, hg]

theorem cand_congr {R R' : Nat} {z h cx ch : NF R} {z' h' cx' ch' : NF R'} {r : Fin R} {n : Fin R'} {f : Fin 128}
    (hz : z r f = z' n f) (hh : h r f = h' n f) (hx : cx r f = cx' n f) (hc : ch r f = ch' n f) :
    cand z h cx ch r f = cand z' h' cx' ch' n f := by
  unfold cand; rw [hz, hh, hx, hc]

end Cert.Spec

end
-- ==== Proof.KiValue0.lean ====
/-
  Region 0 of the kernel program, from blocks to the arrays: the update gate and the reset state at every node
  and feature.

  Point t of the 25-point grid handles rows 2000 t … 2000 t + 1999. Each node-feature window's block at t is
  those rows of its array; a weight matrix's or a bias's block is the whole array at every point. What the
  body stores at (r, f) of an output block is the specification's gate (or reset state) of the blocks; every
  function of the specification at (r, f) reads only row r of its feature matrices, so the block's value at
  (r, f) is the whole arrays' at (2000 t + r, f): each point writes back its block of ONE function of the
  arrays. The 25 blocks cover the rows (row n is in block n / 2000), so each output array ends holding its
  function.
-/
import proofs.«145498_j1855425872361_1_alg».proof.Proof.KiBody0
import proofs.«145498_j1855425872361_1_alg».proof.Proof.KPay
import proofs.«145498_j1855425872361_1_alg».proof.Proof.SpecRead
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (M Wm Bv)

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a <;> rfl

/-- The grid has 25 points. -/
theorem lt25_0 (t : Fin cfg0.N) : t.val < 25 := N_0 ▸ t.isLt

/-- Row `r` of point `t`'s block is row 2000 t + r of the array. -/
def row0 (t : Fin cfg0.N) (r : Fin 2000) : Fin 50000 :=
  ⟨2000 * t.val + r.val, by have := lt25_0 t; have := r.isLt; omega⟩

/-! ## The index maps, decided over the grid

A node-feature window's block index at point `t` is (t, 0); a weight matrix's (0, 0); a bias's (0). -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 2) = 0 ∧ win0_16.index t (1 : Fin 2) = 0 :=
  (by decide +kernel : ∀ t : Fin grid0.N, _)
theorem idx0_17 : ∀ t : Fin cfg0.N, win0_17.index t (0 : Fin 2) = 0 ∧ win0_17.index t (1 : Fin 2) = 0 :=
  (by decide +kernel : ∀ t : Fin grid0.N, _)
theorem idx0_18 : ∀ t : Fin cfg0.N, win0_18.index t (0 : Fin 2) = 0 ∧ win0_18.index t (1 : Fin 2) = 0 :=
  (by decide +kernel : ∀ t : Fin grid0.N, _)
theorem idx0_19 : ∀ t : Fin cfg0.N, win0_19.index t (0 : Fin 1) = 0 :=
  (by decide +kernel : ∀ t : Fin grid0.N, _)
theorem idx0_20 : ∀ t : Fin cfg0.N, win0_20.index t (0 : Fin 1) = 0 :=
  (by decide +kernel : ∀ t : Fin grid0.N, _)
theorem idx0_21 : ∀ t : Fin cfg0.N, win0_21.index t (0 : Fin 1) = 0 :=
  (by decide +kernel : ∀ t : Fin grid0.N, _)
theorem idx0_22 : ∀ t : Fin cfg0.N, win0_22.index t (0 : Fin 1) = 0 :=
  (by decide +kernel : ∀ t : Fin grid0.N, _)
theorem idx0_23 : ∀ t : Fin cfg0.N, win0_23.index t (0 : Fin 2) = t.val ∧ win0_23.index t (1 : Fin 2) = 0 :=
  (by decide +kernel : ∀ t : Fin grid0.N, _)
theorem idx0_24 : ∀ t : Fin cfg0.N, win0_24.index t (0 : Fin 2) = t.val ∧ win0_24.index t (1 : Fin 2) = 0 :=
  (by decide +kernel : ∀ t : Fin grid0.N, _)

/-! ## Each input block read off its whole array -/

/-- Window 0's block at point `t`, at (r, k), is its array at row 2000 t + r. -/
theorem iblk0_0_apply (c : Dev nD) (t : Fin cfg0.N) (r : Fin 2000) (k : Fin 128) :
    (iblk0 V c 0 t : Vec Ideal S2000x128 .f32) (ix2 r k) = (V c main_arg0 : S50000x128.Idx → EReal) (ix2 (row0 t r) k) := by
  unfold iblk0
  rw [View.read_apply]
  show V c main_arg0 _ = V c main_arg0 _
  congr 1
  funext a; apply Fin.ext
  match a with
  | ⟨0, _⟩ => show win0_0.index t (0 : Fin 2) * 2000 + 1 * r.val = 2000 * t.val + r.val; rw [(idx0_0 t).1]; omega
  | ⟨1, _⟩ => show win0_0.index t (1 : Fin 2) * 128 + 1 * k.val = k.val; rw [(idx0_0 t).2]; omega
/-- Window 1's block at point `t`, at (r, k), is its array at row 2000 t + r. -/
theorem iblk0_1_apply (c : Dev nD) (t : Fin cfg0.N) (r : Fin 2000) (k : Fin 128) :
    (iblk0 V c 1 t : Vec Ideal S2000x128 .f32) (ix2 r k) = (V c main_v51 : S50000x128.Idx → EReal) (ix2 (row0 t r) k) := by
  unfold iblk0
  rw [View.read_apply]
  show V c main_v51 _ = V c main_v51 _
  congr 1
  funext a; apply Fin.ext
  match a with
  | ⟨0, _⟩ => show win0_1.index t (0 : Fin 2) * 2000 + 1 * r.val = 2000 * t.val + r.val; rw [(idx0_1 t).1]; omega
  | ⟨1, _⟩ => show win0_1.index t (1 : Fin 2) * 128 + 1 * k.val = k.val; rw [(idx0_1 t).2]; omega
/-- Window 2's block at point `t`, at (r, k), is its array at row 2000 t + r. -/
theorem iblk0_2_apply (c : Dev nD) (t : Fin cfg0.N) (r : Fin 2000) (k : Fin 128) :
    (iblk0 V c 2 t : Vec Ideal S2000x128 .f32) (ix2 r k) = (V c main_v74 : S50000x128.Idx → EReal) (ix2 (row0 t r) k) := by
  unfold iblk0
  rw [View.read_apply]
  show V c main_v74 _ = V c main_v74 _
  congr 1
  funext a; apply Fin.ext
  match a with
  | ⟨0, _⟩ => show win0_2.index t (0 : Fin 2) * 2000 + 1 * r.val = 2000 * t.val + r.val; rw [(idx0_2 t).1]; omega
  | ⟨1, _⟩ => show win0_2.index t (1 : Fin 2) * 128 + 1 * k.val = k.val; rw [(idx0_2 t).2]; omega
/-- Window 3's block at point `t`, at (r, k), is its array at row 2000 t + r. -/
theorem iblk0_3_apply (c : Dev nD) (t : Fin cfg0.N) (r : Fin 2000) (k : Fin 128) :
    (iblk0 V c 3 t : Vec Ideal S2000x128 .f32) (ix2 r k) = (V c main_arg3 : S50000x128.Idx → EReal) (ix2 (row0 t r) k) := by
  unfold iblk0
  rw [View.read_apply]
  show V c main_arg3 _ = V c main_arg3 _
  congr 1
  funext a; apply Fin.ext
  match a with
  | ⟨0, _⟩ => show win0_3.index t (0 : Fin 2) * 2000 + 1 * r.val = 2000 * t.val + r.val; rw [(idx0_3 t).1]; omega
  | ⟨1, _⟩ => show win0_3.index t (1 : Fin 2) * 128 + 1 * k.val = k.val; rw [(idx0_3 t).2]; omega
/-- Window 4's block at point `t`, at (r, k), is its array at row 2000 t + r. -/
theorem iblk0_4_apply (c : Dev nD) (t : Fin cfg0.N) (r : Fin 2000) (k : Fin 128) :
    (iblk0 V c 4 t : Vec Ideal S2000x128 .f32) (ix2 r k) = (V c main_v94 : S50000x128.Idx → EReal) (ix2 (row0 t r) k) := by
  unfold iblk0
  rw [View.read_apply]
  show V c main_v94 _ = V c main_v94 _
  congr 1
  funext a; apply Fin.ext
  match a with
  | ⟨0, _⟩ => show win0_4.index t (0 : Fin 2) * 2000 + 1 * r.val = 2000 * t.val + r.val; rw [(idx0_4 t).1]; omega
  | ⟨1, _⟩ => show win0_4.index t (1 : Fin 2) * 128 + 1 * k.val = k.val; rw [(idx0_4 t).2]; omega
/-- Window 5's block at point `t`, at (r, k), is its array at row 2000 t + r. -/
theorem iblk0_5_apply (c : Dev nD) (t : Fin cfg0.N) (r : Fin 2000) (k : Fin 128) :
    (iblk0 V c 5 t : Vec Ideal S2000x128 .f32) (ix2 r k) = (V c main_v117 : S50000x128.Idx → EReal) (ix2 (row0 t r) k) := by
  unfold iblk0
  rw [View.read_apply]
  show V c main_v117 _ = V c main_v117 _
  congr 1
  funext a; apply Fin.ext
  match a with
  | ⟨0, _⟩ => show win0_5.index t (0 : Fin 2) * 2000 + 1 * r.val = 2000 * t.val + r.val; rw [(idx0_5 t).1]; omega
  | ⟨1, _⟩ => show win0_5.index t (1 : Fin 2) * 128 + 1 * k.val = k.val; rw [(idx0_5 t).2]; omega
/-- Window 6's block at point `t`, at (r, k), is its array at row 2000 t + r. -/
theorem iblk0_6_apply (c : Dev nD) (t : Fin cfg0.N) (r : Fin 2000) (k : Fin 128) :
    (iblk0 V c 6 t : Vec Ideal S2000x128 .f32) (ix2 r k) = (V c main_arg3 : S50000x128.Idx → EReal) (ix2 (row0 t r) k) := by
  unfold iblk0
  rw [View.read_apply]
  show V c main_arg3 _ = V c main_arg3 _
  congr 1
  funext a; apply Fin.ext
  match a with
  | ⟨0, _⟩ => show win0_6.index t (0 : Fin 2) * 2000 + 1 * r.val = 2000 * t.val + r.val; rw [(idx0_6 t).1]; omega
  | ⟨1, _⟩ => show win0_6.index t (1 : Fin 2) * 128 + 1 * k.val = k.val; rw [(idx0_6 t).2]; omega
/-- Window 7's block at every point is its whole weight matrix. -/
theorem iblk0_7_apply (c : Dev nD) (t : Fin cfg0.N) (k f : Fin 128) :
    (iblk0 V c 7 t : Vec Ideal S128x128 .f32) (ix2 k f) = (V c main_v119 : S128x128.Idx → EReal) (ix2 k f) := by
  unfold iblk0
  rw [View.read_apply]
  show V c main_v119 _ = V c main_v119 _
  congr 1
  funext a; apply Fin.ext
  match a with
  | ⟨0, _⟩ => show win0_7.index t (0 : Fin 2) * 128 + 1 * k.val = k.val; rw [(idx0_7 t).1]; omega
  | ⟨1, _⟩ => show win0_7.index t (1 : Fin 2) * 128 + 1 * f.val = f.val; rw [(idx0_7 t).2]; omega
/-- Window 8's block at every point is its whole weight matrix. -/
theorem iblk0_8_apply (c : Dev nD) (t : Fin cfg0.N) (k f : Fin 128) :
    (iblk0 V c 8 t : Vec Ideal S128x128 .f32) (ix2 k f) = (V c main_v121 : S128x128.Idx → EReal) (ix2 k f) := by
  unfold iblk0
  rw [View.read_apply]
  show V c main_v121 _ = V c main_v121 _
  congr 1
  funext a; apply Fin.ext
  match a with
  | ⟨0, _⟩ => show win0_8.index t (0 : Fin 2) * 128 + 1 * k.val = k.val; rw [(idx0_8 t).1]; omega
  | ⟨1, _⟩ => show win0_8.index t (1 : Fin 2) * 128 + 1 * f.val = f.val; rw [(idx0_8 t).2]; omega
/-- Window 9's block at every point is its whole weight matrix. -/
theorem iblk0_9_apply (c : Dev nD) (t : Fin cfg0.N) (k f : Fin 128) :
    (iblk0 V c 9 t : Vec Ideal S128x128 .f32) (ix2 k f) = (V c main_v123 : S128x128.Idx → EReal) (ix2 k f) := by
  unfold iblk0
  rw [View.read_apply]
  show V c main_v123 _ = V c main_v123 _
  congr 1
  funext a; apply Fin.ext
  match a with
  | ⟨0, _⟩ => show win0_9.index t (0 : Fin 2) * 128 + 1 * k.val = k.val; rw [(idx0_9 t).1]; omega
  | ⟨1, _⟩ => show win0_9.index t (1 : Fin 2) * 128 + 1 * f.val = f.val; rw [(idx0_9 t).2]; omega
/-- Window 10's block at every point is its whole weight matrix. -/
theorem iblk0_10_apply (c : Dev nD) (t : Fin cfg0.N) (k f : Fin 128) :
    (iblk0 V c 10 t : Vec Ideal S128x128 .f32) (ix2 k f) = (V c main_v125 : S128x128.Idx → EReal) (ix2 k f) := by
  unfold iblk0
  rw [View.read_apply]
  show V c main_v125 _ = V c main_v125 _
  congr 1
  funext a; apply Fin.ext
  match a with
  | ⟨0, _⟩ => show win0_10.index t (0 : Fin 2) * 128 + 1 * k.val = k.val; rw [(idx0_10 t).1]; omega
  | ⟨1, _⟩ => show win0_10.index t (1 : Fin 2) * 128 + 1 * f.val = f.val; rw [(idx0_10 t).2]; omega
/-- Window 11's block at every point is its whole weight matrix. -/
theorem iblk0_11_apply (c : Dev nD) (t : Fin cfg0.N) (k f : Fin 128) :
    (iblk0 V c 11 t : Vec Ideal S128x128 .f32) (ix2 k f) = (V c main_v127 : S128x128.Idx → EReal) (ix2 k f) := by
  unfold iblk0
  rw [View.read_apply]
  show V c main_v127 _ = V c main_v127 _
  congr 1
  funext a; apply Fin.ext
  match a with
  | ⟨0, _⟩ => show win0_11.index t (0 : Fin 2) * 128 + 1 * k.val = k.val; rw [(idx0_11 t).1]; omega
  | ⟨1, _⟩ => show win0_11.index t (1 : Fin 2) * 128 + 1 * f.val = f.val; rw [(idx0_11 t).2]; omega
/-- Window 12's block at every point is its whole weight matrix. -/
theorem iblk0_12_apply (c : Dev nD) (t : Fin cfg0.N) (k f : Fin 128) :
    (iblk0 V c 12 t : Vec Ideal S128x128 .f32) (ix2 k f) = (V c main_v129 : S128x128.Idx → EReal) (ix2 k f) := by
  unfold iblk0
  rw [View.read_apply]
  show V c main_v129 _ = V c main_v129 _
  congr 1
  funext a; apply Fin.ext
  match a with
  | ⟨0, _⟩ => show win0_12.index t (0 : Fin 2) * 128 + 1 * k.val = k.val; rw [(idx0_12 t).1]; omega
  | ⟨1, _⟩ => show win0_12.index t (1 : Fin 2) * 128 + 1 * f.val = f.val; rw [(idx0_12 t).2]; omega
/-- Window 13's block at every point is its whole weight matrix. -/
theorem iblk0_13_apply (c : Dev nD) (t : Fin cfg0.N) (k f : Fin 128) :
    (iblk0 V c 13 t : Vec Ideal S128x128 .f32) (ix2 k f) = (V c main_v131 : S128x128.Idx → EReal) (ix2 k f) := by
  unfold iblk0
  rw [View.read_apply]
  show V c main_v131 _ = V c main_v131 _
  congr 1
  funext a; apply Fin.ext
  match a with
  | ⟨0, _⟩ => show win0_13.index t (0 : Fin 2) * 128 + 1 * k.val = k.val; rw [(idx0_13 t).1]; omega
  | ⟨1, _⟩ => show win0_13.index t (1 : Fin 2) * 128 + 1 * f.val = f.val; rw [(idx0_13 t).2]; omega
/-- Window 14's block at every point is its whole weight matrix. -/
theorem iblk0_14_apply (c : Dev nD) (t : Fin cfg0.N) (k f : Fin 128) :
    (iblk0 V c 14 t : Vec Ideal S128x128 .f32) (ix2 k f) = (V c main_v133 : S128x128.Idx → EReal) (ix2 k f) := by
  unfold iblk0
  rw [View.read_apply]
  show V c main_v133 _ = V c main_v133 _
  congr 1
  funext a; apply Fin.ext
  match a with
  | ⟨0, _⟩ => show win0_14.index t (0 : Fin 2) * 128 + 1 * k.val = k.val; rw [(idx0_14 t).1]; omega
  | ⟨1, _⟩ => show win0_14.index t (1 : Fin 2) * 128 + 1 * f.val = f.val; rw [(idx0_14 t).2]; omega
/-- Window 15's block at every point is its whole weight matrix. -/
theorem iblk0_15_apply (c : Dev nD) (t : Fin cfg0.N) (k f : Fin 128) :
    (iblk0 V c 15 t : Vec Ideal S128x128 .f32) (ix2 k f) = (V c main_v135 : S128x128.Idx → EReal) (ix2 k f) := by
  unfold iblk0
  rw [View.read_apply]
  show V c main_v135 _ = V c main_v135 _
  congr 1
  funext a; apply Fin.ext
  match a with
  | ⟨0, _⟩ => show win0_15.index t (0 : Fin 2) * 128 + 1 * k.val = k.val; rw [(idx0_15 t).1]; omega
  | ⟨1, _⟩ => show win0_15.index t (1 : Fin 2) * 128 + 1 * f.val = f.val; rw [(idx0_15 t).2]; omega
/-- Window 16's block at every point is its whole weight matrix. -/
theorem iblk0_16_apply (c : Dev nD) (t : Fin cfg0.N) (k f : Fin 128) :
    (iblk0 V c 16 t : Vec Ideal S128x128 .f32) (ix2 k f) = (V c main_v137 : S128x128.Idx → EReal) (ix2 k f) := by
  unfold iblk0
  rw [View.read_apply]
  show V c main_v137 _ = V c main_v137 _
  congr 1
  funext a; apply Fin.ext
  match a with
  | ⟨0, _⟩ => show win0_16.index t (0 : Fin 2) * 128 + 1 * k.val = k.val; rw [(idx0_16 t).1]; omega
  | ⟨1, _⟩ => show win0_16.index t (1 : Fin 2) * 128 + 1 * f.val = f.val; rw [(idx0_16 t).2]; omega
/-- Window 17's block at every point is its whole weight matrix. -/
theorem iblk0_17_apply (c : Dev nD) (t : Fin cfg0.N) (k f : Fin 128) :
    (iblk0 V c 17 t : Vec Ideal S128x128 .f32) (ix2 k f) = (V c main_v139 : S128x128.Idx → EReal) (ix2 k f) := by
  unfold iblk0
  rw [View.read_apply]
  show V c main_v139 _ = V c main_v139 _
  congr 1
  funext a; apply Fin.ext
  match a with
  | ⟨0, _⟩ => show win0_17.index t (0 : Fin 2) * 128 + 1 * k.val = k.val; rw [(idx0_17 t).1]; omega
  | ⟨1, _⟩ => show win0_17.index t (1 : Fin 2) * 128 + 1 * f.val = f.val; rw [(idx0_17 t).2]; omega
/-- Window 18's block at every point is its whole weight matrix. -/
theorem iblk0_18_apply (c : Dev nD) (t : Fin cfg0.N) (k f : Fin 128) :
    (iblk0 V c 18 t : Vec Ideal S128x128 .f32) (ix2 k f) = (V c main_v141 : S128x128.Idx → EReal) (ix2 k f) := by
  unfold iblk0
  rw [View.read_apply]
  show V c main_v141 _ = V c main_v141 _
  congr 1
  funext a; apply Fin.ext
  match a with
  | ⟨0, _⟩ => show win0_18.index t (0 : Fin 2) * 128 + 1 * k.val = k.val; rw [(idx0_18 t).1]; omega
  | ⟨1, _⟩ => show win0_18.index t (1 : Fin 2) * 128 + 1 * f.val = f.val; rw [(idx0_18 t).2]; omega
/-- Window 19's block at every point is its whole bias vector. -/
theorem iblk0_19_apply (c : Dev nD) (t : Fin cfg0.N) (f : Fin 128) :
    (iblk0 V c 19 t : Vec Ideal S128 .f32) (ix1 f) = (V c main_arg5 : S128.Idx → EReal) (ix1 f) := by
  unfold iblk0
  rw [View.read_apply]
  show V c main_arg5 _ = V c main_arg5 _
  congr 1
  funext a; apply Fin.ext
  match a with
  | ⟨0, _⟩ => show win0_19.index t (0 : Fin 1) * 128 + 1 * f.val = f.val; rw [idx0_19 t]; omega
/-- Window 20's block at every point is its whole bias vector. -/
theorem iblk0_20_apply (c : Dev nD) (t : Fin cfg0.N) (f : Fin 128) :
    (iblk0 V c 20 t : Vec Ideal S128 .f32) (ix1 f) = (V c main_arg7 : S128.Idx → EReal) (ix1 f) := by
  unfold iblk0
  rw [View.read_apply]
  show V c main_arg7 _ = V c main_arg7 _
  congr 1
  funext a; apply Fin.ext
  match a with
  | ⟨0, _⟩ => show win0_20.index t (0 : Fin 1) * 128 + 1 * f.val = f.val; rw [idx0_20 t]; omega
/-- Window 21's block at every point is its whole bias vector. -/
theorem iblk0_21_apply (c : Dev nD) (t : Fin cfg0.N) (f : Fin 128) :
    (iblk0 V c 21 t : Vec Ideal S128 .f32) (ix1 f) = (V c main_arg9 : S128.Idx → EReal) (ix1 f) := by
  unfold iblk0
  rw [View.read_apply]
  show V c main_arg9 _ = V c main_arg9 _
  congr 1
  funext a; apply Fin.ext
  match a with
  | ⟨0, _⟩ => show win0_21.index t (0 : Fin 1) * 128 + 1 * f.val = f.val; rw [idx0_21 t]; omega
/-- Window 22's block at every point is its whole bias vector. -/
theorem iblk0_22_apply (c : Dev nD) (t : Fin cfg0.N) (f : Fin 128) :
    (iblk0 V c 22 t : Vec Ideal S128 .f32) (ix1 f) = (V c main_arg11 : S128.Idx → EReal) (ix1 f) := by
  unfold iblk0
  rw [View.read_apply]
  show V c main_arg11 _ = V c main_arg11 _
  congr 1
  funext a; apply Fin.ext
  match a with
  | ⟨0, _⟩ => show win0_22.index t (0 : Fin 1) * 128 + 1 * f.val = f.val; rw [idx0_22 t]; omega

/-! ## Output window 23 -/

/-- An element (r, f) of point `t`'s block of window 23 sits in the array at (2000 t + r, f). -/
theorem emb0_23 (t : Fin cfg0.N) (r : Fin 2000) (f : Fin 128) :
    ((cfg0.win 23).blk t).view.emb (ix2 r f) = (ix2 (row0 t r) f : S50000x128.Idx) := by
  funext a; apply Fin.ext
  match a with
  | ⟨0, _⟩ => show win0_23.index t (0 : Fin 2) * 2000 + 1 * r.val = 2000 * t.val + r.val; rw [(idx0_23 t).1]; omega
  | ⟨1, _⟩ => show win0_23.index t (1 : Fin 2) * 128 + 1 * f.val = f.val; rw [(idx0_23 t).2]; omega

/-- The update gate as ONE function of the whole arrays the region is entered with. -/
def G0_23 (c : Dev nD) : S50000x128.Idx → EReal := fun i =>
  Cert.Spec.gate (Cert.Spec.conv3 (M (R := 50000) (V c main_arg0)) (M (R := 50000) (V c main_v51)) (M (R := 50000) (V c main_v74)) (Wm (V c main_v119)) (Wm (V c main_v121)) (Wm (V c main_v123)) (Bv (V c main_arg5)))
      (Cert.Spec.conv3 (M (R := 50000) (V c main_arg3)) (M (R := 50000) (V c main_v94)) (M (R := 50000) (V c main_v117)) (Wm (V c main_v125)) (Wm (V c main_v127)) (Wm (V c main_v129)) (Bv (V c main_arg7))) (i 0) (i 1)

/-- What point `t` writes back is block `t` of that function. -/
theorem flushed0_23_eq (c : Dev nD) (t : Fin cfg0.N) :
    (dat0 (F := Ideal) V c).flushed 23 t = ((cfg0.win 23).blk t).view.read (Elt Ideal) (G0_23 V c) := by
  show (cfg0.win 23).cut (grid0.coords t) ((dat0 V c).after 23 t) = _
  rw [after0_23]
  unfold out0_23
  rw [View.canon_unit_zero zero2_0]
  simp only [View.ld_unit_zero (S := S2000x128) zero2_0, View.ld_unit_zero (S := S128x128) zero2_0, View.ld_unit_zero (S := S128) zero1_0]
  funext j
  obtain ⟨r, f, rfl⟩ : ∃ (r : Fin 2000) (f : Fin 128), j = ix2 r f := ⟨j 0, j 1, eq_ix2 j⟩
  rw [View.read_apply]
  show k0_pay9 (F := Ideal) (k0_pay5 (iblk0 V c 3 t)) (k0_pay6 (iblk0 V c 4 t)) (k0_pay7 (iblk0 V c 5 t)) (k0_pay8 (iblk0 V c 0 t) (iblk0 V c 1 t) (iblk0 V c 2 t) (iblk0 V c 7 t) (iblk0 V c 8 t) (iblk0 V c 9 t) (iblk0 V c 19 t)) (iblk0 V c 10 t) (iblk0 V c 11 t) (iblk0 V c 12 t) (iblk0 V c 20 t) (ix2 r f)
      = G0_23 V c (((cfg0.win 23).blk t).view.emb (ix2 r f))
  rw [emb0_23 t r f]
  refine (Cert.KernelIdeal.KPay.Z_ix2 (iblk0 V c 0 t) (iblk0 V c 1 t) (iblk0 V c 2 t) (iblk0 V c 3 t) (iblk0 V c 4 t) (iblk0 V c 5 t) (iblk0 V c 7 t) (iblk0 V c 8 t) (iblk0 V c 9 t) (iblk0 V c 10 t) (iblk0 V c 11 t) (iblk0 V c 12 t) (iblk0 V c 19 t) (iblk0 V c 20 t) r f).trans ?_
  exact Cert.Spec.gate_congr
    (Cert.Spec.conv3_congr (fun k => iblk0_0_apply V c t r k) (fun k => iblk0_1_apply V c t r k) (fun k => iblk0_2_apply V c t r k)
      (fun k => iblk0_7_apply V c t k f) (fun k => iblk0_8_apply V c t k f) (fun k => iblk0_9_apply V c t k f) (iblk0_19_apply V c t f))
    (Cert.Spec.conv3_congr (fun k => iblk0_3_apply V c t r k) (fun k => iblk0_4_apply V c t r k) (fun k => iblk0_5_apply V c t r k)
      (fun k => iblk0_10_apply V c t k f) (fun k => iblk0_11_apply V c t k f) (fun k => iblk0_12_apply V c t k f) (iblk0_20_apply V c t f))

/-- An index of the array is in point `t`'s block iff each coordinate is in the block's range on its axis. -/
theorem mem_blk0_23 (t : Fin cfg0.N) (i : S50000x128.Idx) :
    i ∈ ((cfg0.win 23).blk t).view.set ↔ ∀ a : Fin 2, win0_23.index t a * S2000x128.size a ≤ (i a).val ∧ (i a).val < win0_23.index t a * S2000x128.size a + S2000x128.size a := by
  show i ∈ ((View.whole main_v154_0).slice (win0_23.rect t)).set ↔ _
  rw [View.set_slice_whole, Rect.mem_set_unit]
  exact Iff.rfl

/-- Every row is in some point's block: row n in point n / 2000's. -/
theorem cover0_23_arr (i : S50000x128.Idx) :
    ∃ t : Fin cfg0.N, (cfg0.win 23).flush t = true ∧ i ∈ ((cfg0.win 23).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_23 _, ?_⟩
  rw [mem_blk0_23]
  intro a
  match a with
  | ⟨0, _⟩ =>
    show win0_23.index _ (0 : Fin 2) * 2000 ≤ (i 0).val ∧ (i 0).val < win0_23.index _ (0 : Fin 2) * 2000 + 2000
    rw [(idx0_23 _).1]
    show (i 0).val / 2000 * 2000 ≤ (i 0).val ∧ (i 0).val < (i 0).val / 2000 * 2000 + 2000
    omega
  | ⟨1, _⟩ =>
    show win0_23.index _ (1 : Fin 2) * 128 ≤ (i 1).val ∧ (i 1).val < win0_23.index _ (1 : Fin 2) * 128 + 128
    rw [(idx0_23 _).2]
    omega

/-- THE ARRAY of window 23 after region 0: the update gate at every node and feature. -/
theorem final0_23 (c : Dev nD) (n : Fin 50000) (f : Fin 128) :
    (dat0 (F := Ideal) V c).arrAt 23 cfg0.N (ix2 n f)
      = Cert.Spec.gate (Cert.Spec.conv3 (M (R := 50000) (V c main_arg0)) (M (R := 50000) (V c main_v51)) (M (R := 50000) (V c main_v74)) (Wm (V c main_v119)) (Wm (V c main_v121)) (Wm (V c main_v123)) (Bv (V c main_arg5)))
      (Cert.Spec.conv3 (M (R := 50000) (V c main_arg3)) (M (R := 50000) (V c main_v94)) (M (R := 50000) (V c main_v117)) (Wm (V c main_v125)) (Wm (V c main_v127)) (Wm (V c main_v129)) (Bv (V c main_arg7))) n f :=
  congrFun ((dat0 (F := Ideal) V c).arrAt_eq_of_cover 23 (G0_23 V c) (fun t _ => flushed0_23_eq V c t) (cover0_23_arr)) (ix2 n f)

/-! ## Output window 24 -/

/-- An element (r, f) of point `t`'s block of window 24 sits in the array at (2000 t + r, f). -/
theorem emb0_24 (t : Fin cfg0.N) (r : Fin 2000) (f : Fin 128) :
    ((cfg0.win 24).blk t).view.emb (ix2 r f) = (ix2 (row0 t r) f : S50000x128.Idx) := by
  funext a; apply Fin.ext
  match a with
  | ⟨0, _⟩ => show win0_24.index t (0 : Fin 2) * 2000 + 1 * r.val = 2000 * t.val + r.val; rw [(idx0_24 t).1]; omega
  | ⟨1, _⟩ => show win0_24.index t (1 : Fin 2) * 128 + 1 * f.val = f.val; rw [(idx0_24 t).2]; omega

/-- The reset state as ONE function of the whole arrays the region is entered with. -/
def G0_24 (c : Dev nD) : S50000x128.Idx → EReal := fun i =>
  Cert.Spec.hreset (M (R := 50000) (V c main_arg3)) (Cert.Spec.gate (Cert.Spec.conv3 (M (R := 50000) (V c main_arg0)) (M (R := 50000) (V c main_v51)) (M (R := 50000) (V c main_v74)) (Wm (V c main_v131)) (Wm (V c main_v133)) (Wm (V c main_v135)) (Bv (V c main_arg9)))
      (Cert.Spec.conv3 (M (R := 50000) (V c main_arg3)) (M (R := 50000) (V c main_v94)) (M (R := 50000) (V c main_v117)) (Wm (V c main_v137)) (Wm (V c main_v139)) (Wm (V c main_v141)) (Bv (V c main_arg11)))) (i 0) (i 1)

/-- What point `t` writes back is block `t` of that function. -/
theorem flushed0_24_eq (c : Dev nD) (t : Fin cfg0.N) :
    (dat0 (F := Ideal) V c).flushed 24 t = ((cfg0.win 24).blk t).view.read (Elt Ideal) (G0_24 V c) := by
  show (cfg0.win 24).cut (grid0.coords t) ((dat0 V c).after 24 t) = _
  rw [after0_24]
  unfold out0_24
  rw [View.canon_unit_zero zero2_0]
  simp only [View.ld_unit_zero (S := S2000x128) zero2_0, View.ld_unit_zero (S := S128x128) zero2_0, View.ld_unit_zero (S := S128) zero1_0]
  funext j
  obtain ⟨r, f, rfl⟩ : ∃ (r : Fin 2000) (f : Fin 128), j = ix2 r f := ⟨j 0, j 1, eq_ix2 j⟩
  rw [View.read_apply]
  show k0_pay1 (F := Ideal) (k0_pay5 (iblk0 V c 3 t)) (k0_pay6 (iblk0 V c 4 t)) (k0_pay7 (iblk0 V c 5 t)) (iblk0 V c 6 t) (k0_pay10 (k0_pay2 (iblk0 V c 0 t)) (k0_pay3 (iblk0 V c 1 t)) (k0_pay4 (iblk0 V c 2 t)) (iblk0 V c 13 t) (iblk0 V c 14 t) (iblk0 V c 15 t) (iblk0 V c 21 t)) (iblk0 V c 16 t) (iblk0 V c 17 t) (iblk0 V c 18 t) (iblk0 V c 22 t) (ix2 r f)
      = G0_24 V c (((cfg0.win 24).blk t).view.emb (ix2 r f))
  rw [emb0_24 t r f]
  refine (Cert.KernelIdeal.KPay.HR_ix2 (iblk0 V c 0 t) (iblk0 V c 1 t) (iblk0 V c 2 t) (iblk0 V c 3 t) (iblk0 V c 4 t) (iblk0 V c 5 t) (iblk0 V c 6 t) (iblk0 V c 13 t) (iblk0 V c 14 t) (iblk0 V c 15 t) (iblk0 V c 16 t) (iblk0 V c 17 t) (iblk0 V c 18 t) (iblk0 V c 21 t) (iblk0 V c 22 t) r f).trans ?_
  exact Cert.Spec.hreset_congr (iblk0_6_apply V c t r f) (Cert.Spec.gate_congr
    (Cert.Spec.conv3_congr (fun k => iblk0_0_apply V c t r k) (fun k => iblk0_1_apply V c t r k) (fun k => iblk0_2_apply V c t r k)
      (fun k => iblk0_13_apply V c t k f) (fun k => iblk0_14_apply V c t k f) (fun k => iblk0_15_apply V c t k f) (iblk0_21_apply V c t f))
    (Cert.Spec.conv3_congr (fun k => iblk0_3_apply V c t r k) (fun k => iblk0_4_apply V c t r k) (fun k => iblk0_5_apply V c t r k)
      (fun k => iblk0_16_apply V c t k f) (fun k => iblk0_17_apply V c t k f) (fun k => iblk0_18_apply V c t k f) (iblk0_22_apply V c t f)))

/-- An index of the array is in point `t`'s block iff each coordinate is in the block's range on its axis. -/
theorem mem_blk0_24 (t : Fin cfg0.N) (i : S50000x128.Idx) :
    i ∈ ((cfg0.win 24).blk t).view.set ↔ ∀ a : Fin 2, win0_24.index t a * S2000x128.size a ≤ (i a).val ∧ (i a).val < win0_24.index t a * S2000x128.size a + S2000x128.size a := by
  show i ∈ ((View.whole main_v154_1).slice (win0_24.rect t)).set ↔ _
  rw [View.set_slice_whole, Rect.mem_set_unit]
  exact Iff.rfl

/-- Every row is in some point's block: row n in point n / 2000's. -/
theorem cover0_24_arr (i : S50000x128.Idx) :
    ∃ t : Fin cfg0.N, (cfg0.win 24).flush t = true ∧ i ∈ ((cfg0.win 24).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_24 _, ?_⟩
  rw [mem_blk0_24]
  intro a
  match a with
  | ⟨0, _⟩ =>
    show win0_24.index _ (0 : Fin 2) * 2000 ≤ (i 0).val ∧ (i 0).val < win0_24.index _ (0 : Fin 2) * 2000 + 2000
    rw [(idx0_24 _).1]
    show (i 0).val / 2000 * 2000 ≤ (i 0).val ∧ (i 0).val < (i 0).val / 2000 * 2000 + 2000
    omega
  | ⟨1, _⟩ =>
    show win0_24.index _ (1 : Fin 2) * 128 ≤ (i 1).val ∧ (i 1).val < win0_24.index _ (1 : Fin 2) * 128 + 128
    rw [(idx0_24 _).2]
    omega

/-- THE ARRAY of window 24 after region 0: the reset state at every node and feature. -/
theorem final0_24 (c : Dev nD) (n : Fin 50000) (f : Fin 128) :
    (dat0 (F := Ideal) V c).arrAt 24 cfg0.N (ix2 n f)
      = Cert.Spec.hreset (M (R := 50000) (V c main_arg3)) (Cert.Spec.gate (Cert.Spec.conv3 (M (R := 50000) (V c main_arg0)) (M (R := 50000) (V c main_v51)) (M (R := 50000) (V c main_v74)) (Wm (V c main_v131)) (Wm (V c main_v133)) (Wm (V c main_v135)) (Bv (V c main_arg9)))
      (Cert.Spec.conv3 (M (R := 50000) (V c main_arg3)) (M (R := 50000) (V c main_v94)) (M (R := 50000) (V c main_v117)) (Wm (V c main_v137)) (Wm (V c main_v139)) (Wm (V c main_v141)) (Bv (V c main_arg11)))) n f :=
  congrFun ((dat0 (F := Ideal) V c).arrAt_eq_of_cover 24 (G0_24 V c) (fun t _ => flushed0_24_eq V c t) (cover0_24_arr)) (ix2 n f)

end Cert.KernelIdeal.Hand

end
-- ==== Proof.KiValue1.lean ====
/-
  Region 1 of the kernel program, from blocks to the array: the new state at every node and feature.

  Point t of the 25-point grid handles rows 2000 t … 2000 t + 1999. Each node-feature window's block at t is
  those rows of its array; a weight matrix's or a bias's block is the whole array at every point. What the
  body stores at (r, f) of its output block is the specification's new state of the blocks; every function of
  the specification at (r, f) reads only row r of its feature matrices, so the block's value at (r, f) is the
  whole arrays' at (2000 t + r, f): each point writes back its block of ONE function of the arrays. The 25
  blocks cover the rows (row n is in block n / 2000), so the output array ends holding that function.
-/
import proofs.«145498_j1855425872361_1_alg».proof.Proof.KiBody1
import proofs.«145498_j1855425872361_1_alg».proof.Proof.KPay
import proofs.«145498_j1855425872361_1_alg».proof.Proof.SpecRead
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (M Wm Bv)

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a <;> rfl

/-- The grid has 25 points. -/
theorem lt25_1 (t : Fin cfg1.N) : t.val < 25 := N_1 ▸ t.isLt

/-- Row `r` of point `t`'s block is row 2000 t + r of the array. -/
def row1 (t : Fin cfg1.N) (r : Fin 2000) : Fin 50000 :=
  ⟨2000 * t.val + r.val, by have := lt25_1 t; have := r.isLt; omega⟩

/-! ## The index maps, decided over the grid

A node-feature window's block index at point `t` is (t, 0); a weight matrix's (0, 0); a bias's (0). -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 1) = 0 :=
  (by decide +kernel : ∀ t : Fin grid1.N, _)
theorem idx1_15 : ∀ t : Fin cfg1.N, win1_15.index t (0 : Fin 1) = 0 :=
  (by decide +kernel : ∀ t : Fin grid1.N, _)
theorem idx1_16 : ∀ t : Fin cfg1.N, win1_16.index t (0 : Fin 2) = t.val ∧ win1_16.index t (1 : Fin 2) = 0 :=
  (by decide +kernel : ∀ t : Fin grid1.N, _)

/-! ## Each input block read off its whole array -/

/-- Window 0's block at point `t`, at (r, k), is its array at row 2000 t + r. -/
theorem iblk1_0_apply (c : Dev nD) (t : Fin cfg1.N) (r : Fin 2000) (k : Fin 128) :
    (iblk1 V c 0 t : Vec Ideal S2000x128 .f32) (ix2 r k) = (V c main_arg0 : S50000x128.Idx → EReal) (ix2 (row1 t r) k) := by
  unfold iblk1
  rw [View.read_apply]
  show V c main_arg0 _ = V c main_arg0 _
  congr 1
  funext a; apply Fin.ext
  match a with
  | ⟨0, _⟩ => show win1_0.index t (0 : Fin 2) * 2000 + 1 * r.val = 2000 * t.val + r.val; rw [(idx1_0 t).1]; omega
  | ⟨1, _⟩ => show win1_0.index t (1 : Fin 2) * 128 + 1 * k.val = k.val; rw [(idx1_0 t).2]; omega
/-- Window 1's block at point `t`, at (r, k), is its array at row 2000 t + r. -/
theorem iblk1_1_apply (c : Dev nD) (t : Fin cfg1.N) (r : Fin 2000) (k : Fin 128) :
    (iblk1 V c 1 t : Vec Ideal S2000x128 .f32) (ix2 r k) = (V c main_v51 : S50000x128.Idx → EReal) (ix2 (row1 t r) k) := by
  unfold iblk1
  rw [View.read_apply]
  show V c main_v51 _ = V c main_v51 _
  congr 1
  funext a; apply Fin.ext
  match a with
  | ⟨0, _⟩ => show win1_1.index t (0 : Fin 2) * 2000 + 1 * r.val = 2000 * t.val + r.val; rw [(idx1_1 t).1]; omega
  | ⟨1, _⟩ => show win1_1.index t (1 : Fin 2) * 128 + 1 * k.val = k.val; rw [(idx1_1 t).2]; omega
/-- Window 2's block at point `t`, at (r, k), is its array at row 2000 t + r. -/
theorem iblk1_2_apply (c : Dev nD) (t : Fin cfg1.N) (r : Fin 2000) (k : Fin 128) :
    (iblk1 V c 2 t : Vec Ideal S2000x128 .f32) (ix2 r k) = (V c main_v74 : S50000x128.Idx → EReal) (ix2 (row1 t r) k) := by
  unfold iblk1
  rw [View.read_apply]
  show V c main_v74 _ = V c main_v74 _
  congr 1
  funext a; apply Fin.ext
  match a with
  | ⟨0, _⟩ => show win1_2.index t (0 : Fin 2) * 2000 + 1 * r.val = 2000 * t.val + r.val; rw [(idx1_2 t).1]; omega
  | ⟨1, _⟩ => show win1_2.index t (1 : Fin 2) * 128 + 1 * k.val = k.val; rw [(idx1_2 t).2]; omega
/-- Window 3's block at point `t`, at (r, k), is its array at row 2000 t + r. -/
theorem iblk1_3_apply (c : Dev nD) (t : Fin cfg1.N) (r : Fin 2000) (k : Fin 128) :
    (iblk1 V c 3 t : Vec Ideal S2000x128 .f32) (ix2 r k) = (V c main_v154_1 : S50000x128.Idx → EReal) (ix2 (row1 t r) k) := by
  unfold iblk1
  rw [View.read_apply]
  show V c main_v154_1 _ = V c main_v154_1 _
  congr 1
  funext a; apply Fin.ext
  match a with
  | ⟨0, _⟩ => show win1_3.index t (0 : Fin 2) * 2000 + 1 * r.val = 2000 * t.val + r.val; rw [(idx1_3 t).1]; omega
  | ⟨1, _⟩ => show win1_3.index t (1 : Fin 2) * 128 + 1 * k.val = k.val; rw [(idx1_3 t).2]; omega
/-- Window 4's block at point `t`, at (r, k), is its array at row 2000 t + r. -/
theorem iblk1_4_apply (c : Dev nD) (t : Fin cfg1.N) (r : Fin 2000) (k : Fin 128) :
    (iblk1 V c 4 t : Vec Ideal S2000x128 .f32) (ix2 r k) = (V c main_v174 : S50000x128.Idx → EReal) (ix2 (row1 t r) k) := by
  unfold iblk1
  rw [View.read_apply]
  show V c main_v174 _ = V c main_v174 _
  congr 1
  funext a; apply Fin.ext
  match a with
  | ⟨0, _⟩ => show win1_4.index t (0 : Fin 2) * 2000 + 1 * r.val = 2000 * t.val + r.val; rw [(idx1_4 t).1]; omega
  | ⟨1, _⟩ => show win1_4.index t (1 : Fin 2) * 128 + 1 * k.val = k.val; rw [(idx1_4 t).2]; omega
/-- Window 5's block at point `t`, at (r, k), is its array at row 2000 t + r. -/
theorem iblk1_5_apply (c : Dev nD) (t : Fin cfg1.N) (r : Fin 2000) (k : Fin 128) :
    (iblk1 V c 5 t : Vec Ideal S2000x128 .f32) (ix2 r k) = (V c main_v197 : S50000x128.Idx → EReal) (ix2 (row1 t r) k) := by
  unfold iblk1
  rw [View.read_apply]
  show V c main_v197 _ = V c main_v197 _
  congr 1
  funext a; apply Fin.ext
  match a with
  | ⟨0, _⟩ => show win1_5.index t (0 : Fin 2) * 2000 + 1 * r.val = 2000 * t.val + r.val; rw [(idx1_5 t).1]; omega
  | ⟨1, _⟩ => show win1_5.index t (1 : Fin 2) * 128 + 1 * k.val = k.val; rw [(idx1_5 t).2]; omega
/-- Window 6's block at point `t`, at (r, k), is its array at row 2000 t + r. -/
theorem iblk1_6_apply (c : Dev nD) (t : Fin cfg1.N) (r : Fin 2000) (k : Fin 128) :
    (iblk1 V c 6 t : Vec Ideal S2000x128 .f32) (ix2 r k) = (V c main_v154_0 : S50000x128.Idx → EReal) (ix2 (row1 t r) k) := by
  unfold iblk1
  rw [View.read_apply]
  show V c main_v154_0 _ = V c main_v154_0 _
  congr 1
  funext a; apply Fin.ext
  match a with
  | ⟨0, _⟩ => show win1_6.index t (0 : Fin 2) * 2000 + 1 * r.val = 2000 * t.val + r.val; rw [(idx1_6 t).1]; omega
  | ⟨1, _⟩ => show win1_6.index t (1 : Fin 2) * 128 + 1 * k.val = k.val; rw [(idx1_6 t).2]; omega
/-- Window 7's block at point `t`, at (r, k), is its array at row 2000 t + r. -/
theorem iblk1_7_apply (c : Dev nD) (t : Fin cfg1.N) (r : Fin 2000) (k : Fin 128) :
    (iblk1 V c 7 t : Vec Ideal S2000x128 .f32) (ix2 r k) = (V c main_arg3 : S50000x128.Idx → EReal) (ix2 (row1 t r) k) := by
  unfold iblk1
  rw [View.read_apply]
  show V c main_arg3 _ = V c main_arg3 _
  congr 1
  funext a; apply Fin.ext
  match a with
  | ⟨0, _⟩ => show win1_7.index t (0 : Fin 2) * 2000 + 1 * r.val = 2000 * t.val + r.val; rw [(idx1_7 t).1]; omega
  | ⟨1, _⟩ => show win1_7.index t (1 : Fin 2) * 128 + 1 * k.val = k.val; rw [(idx1_7 t).2]; omega
/-- Window 8's block at every point is its whole weight matrix. -/
theorem iblk1_8_apply (c : Dev nD) (t : Fin cfg1.N) (k f : Fin 128) :
    (iblk1 V c 8 t : Vec Ideal S128x128 .f32) (ix2 k f) = (V c main_v143 : S128x128.Idx → EReal) (ix2 k f) := by
  unfold iblk1
  rw [View.read_apply]
  show V c main_v143 _ = V c main_v143 _
  congr 1
  funext a; apply Fin.ext
  match a with
  | ⟨0, _⟩ => show win1_8.index t (0 : Fin 2) * 128 + 1 * k.val = k.val; rw [(idx1_8 t).1]; omega
  | ⟨1, _⟩ => show win1_8.index t (1 : Fin 2) * 128 + 1 * f.val = f.val; rw [(idx1_8 t).2]; omega
/-- Window 9's block at every point is its whole weight matrix. -/
theorem iblk1_9_apply (c : Dev nD) (t : Fin cfg1.N) (k f : Fin 128) :
    (iblk1 V c 9 t : Vec Ideal S128x128 .f32) (ix2 k f) = (V c main_v145 : S128x128.Idx → EReal) (ix2 k f) := by
  unfold iblk1
  rw [View.read_apply]
  show V c main_v145 _ = V c main_v145 _
  congr 1
  funext a; apply Fin.ext
  match a with
  | ⟨0, _⟩ => show win1_9.index t (0 : Fin 2) * 128 + 1 * k.val = k.val; rw [(idx1_9 t).1]; omega
  | ⟨1, _⟩ => show win1_9.index t (1 : Fin 2) * 128 + 1 * f.val = f.val; rw [(idx1_9 t).2]; omega
/-- Window 10's block at every point is its whole weight matrix. -/
theorem iblk1_10_apply (c : Dev nD) (t : Fin cfg1.N) (k f : Fin 128) :
    (iblk1 V c 10 t : Vec Ideal S128x128 .f32) (ix2 k f) = (V c main_v147 : S128x128.Idx → EReal) (ix2 k f) := by
  unfold iblk1
  rw [View.read_apply]
  show V c main_v147 _ = V c main_v147 _
  congr 1
  funext a; apply Fin.ext
  match a with
  | ⟨0, _⟩ => show win1_10.index t (0 : Fin 2) * 128 + 1 * k.val = k.val; rw [(idx1_10 t).1]; omega
  | ⟨1, _⟩ => show win1_10.index t (1 : Fin 2) * 128 + 1 * f.val = f.val; rw [(idx1_10 t).2]; omega
/-- Window 11's block at every point is its whole weight matrix. -/
theorem iblk1_11_apply (c : Dev nD) (t : Fin cfg1.N) (k f : Fin 128) :
    (iblk1 V c 11 t : Vec Ideal S128x128 .f32) (ix2 k f) = (V c main_v149 : S128x128.Idx → EReal) (ix2 k f) := by
  unfold iblk1
  rw [View.read_apply]
  show V c main_v149 _ = V c main_v149 _
  congr 1
  funext a; apply Fin.ext
  match a with
  | ⟨0, _⟩ => show win1_11.index t (0 : Fin 2) * 128 + 1 * k.val = k.val; rw [(idx1_11 t).1]; omega
  | ⟨1, _⟩ => show win1_11.index t (1 : Fin 2) * 128 + 1 * f.val = f.val; rw [(idx1_11 t).2]; omega
/-- Window 12's block at every point is its whole weight matrix. -/
theorem iblk1_12_apply (c : Dev nD) (t : Fin cfg1.N) (k f : Fin 128) :
    (iblk1 V c 12 t : Vec Ideal S128x128 .f32) (ix2 k f) = (V c main_v151 : S128x128.Idx → EReal) (ix2 k f) := by
  unfold iblk1
  rw [View.read_apply]
  show V c main_v151 _ = V c main_v151 _
  congr 1
  funext a; apply Fin.ext
  match a with
  | ⟨0, _⟩ => show win1_12.index t (0 : Fin 2) * 128 + 1 * k.val = k.val; rw [(idx1_12 t).1]; omega
  | ⟨1, _⟩ => show win1_12.index t (1 : Fin 2) * 128 + 1 * f.val = f.val; rw [(idx1_12 t).2]; omega
/-- Window 13's block at every point is its whole weight matrix. -/
theorem iblk1_13_apply (c : Dev nD) (t : Fin cfg1.N) (k f : Fin 128) :
    (iblk1 V c 13 t : Vec Ideal S128x128 .f32) (ix2 k f) = (V c main_v153 : S128x128.Idx → EReal) (ix2 k f) := by
  unfold iblk1
  rw [View.read_apply]
  show V c main_v153 _ = V c main_v153 _
  congr 1
  funext a; apply Fin.ext
  match a with
  | ⟨0, _⟩ => show win1_13.index t (0 : Fin 2) * 128 + 1 * k.val = k.val; rw [(idx1_13 t).1]; omega
  | ⟨1, _⟩ => show win1_13.index t (1 : Fin 2) * 128 + 1 * f.val = f.val; rw [(idx1_13 t).2]; omega
/-- Window 14's block at every point is its whole bias vector. -/
theorem iblk1_14_apply (c : Dev nD) (t : Fin cfg1.N) (f : Fin 128) :
    (iblk1 V c 14 t : Vec Ideal S128 .f32) (ix1 f) = (V c main_arg13 : S128.Idx → EReal) (ix1 f) := by
  unfold iblk1
  rw [View.read_apply]
  show V c main_arg13 _ = V c main_arg13 _
  congr 1
  funext a; apply Fin.ext
  match a with
  | ⟨0, _⟩ => show win1_14.index t (0 : Fin 1) * 128 + 1 * f.val = f.val; rw [idx1_14 t]; omega
/-- Window 15's block at every point is its whole bias vector. -/
theorem iblk1_15_apply (c : Dev nD) (t : Fin cfg1.N) (f : Fin 128) :
    (iblk1 V c 15 t : Vec Ideal S128 .f32) (ix1 f) = (V c main_arg15 : S128.Idx → EReal) (ix1 f) := by
  unfold iblk1
  rw [View.read_apply]
  show V c main_arg15 _ = V c main_arg15 _
  congr 1
  funext a; apply Fin.ext
  match a with
  | ⟨0, _⟩ => show win1_15.index t (0 : Fin 1) * 128 + 1 * f.val = f.val; rw [idx1_15 t]; omega

/-! ## The output window -/

/-- An element (r, f) of point `t`'s output block sits in the array at (2000 t + r, f). -/
theorem emb1_16 (t : Fin cfg1.N) (r : Fin 2000) (f : Fin 128) :
    ((cfg1.win 16).blk t).view.emb (ix2 r f) = (ix2 (row1 t r) f : S50000x128.Idx) := by
  funext a; apply Fin.ext
  match a with
  | ⟨0, _⟩ => show win1_16.index t (0 : Fin 2) * 2000 + 1 * r.val = 2000 * t.val + r.val; rw [(idx1_16 t).1]; omega
  | ⟨1, _⟩ => show win1_16.index t (1 : Fin 2) * 128 + 1 * f.val = f.val; rw [(idx1_16 t).2]; omega

/-- The new state as ONE function of the whole arrays the region is entered with. -/
def G1_16 (c : Dev nD) : S50000x128.Idx → EReal := fun i =>
  Cert.Spec.cand (M (R := 50000) (V c main_v154_0)) (M (R := 50000) (V c main_arg3)) (Cert.Spec.conv3 (M (R := 50000) (V c main_arg0)) (M (R := 50000) (V c main_v51)) (M (R := 50000) (V c main_v74)) (Wm (V c main_v143)) (Wm (V c main_v145)) (Wm (V c main_v147)) (Bv (V c main_arg13)))
      (Cert.Spec.conv3 (M (R := 50000) (V c main_v154_1)) (M (R := 50000) (V c main_v174)) (M (R := 50000) (V c main_v197)) (Wm (V c main_v149)) (Wm (V c main_v151)) (Wm (V c main_v153)) (Bv (V c main_arg15))) (i 0) (i 1)

/-- What point `t` writes back is block `t` of that function. -/
theorem flushed1_16_eq (c : Dev nD) (t : Fin cfg1.N) :
    (dat1 (F := Ideal) V c).flushed 16 t = ((cfg1.win 16).blk t).view.read (Elt Ideal) (G1_16 V c) := by
  show (cfg1.win 16).cut (grid1.coords t) ((dat1 V c).after 16 t) = _
  rw [after1_16]
  unfold out1_16
  rw [View.canon_unit_zero zero2_1]
  simp only [View.ld_unit_zero (S := S2000x128) zero2_1, View.ld_unit_zero (S := S128x128) zero2_1, View.ld_unit_zero (S := S128) zero1_1]
  funext j
  obtain ⟨r, f, rfl⟩ : ∃ (r : Fin 2000) (f : Fin 128), j = ix2 r f := ⟨j 0, j 1, eq_ix2 j⟩
  rw [View.read_apply]
  show k1_pay1 (F := Ideal) (k1_pay2 (iblk1 V c 3 t)) (k1_pay3 (iblk1 V c 4 t)) (k1_pay4 (iblk1 V c 5 t)) (k1_pay5 (iblk1 V c 6 t)) (iblk1 V c 7 t) (k1_pay6 (iblk1 V c 0 t) (iblk1 V c 1 t) (iblk1 V c 2 t) (iblk1 V c 8 t) (iblk1 V c 9 t) (iblk1 V c 10 t)) (iblk1 V c 14 t) (iblk1 V c 11 t) (iblk1 V c 12 t) (iblk1 V c 13 t) (iblk1 V c 15 t) (ix2 r f)
      = G1_16 V c (((cfg1.win 16).blk t).view.emb (ix2 r f))
  rw [emb1_16 t r f]
  refine (Cert.KernelIdeal.KPay.OUT_ix2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) r f).trans ?_
  exact Cert.Spec.cand_congr (iblk1_6_apply V c t r f) (iblk1_7_apply V c t r f)
    (Cert.Spec.conv3_congr (fun k => iblk1_0_apply V c t r k) (fun k => iblk1_1_apply V c t r k) (fun k => iblk1_2_apply V c t r k)
      (fun k => iblk1_8_apply V c t k f) (fun k => iblk1_9_apply V c t k f) (fun k => iblk1_10_apply V c t k f) (iblk1_14_apply V c t f))
    (Cert.Spec.conv3_congr (fun k => iblk1_3_apply V c t r k) (fun k => iblk1_4_apply V c t r k) (fun k => iblk1_5_apply V c t r k)
      (fun k => iblk1_11_apply V c t k f) (fun k => iblk1_12_apply V c t k f) (fun k => iblk1_13_apply V c t k f) (iblk1_15_apply V c t f))

/-- An index of the array is in point `t`'s block iff each coordinate is in the block's range on its axis. -/
theorem mem_blk1_16 (t : Fin cfg1.N) (i : S50000x128.Idx) :
    i ∈ ((cfg1.win 16).blk t).view.set ↔ ∀ a : Fin 2, win1_16.index t a * S2000x128.size a ≤ (i a).val ∧ (i a).val < win1_16.index t a * S2000x128.size a + S2000x128.size a := by
  show i ∈ ((View.whole main_v198).slice (win1_16.rect t)).set ↔ _
  rw [View.set_slice_whole, Rect.mem_set_unit]
  exact Iff.rfl

/-- Every row is in some point's block: row n in point n / 2000's. -/
theorem cover1_16_arr (i : S50000x128.Idx) :
    ∃ t : Fin cfg1.N, (cfg1.win 16).flush t = true ∧ i ∈ ((cfg1.win 16).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_16 _, ?_⟩
  rw [mem_blk1_16]
  intro a
  match a with
  | ⟨0, _⟩ =>
    show win1_16.index _ (0 : Fin 2) * 2000 ≤ (i 0).val ∧ (i 0).val < win1_16.index _ (0 : Fin 2) * 2000 + 2000
    rw [(idx1_16 _).1]
    show (i 0).val / 2000 * 2000 ≤ (i 0).val ∧ (i 0).val < (i 0).val / 2000 * 2000 + 2000
    omega
  | ⟨1, _⟩ =>
    show win1_16.index _ (1 : Fin 2) * 128 ≤ (i 1).val ∧ (i 1).val < win1_16.index _ (1 : Fin 2) * 128 + 128
    rw [(idx1_16 _).2]
    omega

/-- THE ARRAY after region 1: the new state at every node and feature. -/
theorem final1_16 (c : Dev nD) (n : Fin 50000) (f : Fin 128) :
    (dat1 (F := Ideal) V c).arrAt 16 cfg1.N (ix2 n f)
      = Cert.Spec.cand (M (R := 50000) (V c main_v154_0)) (M (R := 50000) (V c main_arg3)) (Cert.Spec.conv3 (M (R := 50000) (V c main_arg0)) (M (R := 50000) (V c main_v51)) (M (R := 50000) (V c main_v74)) (Wm (V c main_v143)) (Wm (V c main_v145)) (Wm (V c main_v147)) (Bv (V c main_arg13)))
      (Cert.Spec.conv3 (M (R := 50000) (V c main_v154_1)) (M (R := 50000) (V c main_v174)) (M (R := 50000) (V c main_v197)) (Wm (V c main_v149)) (Wm (V c main_v151)) (Wm (V c main_v153)) (Bv (V c main_arg15))) n f :=
  congrFun ((dat1 (F := Ideal) V c).arrAt_eq_of_cover 16 (G1_16 V c) (fun t _ => flushed1_16_eq V c t) (cover1_16_arr)) (ix2 n f)

end Cert.KernelIdeal.Hand

end
-- ==== Proof.KiHostDefs.lean ====
/-
  The graph part of the kernel program, as whole-array functions that are never opened.

  From the edge list `ei` (row 0 the source node of each edge, row 1 its target) and the edge weights `ew`:
  the weighted degree of every node is a scatter-add of the weights by source node; `dinvOf` is its inverse square
  root where the degree is positive and zero elsewhere; `edgeW` the normalised weight `−d(src)^(−1/2) · w · d(tgt)^(−1/2)`
  of every edge. One propagation `prop` of a signal `x` gathers the rows of `x` at the edges' sources, scales each by its
  edge's normalised weight, scatter-adds the result by target node into zeros, and adds `0 · x`. The second Chebyshev
  basis is `cheb2 x = 2 · prop (prop x) − x`. An index below zero is wrapped by adding the node count first (`wrapIdx`).
  The intermediate forms `dinvFrom`, `edgeWFrom` take the pieces an earlier stretch of host operations left behind
  (the degree, the two comparisons, the two index rows) as arguments.
-/
import proofs.«145498_j1855425872361_1_alg».proof.KernelIdeal
import proofs.«145498_j1855425872361_1_alg».proof.Proof.Gen.KernelIdeal
import Idealize.ShloMosaic.PureOps.Ideal

set_option maxRecDepth 16384

noncomputable section

namespace Cert.KernelIdeal.Hand.Chains

open Cert.KernelIdeal Cert.KernelIdeal.Gen Idealize.ShloMosaic Idealize.ShloMosaic.TcCoe Idealize.SL.Sem Idealize.ShloMosaic.StableHlo

variable {F : FTy → Type} [FloatOps F]

/-- The edge list: two rows of 600000 node numbers. -/
abbrev EI (F : FTy → Type) : Type := (⟨S2x600000, .i32⟩ : BufTy).Contents (Elt F)
/-- One node number per edge. -/
abbrev EN (F : FTy → Type) : Type := (⟨S600000, .i32⟩ : BufTy).Contents (Elt F)
/-- One float per edge. -/
abbrev EW (F : FTy → Type) : Type := (⟨S600000, .f32⟩ : BufTy).Contents (Elt F)
/-- One float per node. -/
abbrev NV (F : FTy → Type) : Type := (⟨S50000, .f32⟩ : BufTy).Contents (Elt F)
/-- One truth value per node. -/
abbrev NB (F : FTy → Type) : Type := (⟨S50000, .i1⟩ : BufTy).Contents (Elt F)
/-- A scalar float. -/
abbrev SC (F : FTy → Type) : Type := (⟨S_, .f32⟩ : BufTy).Contents (Elt F)
/-- A node-feature array. -/
abbrev Arr (F : FTy → Type) : Type := (⟨S50000x128, .f32⟩ : BufTy).Contents (Elt F)
/-- A stack of three weight matrices. -/
abbrev W3 (F : FTy → Type) : Type := (⟨S3x128x128, .f32⟩ : BufTy).Contents (Elt F)
/-- One weight matrix. -/
abbrev WMat (F : FTy → Type) : Type := (⟨S128x128, .f32⟩ : BufTy).Contents (Elt F)

/-- The source node of every edge: row 0 of the edge list. -/
def rowOf (ei : EI F) : EN F :=
  shapeCast _ (extractStridedSlice S1x600000 ![0, 0] ei slices_S2x600000_S1x600000_0_0) shapeCasts_S1x600000_S600000

/-- The target node of every edge: row 1 of the edge list. -/
def colOf (ei : EI F) : EN F :=
  shapeCast _ (extractStridedSlice S1x600000 ![1, 0] ei slices_S2x600000_S1x600000_1_0) shapeCasts_S1x600000_S600000

/-- A node number below zero counts from the end: the node count is added to it. -/
def wrapIdx (r : EN F) : EN F :=
  select (cmpi .slt r (broadcastInDim S600000 ![] bcast_S_S600000 (constantI S_ 32 0#32)))
    (addi r (broadcastInDim S600000 ![] bcast_S_S600000 (constantI S_ 32 50000#32))) r

/-- Zero at every node. -/
def zeroNV : NV F := broadcastInDim S50000 ![] bcast_S_S50000 (constant S_ .f32 0x00000000#32)

/-- The weighted degree of every node: the edge weights added up by source node. -/
def degOf (ei : EI F) (ew : EW F) : NV F :=
  Host.scatterAdd scatter_S50000_S600000x1_S600000_n_0_0_1 zeroNV
    (broadcastInDim S600000x1 ![0] bcast_S600000_S600000x1_0 (rowOf ei)) ew

/-- Whether a node's degree is positive. -/
def posOf (ei : EI F) (ew : EW F) : NB F := cmpf .ogt (degOf ei ew) zeroNV

/-- The degree where it is positive and the given scalar elsewhere (so that the inverse square root is taken of a
    positive number everywhere). -/
def safeDeg (p : NB F) (d : NV F) (s : SC F) : NV F := select p d (broadcastInDim S50000 ![] bcast_S_S50000 (id s))

/-- The given vector where the degree is positive and the given scalar elsewhere. -/
def dinvFrom (p : NB F) (r : NV F) (s : SC F) : NV F := select p r (broadcastInDim S50000 ![] bcast_S_S50000 (id s))

/-- The inverse square root of the degree where it is positive, zero elsewhere. -/
def dinvOf (ei : EI F) (ew : EW F) : NV F :=
  select (cmpf .ogt (degOf ei ew) zeroNV)
    (Host.rsqrt (select (cmpf .ogt (degOf ei ew) zeroNV) (degOf ei ew)
      (broadcastInDim S50000 ![] bcast_S_S50000 (id (constant S_ .f32 0x3F800000#32)))))
    (broadcastInDim S50000 ![] bcast_S_S50000 (id (constant S_ .f32 0x00000000#32)))

/-- The normalised weight of every edge from the two index rows, the inverse square roots of the degrees and the
    weights: minus the weight scaled by the inverse square roots of the degrees of its two ends. -/
def edgeWFrom (r c : EN F) (dinv : NV F) (ew : EW F) : EW F :=
  mulf
    (mulf
      (mulf (broadcastInDim S600000 ![] bcast_S_S600000 (constant S_ .f32 0xBF800000#32))
        (Host.gather gather_S50000_S600000x1_S600000_n_0_n_n_0_1_1 dinv
          (broadcastInDim S600000x1 ![0] bcast_S600000_S600000x1_0 (wrapIdx r))))
      ew)
    (Host.gather gather_S50000_S600000x1_S600000_n_0_n_n_0_1_1 dinv
      (broadcastInDim S600000x1 ![0] bcast_S600000_S600000x1_0 (wrapIdx c)))

/-- The normalised weight of every edge. -/
def edgeW (ei : EI F) (ew : EW F) : EW F :=
  mulf
    (mulf
      (mulf (broadcastInDim S600000 ![] bcast_S_S600000 (constant S_ .f32 0xBF800000#32))
        (Host.gather gather_S50000_S600000x1_S600000_n_0_n_n_0_1_1 (dinvOf ei ew)
          (broadcastInDim S600000x1 ![0] bcast_S600000_S600000x1_0 (wrapIdx (rowOf ei)))))
      ew)
    (Host.gather gather_S50000_S600000x1_S600000_n_0_n_n_0_1_1 (dinvOf ei ew)
      (broadcastInDim S600000x1 ![0] bcast_S600000_S600000x1_0 (wrapIdx (colOf ei))))

theorem edgeW_eq (ei : EI F) (ew : EW F) : edgeW ei ew = edgeWFrom (rowOf ei) (colOf ei) (dinvOf ei ew) ew := rfl

theorem dinvOf_eq (ei : EI F) (ew : EW F) :
    dinvOf ei ew = dinvFrom (posOf ei ew)
      (Host.rsqrt (safeDeg (posOf ei ew) (degOf ei ew) (constant S_ .f32 0x3F800000#32))) (constant S_ .f32 0x00000000#32) := rfl

/-- Zero at every node and feature. -/
def zeroArr : Arr F := broadcastInDim S50000x128 ![] bcast_S_S50000x128 (constant S_ .f32 0x00000000#32)

/-- One propagation along the graph with the per-edge weights `wn`. -/
def prop (ei : EI F) (wn : EW F) (x : Arr F) : Arr F :=
  addf
    (Host.scatterAdd scatter_S50000x128_S600000x1_S600000x128_1_0_0_1 zeroArr
      (broadcastInDim S600000x1 ![0] bcast_S600000_S600000x1_0 (colOf ei))
      (mulf
        (broadcastInDim S600000x128 ![0, 1] bcast_S600000x1_S600000x128_0_1
          (broadcastInDim S600000x1 ![0] bcast_S600000_S600000x1_0 wn))
        (Host.gather gather_S50000x128_S600000x1_S600000x128_1_0_n_n_0_1_1128 x
          (broadcastInDim S600000x1 ![0] bcast_S600000_S600000x1_0 (wrapIdx (rowOf ei))))))
    (mulf zeroArr x)

/-- The second Chebyshev basis of a signal: twice the propagation of its propagation, minus the signal. -/
def cheb2 (ei : EI F) (wn : EW F) (x : Arr F) : Arr F :=
  subf
    (mulf (broadcastInDim S50000x128 ![] bcast_S_S50000x128 (constant S_ .f32 0x40000000#32))
      (prop ei wn (prop ei wn x)))
    x

/-- Matrix `j` of a stack of three, as the slice `[j : j+1]` reshaped to a matrix: the three forms the program uses. -/
def wslice0 (w : W3 F) : WMat F :=
  shapeCast _ (extractStridedSlice S1x128x128 ![0, 0, 0] w slices_S3x128x128_S1x128x128_0_0_0) shapeCasts_S1x128x128_S128x128
def wslice1 (w : W3 F) : WMat F :=
  shapeCast _ (extractStridedSlice S1x128x128 ![1, 0, 0] w slices_S3x128x128_S1x128x128_1_0_0) shapeCasts_S1x128x128_S128x128
def wslice2 (w : W3 F) : WMat F :=
  shapeCast _ (extractStridedSlice S1x128x128 ![2, 0, 0] w slices_S3x128x128_S1x128x128_2_0_0) shapeCasts_S1x128x128_S128x128

end Cert.KernelIdeal.Hand.Chains

end
-- ==== Proof.KiHostA.lean ====
/-
  What the first four stretches of host operations of the kernel program leave behind, over any contents `V` of the
  buffers before the stretch: the two index rows of the edge list, the weighted degree, the comparison of the degree
  with zero (computed twice), the scalar one; then the degree made safe for the inverse square root; the inverse
  square root; and the inverse square root masked to the nodes of positive degree.
-/
import proofs.«145498_j1855425872361_1_alg».proof.Proof.KiKept
import proofs.«145498_j1855425872361_1_alg».proof.Proof.KiHostDefs

set_option maxRecDepth 16384

noncomputable section

namespace Cert.KernelIdeal.Hand

open Cert.KernelIdeal Cert.KernelIdeal.Gen
open Idealize.ShloMosaic Idealize.ShloMosaic.TcCoe Idealize.SL.Sem
open Cert.KernelIdeal.Hand.Chains

variable {F : FTy → Type} [FloatOps F]

variable (V : Valuation τ sig (Elt F))

/-! ## The first stretch: index rows, degree, comparisons -/

theorem s0_v1 : StableHlo.after hostOps0 V (Proc.devRef .tc main_v1) = (rowOf (V (Proc.devRef .tc main_arg1)) : EN F) := by
  after_results <;> rfl
theorem s0_v3 : StableHlo.after hostOps0 V (Proc.devRef .tc main_v3) = (colOf (V (Proc.devRef .tc main_arg1)) : EN F) := by
  after_results <;> rfl
theorem s0_v6 : StableHlo.after hostOps0 V (Proc.devRef .tc main_v6)
    = (degOf (V (Proc.devRef .tc main_arg1)) (V (Proc.devRef .tc main_arg2)) : NV F) := by
  after_results <;> rfl
theorem s0_v8 : StableHlo.after hostOps0 V (Proc.devRef .tc main_v8)
    = (posOf (V (Proc.devRef .tc main_arg1)) (V (Proc.devRef .tc main_arg2)) : NB F) := by
  after_results <;> rfl
theorem s0_v10 : StableHlo.after hostOps0 V (Proc.devRef .tc main_v10)
    = (posOf (V (Proc.devRef .tc main_arg1)) (V (Proc.devRef .tc main_arg2)) : NB F) := by
  after_results <;> rfl
theorem s0_cst_2 : StableHlo.after hostOps0 V (Proc.devRef .tc main_cst_2) = (constant S_ .f32 0x3F800000#32 : SC F) := by
  after_results <;> rfl

/-! ## The second, third and fourth stretches -/

theorem s1_v11 : StableHlo.after hostOps0_1 V (Proc.devRef .tc main_v11)
    = (safeDeg (V (Proc.devRef .tc main_v10)) (V (Proc.devRef .tc main_v6)) (V (Proc.devRef .tc main_cst_2)) : NV F) := by
  after_results <;> rfl
theorem s2_v12 : StableHlo.after hostOps0_2 V (Proc.devRef .tc main_v12)
    = (Host.rsqrt (V (Proc.devRef .tc main_v11) : NV F) : NV F) := by
  after_results <;> rfl
theorem s2_cst_3 : StableHlo.after hostOps0_2 V (Proc.devRef .tc main_cst_3) = (constant S_ .f32 0x00000000#32 : SC F) := by
  after_results <;> rfl
theorem s3_v13 : StableHlo.after hostOps0_3 V (Proc.devRef .tc main_v13)
    = (dinvFrom (V (Proc.devRef .tc main_v8)) (V (Proc.devRef .tc main_v12)) (V (Proc.devRef .tc main_cst_3)) : NV F) := by
  after_results <;> rfl

end Cert.KernelIdeal.Hand

end
-- ==== Proof.KiHostB.lean ====
/-
  What the fifth stretch of host operations of the kernel program leaves behind, over any contents `V` of the buffers
  before it: the normalised edge weights (from the index rows, the masked inverse square roots of the degrees and the
  raw weights that the earlier stretches left), and the first and second Chebyshev bases of the input signal, each a
  propagation along the graph with those weights.
-/
import proofs.«145498_j1855425872361_1_alg».proof.Proof.KiKept
import proofs.«145498_j1855425872361_1_alg».proof.Proof.KiHostDefs

set_option maxRecDepth 16384

noncomputable section

namespace Cert.KernelIdeal.Hand

open Cert.KernelIdeal Cert.KernelIdeal.Gen
open Idealize.ShloMosaic Idealize.ShloMosaic.TcCoe Idealize.SL.Sem
open Cert.KernelIdeal.Hand.Chains

variable {F : FTy → Type} [FloatOps F]

variable (V : Valuation τ sig (Elt F))

/-- The normalised edge weights, from what the buffers hold before the stretch. -/
abbrev wnOf : EW F :=
  edgeWFrom (V (Proc.devRef .tc main_v1)) (V (Proc.devRef .tc main_v3)) (V (Proc.devRef .tc main_v13)) (V (Proc.devRef .tc main_arg2))

set_option maxHeartbeats 4000000 in
theorem s4_v31 : StableHlo.after hostOps0_4 V (Proc.devRef .tc main_v31) = (wnOf V : EW F) := by
  after_results_simp <;> rfl

set_option maxHeartbeats 4000000 in
theorem s4_v51 : StableHlo.after hostOps0_4 V (Proc.devRef .tc main_v51)
    = (prop (V (Proc.devRef .tc main_arg1)) (wnOf V) (V (Proc.devRef .tc main_arg0)) : Arr F) := by
  after_results_simp <;> rfl

set_option maxHeartbeats 4000000 in
theorem s4_v74 : StableHlo.after hostOps0_4 V (Proc.devRef .tc main_v74)
    = (cheb2 (V (Proc.devRef .tc main_arg1)) (wnOf V) (V (Proc.devRef .tc main_arg0)) : Arr F) := by
  after_results_simp <;> rfl

end Cert.KernelIdeal.Hand

end
-- ==== Proof.KiHostC.lean ====
/-
  The fifth stretch of host operations, continued: the first and second Chebyshev bases of the state, propagations
  along the graph with the same normalised edge weights as the input's.
-/
import proofs.«145498_j1855425872361_1_alg».proof.Proof.KiHostB

set_option maxRecDepth 16384

noncomputable section

namespace Cert.KernelIdeal.Hand

open Cert.KernelIdeal Cert.KernelIdeal.Gen
open Idealize.ShloMosaic Idealize.ShloMosaic.TcCoe Idealize.SL.Sem
open Cert.KernelIdeal.Hand.Chains

variable {F : FTy → Type} [FloatOps F]

variable (V : Valuation τ sig (Elt F))

set_option maxHeartbeats 4000000 in
theorem s4_v94 : StableHlo.after hostOps0_4 V (Proc.devRef .tc main_v94)
    = (prop (V (Proc.devRef .tc main_arg1)) (wnOf V) (V (Proc.devRef .tc main_arg3)) : Arr F) := by
  after_results_simp <;> rfl

set_option maxHeartbeats 4000000 in
theorem s4_v117 : StableHlo.after hostOps0_4 V (Proc.devRef .tc main_v117)
    = (cheb2 (V (Proc.devRef .tc main_arg1)) (wnOf V) (V (Proc.devRef .tc main_arg3)) : Arr F) := by
  after_results_simp <;> rfl

end Cert.KernelIdeal.Hand

end
-- ==== Proof.KiHostD.lean ====
/-
  The fifth stretch of host operations, its last part: the eighteen weight matrices, matrix `j` of each of the six
  stacks of three cut out as the slice `[j : j+1]` and reshaped to a matrix.
-/
import proofs.«145498_j1855425872361_1_alg».proof.Proof.KiKept
import proofs.«145498_j1855425872361_1_alg».proof.Proof.KiHostDefs

set_option maxRecDepth 16384

noncomputable section

namespace Cert.KernelIdeal.Hand

open Cert.KernelIdeal Cert.KernelIdeal.Gen
open Idealize.ShloMosaic Idealize.ShloMosaic.TcCoe Idealize.SL.Sem
open Cert.KernelIdeal.Hand.Chains

variable {F : FTy → Type} [FloatOps F]

variable (V : Valuation τ sig (Elt F))

set_option maxHeartbeats 4000000 in
theorem s4_v119 : StableHlo.after hostOps0_4 V (Proc.devRef .tc main_v119) = (wslice0 (V (Proc.devRef .tc main_arg4)) : WMat F) := by
  after_results_simp <;> rfl
set_option maxHeartbeats 4000000 in
theorem s4_v121 : StableHlo.after hostOps0_4 V (Proc.devRef .tc main_v121) = (wslice1 (V (Proc.devRef .tc main_arg4)) : WMat F) := by
  after_results_simp <;> rfl
set_option maxHeartbeats 4000000 in
theorem s4_v123 : StableHlo.after hostOps0_4 V (Proc.devRef .tc main_v123) = (wslice2 (V (Proc.devRef .tc main_arg4)) : WMat F) := by
  after_results_simp <;> rfl
set_option maxHeartbeats 4000000 in
theorem s4_v125 : StableHlo.after hostOps0_4 V (Proc.devRef .tc main_v125) = (wslice0 (V (Proc.devRef .tc main_arg6)) : WMat F) := by
  after_results_simp <;> rfl
set_option maxHeartbeats 4000000 in
theorem s4_v127 : StableHlo.after hostOps0_4 V (Proc.devRef .tc main_v127) = (wslice1 (V (Proc.devRef .tc main_arg6)) : WMat F) := by
  after_results_simp <;> rfl
set_option maxHeartbeats 4000000 in
theorem s4_v129 : StableHlo.after hostOps0_4 V (Proc.devRef .tc main_v129) = (wslice2 (V (Proc.devRef .tc main_arg6)) : WMat F) := by
  after_results_simp <;> rfl
set_option maxHeartbeats 4000000 in
theorem s4_v131 : StableHlo.after hostOps0_4 V (Proc.devRef .tc main_v131) = (wslice0 (V (Proc.devRef .tc main_arg8)) : WMat F) := by
  after_results_simp <;> rfl
set_option maxHeartbeats 4000000 in
theorem s4_v133 : StableHlo.after hostOps0_4 V (Proc.devRef .tc main_v133) = (wslice1 (V (Proc.devRef .tc main_arg8)) : WMat F) := by
  after_results_simp <;> rfl
set_option maxHeartbeats 4000000 in
theorem s4_v135 : StableHlo.after hostOps0_4 V (Proc.devRef .tc main_v135) = (wslice2 (V (Proc.devRef .tc main_arg8)) : WMat F) := by
  after_results_simp <;> rfl
set_option maxHeartbeats 4000000 in
theorem s4_v137 : StableHlo.after hostOps0_4 V (Proc.devRef .tc main_v137) = (wslice0 (V (Proc.devRef .tc main_arg10)) : WMat F) := by
  after_results_simp <;> rfl
set_option maxHeartbeats 4000000 in
theorem s4_v139 : StableHlo.after hostOps0_4 V (Proc.devRef .tc main_v139) = (wslice1 (V (Proc.devRef .tc main_arg10)) : WMat F) := by
  after_results_simp <;> rfl
set_option maxHeartbeats 4000000 in
theorem s4_v141 : StableHlo.after hostOps0_4 V (Proc.devRef .tc main_v141) = (wslice2 (V (Proc.devRef .tc main_arg10)) : WMat F) := by
  after_results_simp <;> rfl
set_option maxHeartbeats 4000000 in
theorem s4_v143 : StableHlo.after hostOps0_4 V (Proc.devRef .tc main_v143) = (wslice0 (V (Proc.devRef .tc main_arg12)) : WMat F) := by
  after_results_simp <;> rfl
set_option maxHeartbeats 4000000 in
theorem s4_v145 : StableHlo.after hostOps0_4 V (Proc.devRef .tc main_v145) = (wslice1 (V (Proc.devRef .tc main_arg12)) : WMat F) := by
  after_results_simp <;> rfl
set_option maxHeartbeats 4000000 in
theorem s4_v147 : StableHlo.after hostOps0_4 V (Proc.devRef .tc main_v147) = (wslice2 (V (Proc.devRef .tc main_arg12)) : WMat F) := by
  after_results_simp <;> rfl
set_option maxHeartbeats 4000000 in
theorem s4_v149 : StableHlo.after hostOps0_4 V (Proc.devRef .tc main_v149) = (wslice0 (V (Proc.devRef .tc main_arg14)) : WMat F) := by
  after_results_simp <;> rfl
set_option maxHeartbeats 4000000 in
theorem s4_v151 : StableHlo.after hostOps0_4 V (Proc.devRef .tc main_v151) = (wslice1 (V (Proc.devRef .tc main_arg14)) : WMat F) := by
  after_results_simp <;> rfl
set_option maxHeartbeats 4000000 in
theorem s4_v153 : StableHlo.after hostOps0_4 V (Proc.devRef .tc main_v153) = (wslice2 (V (Proc.devRef .tc main_arg14)) : WMat F) := by
  after_results_simp <;> rfl

end Cert.KernelIdeal.Hand

end
-- ==== Proof.KiHostE.lean ====
/-
  What the stretch of host operations between the two kernels leaves behind, over any contents `V` of the buffers
  before it: the first and second Chebyshev bases of the reset state, propagations along the graph with the normalised
  edge weights the earlier stretch left.
-/
import proofs.«145498_j1855425872361_1_alg».proof.Proof.KiKept
import proofs.«145498_j1855425872361_1_alg».proof.Proof.KiHostDefs

set_option maxRecDepth 16384

noncomputable section

namespace Cert.KernelIdeal.Hand

open Cert.KernelIdeal Cert.KernelIdeal.Gen
open Idealize.ShloMosaic Idealize.ShloMosaic.TcCoe Idealize.SL.Sem
open Cert.KernelIdeal.Hand.Chains

variable {F : FTy → Type} [FloatOps F]

variable (V : Valuation τ sig (Elt F))

set_option maxHeartbeats 4000000 in
theorem s5_v174 : StableHlo.after hostOps1 V (Proc.devRef .tc main_v174)
    = (prop (V (Proc.devRef .tc main_arg1)) (V (Proc.devRef .tc main_v31)) (V (Proc.devRef .tc main_v154_1)) : Arr F) := by
  after_results_simp <;> rfl

set_option maxHeartbeats 4000000 in
theorem s5_v197 : StableHlo.after hostOps1 V (Proc.devRef .tc main_v197)
    = (cheb2 (V (Proc.devRef .tc main_arg1)) (V (Proc.devRef .tc main_v31)) (V (Proc.devRef .tc main_v154_1)) : Arr F) := by
  after_results_simp <;> rfl

end Cert.KernelIdeal.Hand

end
-- ==== Proof.KiHostChain.lean ====
/-
  The kernel program's host stretches read back at the two kernels' entries, from the launch memory `m`.

  With X the input signal, `ei` the edge list, `ew` the edge weights and H the state as launched, and `wn` the
  normalised edge weights `edgeW ei ew`: at the gate kernel's entry the four basis buffers hold `prop ei wn X`,
  `cheb2 ei wn X`, `prop ei wn H`, `cheb2 ei wn H`, the eighteen weight buffers hold matrix `j` of their stack, and
  every argument is as launched; at the candidate kernel's entry everything the gate kernel did not write is as at the
  gate kernel's entry, its two outputs are what its write-backs left, and the two new basis buffers hold `prop` and
  `cheb2` of the reset state with the same edge list and the same normalised weights.
-/
import proofs.«145498_j1855425872361_1_alg».proof.Proof.KiChain
import proofs.«145498_j1855425872361_1_alg».proof.Proof.KiHostA
import proofs.«145498_j1855425872361_1_alg».proof.Proof.KiHostB
import proofs.«145498_j1855425872361_1_alg».proof.Proof.KiHostC
import proofs.«145498_j1855425872361_1_alg».proof.Proof.KiHostD
import proofs.«145498_j1855425872361_1_alg».proof.Proof.KiHostE
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Cert.KernelIdeal.Hand.Chains
open Idealize.ShloMosaic.ValueIdx

variable {F : FTy → Type} [FloatOps F]

variable (m : (ℓ : Loc nD τ sig) → Buf (Elt F) ℓ) (ρ : Dev nD → PrngReg) (c : Dev nD)

/-- The input signal, the edge list, the edge weights and the state as launched, and the normalised edge weights. -/
abbrev aX : Arr F := m ((c : Thread nD τ).loc main_arg0)
abbrev aEI : EI F := m ((c : Thread nD τ).loc main_arg1)
abbrev aEW : EW F := m ((c : Thread nD τ).loc main_arg2)
abbrev aH : Arr F := m ((c : Thread nD τ).loc main_arg3)
abbrev aWn : EW F := edgeW (aEI m c) (aEW m c)

/-! ## Buffers the stretches do not write -/

theorem W1_arg (r : Ref sig .tc) (h0 : r ∉ wr_hostOps0) : W1 m ρ c (Proc.devRef .tc r) = m ((c : Thread nD τ).loc r) :=
  (keep_hostOps0 _ r h0).trans rfl
theorem W4_of_W1 (r : Ref sig .tc) (h1 : r ∉ wr_hostOps0_1) (h2 : r ∉ wr_hostOps0_2) (h3 : r ∉ wr_hostOps0_3) :
    W4 m ρ c (Proc.devRef .tc r) = W1 m ρ c (Proc.devRef .tc r) :=
  (keep_hostOps0_3 _ r h3).trans ((keep_hostOps0_2 _ r h2).trans (keep_hostOps0_1 _ r h1))
theorem W4_arg (r : Ref sig .tc) (h0 : r ∉ wr_hostOps0) (h1 : r ∉ wr_hostOps0_1) (h2 : r ∉ wr_hostOps0_2) (h3 : r ∉ wr_hostOps0_3) :
    W4 m ρ c (Proc.devRef .tc r) = m ((c : Thread nD τ).loc r) :=
  (W4_of_W1 m ρ c r h1 h2 h3).trans (W1_arg m ρ c r h0)
theorem V5_arg (r : Ref sig .tc) (h0 : r ∉ wr_hostOps0) (h1 : r ∉ wr_hostOps0_1) (h2 : r ∉ wr_hostOps0_2) (h3 : r ∉ wr_hostOps0_3)
    (h4 : r ∉ wr_hostOps0_4) : V5 m ρ c r = m ((c : Thread nD τ).loc r) :=
  (keep_hostOps0_4 _ r h4).trans (W4_arg m ρ c r h0 h1 h2 h3)

theorem V5_arg0 : V5 m ρ c main_arg0 = m ((c : Thread nD τ).loc main_arg0) :=
  V5_arg m ρ c main_arg0 (by decide) (by decide) (by decide) (by decide) (by decide)
theorem V5_arg1 : V5 m ρ c main_arg1 = m ((c : Thread nD τ).loc main_arg1) :=
  V5_arg m ρ c main_arg1 (by decide) (by decide) (by decide) (by decide) (by decide)
theorem V5_arg2 : V5 m ρ c main_arg2 = m ((c : Thread nD τ).loc main_arg2) :=
  V5_arg m ρ c main_arg2 (by decide) (by decide) (by decide) (by decide) (by decide)
theorem V5_arg3 : V5 m ρ c main_arg3 = m ((c : Thread nD τ).loc main_arg3) :=
  V5_arg m ρ c main_arg3 (by decide) (by decide) (by decide) (by decide) (by decide)
theorem V5_arg4 : V5 m ρ c main_arg4 = m ((c : Thread nD τ).loc main_arg4) :=
  V5_arg m ρ c main_arg4 (by decide) (by decide) (by decide) (by decide) (by decide)
theorem V5_arg5 : V5 m ρ c main_arg5 = m ((c : Thread nD τ).loc main_arg5) :=
  V5_arg m ρ c main_arg5 (by decide) (by decide) (by decide) (by decide) (by decide)
theorem V5_arg6 : V5 m ρ c main_arg6 = m ((c : Thread nD τ).loc main_arg6) :=
  V5_arg m ρ c main_arg6 (by decide) (by decide) (by decide) (by decide) (by decide)
theorem V5_arg7 : V5 m ρ c main_arg7 = m ((c : Thread nD τ).loc main_arg7) :=
  V5_arg m ρ c main_arg7 (by decide) (by decide) (by decide) (by decide) (by decide)
theorem V5_arg8 : V5 m ρ c main_arg8 = m ((c : Thread nD τ).loc main_arg8) :=
  V5_arg m ρ c main_arg8 (by decide) (by decide) (by decide) (by decide) (by decide)
theorem V5_arg9 : V5 m ρ c main_arg9 = m ((c : Thread nD τ).loc main_arg9) :=
  V5_arg m ρ c main_arg9 (by decide) (by decide) (by decide) (by decide) (by decide)
theorem V5_arg10 : V5 m ρ c main_arg10 = m ((c : Thread nD τ).loc main_arg10) :=
  V5_arg m ρ c main_arg10 (by decide) (by decide) (by decide) (by decide) (by decide)
theorem V5_arg11 : V5 m ρ c main_arg11 = m ((c : Thread nD τ).loc main_arg11) :=
  V5_arg m ρ c main_arg11 (by decide) (by decide) (by decide) (by decide) (by decide)
theorem V5_arg12 : V5 m ρ c main_arg12 = m ((c : Thread nD τ).loc main_arg12) :=
  V5_arg m ρ c main_arg12 (by decide) (by decide) (by decide) (by decide) (by decide)
theorem V5_arg13 : V5 m ρ c main_arg13 = m ((c : Thread nD τ).loc main_arg13) :=
  V5_arg m ρ c main_arg13 (by decide) (by decide) (by decide) (by decide) (by decide)
theorem V5_arg14 : V5 m ρ c main_arg14 = m ((c : Thread nD τ).loc main_arg14) :=
  V5_arg m ρ c main_arg14 (by decide) (by decide) (by decide) (by decide) (by decide)
theorem V5_arg15 : V5 m ρ c main_arg15 = m ((c : Thread nD τ).loc main_arg15) :=
  V5_arg m ρ c main_arg15 (by decide) (by decide) (by decide) (by decide) (by decide)

/-! ## The graph normalisation, stretch by stretch -/

theorem W1_v1 : W1 m ρ c (Proc.devRef .tc main_v1) = (rowOf (aEI m c) : EN F) := s0_v1 (W0 m ρ c)
theorem W1_v3 : W1 m ρ c (Proc.devRef .tc main_v3) = (colOf (aEI m c) : EN F) := s0_v3 (W0 m ρ c)
theorem W1_v6 : W1 m ρ c (Proc.devRef .tc main_v6) = (degOf (aEI m c) (aEW m c) : NV F) := s0_v6 (W0 m ρ c)
theorem W1_v8 : W1 m ρ c (Proc.devRef .tc main_v8) = (posOf (aEI m c) (aEW m c) : NB F) := s0_v8 (W0 m ρ c)
theorem W1_v10 : W1 m ρ c (Proc.devRef .tc main_v10) = (posOf (aEI m c) (aEW m c) : NB F) := s0_v10 (W0 m ρ c)
theorem W1_cst_2 : W1 m ρ c (Proc.devRef .tc main_cst_2) = (constant S_ .f32 0x3F800000#32 : SC F) := s0_cst_2 (W0 m ρ c)

theorem W2_v11 : W2 m ρ c (Proc.devRef .tc main_v11)
    = (safeDeg (posOf (aEI m c) (aEW m c)) (degOf (aEI m c) (aEW m c)) (constant S_ .f32 0x3F800000#32) : NV F) := by
  refine (s1_v11 (W1 m ρ c)).trans ?_
  rw [W1_v10, W1_v6, W1_cst_2]

theorem W3_v12 : W3 m ρ c (Proc.devRef .tc main_v12)
    = (Host.rsqrt (safeDeg (posOf (aEI m c) (aEW m c)) (degOf (aEI m c) (aEW m c)) (constant S_ .f32 0x3F800000#32)) : NV F) := by
  refine (s2_v12 (W2 m ρ c)).trans ?_
  rw [W2_v11]
theorem W3_cst_3 : W3 m ρ c (Proc.devRef .tc main_cst_3) = (constant S_ .f32 0x00000000#32 : SC F) := s2_cst_3 (W2 m ρ c)
theorem W3_v8 : W3 m ρ c (Proc.devRef .tc main_v8) = (posOf (aEI m c) (aEW m c) : NB F) :=
  (keep_hostOps0_2 _ main_v8 (by decide)).trans ((keep_hostOps0_1 _ main_v8 (by decide)).trans (W1_v8 m ρ c))

theorem W4_v13 : W4 m ρ c (Proc.devRef .tc main_v13) = (dinvOf (aEI m c) (aEW m c) : NV F) := by
  refine (s3_v13 (W3 m ρ c)).trans ?_
  rw [W3_v8, W3_v12, W3_cst_3]
  exact (dinvOf_eq _ _).symm
theorem W4_v1 : W4 m ρ c (Proc.devRef .tc main_v1) = (rowOf (aEI m c) : EN F) :=
  (W4_of_W1 m ρ c main_v1 (by decide) (by decide) (by decide)).trans (W1_v1 m ρ c)
theorem W4_v3 : W4 m ρ c (Proc.devRef .tc main_v3) = (colOf (aEI m c) : EN F) :=
  (W4_of_W1 m ρ c main_v3 (by decide) (by decide) (by decide)).trans (W1_v3 m ρ c)

/-- The normalised edge weights the fifth stretch computes are those of the launched edge list and weights. -/
theorem wnOf_W4 : (wnOf (W4 m ρ c) : EW F) = aWn m c := by
  unfold wnOf
  rw [W4_v1, W4_v3, W4_v13, W4_arg m ρ c main_arg2 (by decide) (by decide) (by decide) (by decide)]
  exact (edgeW_eq _ _).symm

/-! ## At the gate kernel's entry -/

theorem V5_v31 : V5 m ρ c main_v31 = (aWn m c : EW F) := (s4_v31 (W4 m ρ c)).trans (wnOf_W4 m ρ c)

theorem V5_v51 : V5 m ρ c main_v51 = (prop (aEI m c) (aWn m c) (aX m c) : Arr F) := by
  refine (s4_v51 (W4 m ρ c)).trans ?_
  rw [wnOf_W4, W4_arg m ρ c main_arg1 (by decide) (by decide) (by decide) (by decide),
    W4_arg m ρ c main_arg0 (by decide) (by decide) (by decide) (by decide)]
theorem V5_v74 : V5 m ρ c main_v74 = (cheb2 (aEI m c) (aWn m c) (aX m c) : Arr F) := by
  refine (s4_v74 (W4 m ρ c)).trans ?_
  rw [wnOf_W4, W4_arg m ρ c main_arg1 (by decide) (by decide) (by decide) (by decide),
    W4_arg m ρ c main_arg0 (by decide) (by decide) (by decide) (by decide)]
theorem V5_v94 : V5 m ρ c main_v94 = (prop (aEI m c) (aWn m c) (aH m c) : Arr F) := by
  refine (s4_v94 (W4 m ρ c)).trans ?_
  rw [wnOf_W4, W4_arg m ρ c main_arg1 (by decide) (by decide) (by decide) (by decide),
    W4_arg m ρ c main_arg3 (by decide) (by decide) (by decide) (by decide)]
theorem V5_v117 : V5 m ρ c main_v117 = (cheb2 (aEI m c) (aWn m c) (aH m c) : Arr F) := by
  refine (s4_v117 (W4 m ρ c)).trans ?_
  rw [wnOf_W4, W4_arg m ρ c main_arg1 (by decide) (by decide) (by decide) (by decide),
    W4_arg m ρ c main_arg3 (by decide) (by decide) (by decide) (by decide)]

/-! ## The weight matrices -/

theorem V5_v119 : V5 m ρ c main_v119 = (wslice0 (m ((c : Thread nD τ).loc main_arg4)) : WMat F) := by
  refine (s4_v119 (W4 m ρ c)).trans ?_
  rw [W4_arg m ρ c main_arg4 (by decide) (by decide) (by decide) (by decide)]
theorem V5_v121 : V5 m ρ c main_v121 = (wslice1 (m ((c : Thread nD τ).loc main_arg4)) : WMat F) := by
  refine (s4_v121 (W4 m ρ c)).trans ?_
  rw [W4_arg m ρ c main_arg4 (by decide) (by decide) (by decide) (by decide)]
theorem V5_v123 : V5 m ρ c main_v123 = (wslice2 (m ((c : Thread nD τ).loc main_arg4)) : WMat F) := by
  refine (s4_v123 (W4 m ρ c)).trans ?_
  rw [W4_arg m ρ c main_arg4 (by decide) (by decide) (by decide) (by decide)]
theorem V5_v125 : V5 m ρ c main_v125 = (wslice0 (m ((c : Thread nD τ).loc main_arg6)) : WMat F) := by
  refine (s4_v125 (W4 m ρ c)).trans ?_
  rw [W4_arg m ρ c main_arg6 (by decide) (by decide) (by decide) (by decide)]
theorem V5_v127 : V5 m ρ c main_v127 = (wslice1 (m ((c : Thread nD τ).loc main_arg6)) : WMat F) := by
  refine (s4_v127 (W4 m ρ c)).trans ?_
  rw [W4_arg m ρ c main_arg6 (by decide) (by decide) (by decide) (by decide)]
theorem V5_v129 : V5 m ρ c main_v129 = (wslice2 (m ((c : Thread nD τ).loc main_arg6)) : WMat F) := by
  refine (s4_v129 (W4 m ρ c)).trans ?_
  rw [W4_arg m ρ c main_arg6 (by decide) (by decide) (by decide) (by decide)]
theorem V5_v131 : V5 m ρ c main_v131 = (wslice0 (m ((c : Thread nD τ).loc main_arg8)) : WMat F) := by
  refine (s4_v131 (W4 m ρ c)).trans ?_
  rw [W4_arg m ρ c main_arg8 (by decide) (by decide) (by decide) (by decide)]
theorem V5_v133 : V5 m ρ c main_v133 = (wslice1 (m ((c : Thread nD τ).loc main_arg8)) : WMat F) := by
  refine (s4_v133 (W4 m ρ c)).trans ?_
  rw [W4_arg m ρ c main_arg8 (by decide) (by decide) (by decide) (by decide)]
theorem V5_v135 : V5 m ρ c main_v135 = (wslice2 (m ((c : Thread nD τ).loc main_arg8)) : WMat F) := by
  refine (s4_v135 (W4 m ρ c)).trans ?_
  rw [W4_arg m ρ c main_arg8 (by decide) (by decide) (by decide) (by decide)]
theorem V5_v137 : V5 m ρ c main_v137 = (wslice0 (m ((c : Thread nD τ).loc main_arg10)) : WMat F) := by
  refine (s4_v137 (W4 m ρ c)).trans ?_
  rw [W4_arg m ρ c main_arg10 (by decide) (by decide) (by decide) (by decide)]
theorem V5_v139 : V5 m ρ c main_v139 = (wslice1 (m ((c : Thread nD τ).loc main_arg10)) : WMat F) := by
  refine (s4_v139 (W4 m ρ c)).trans ?_
  rw [W4_arg m ρ c main_arg10 (by decide) (by decide) (by decide) (by decide)]
theorem V5_v141 : V5 m ρ c main_v141 = (wslice2 (m ((c : Thread nD τ).loc main_arg10)) : WMat F) := by
  refine (s4_v141 (W4 m ρ c)).trans ?_
  rw [W4_arg m ρ c main_arg10 (by decide) (by decide) (by decide) (by decide)]
theorem V5_v143 : V5 m ρ c main_v143 = (wslice0 (m ((c : Thread nD τ).loc main_arg12)) : WMat F) := by
  refine (s4_v143 (W4 m ρ c)).trans ?_
  rw [W4_arg m ρ c main_arg12 (by decide) (by decide) (by decide) (by decide)]
theorem V5_v145 : V5 m ρ c main_v145 = (wslice1 (m ((c : Thread nD τ).loc main_arg12)) : WMat F) := by
  refine (s4_v145 (W4 m ρ c)).trans ?_
  rw [W4_arg m ρ c main_arg12 (by decide) (by decide) (by decide) (by decide)]
theorem V5_v147 : V5 m ρ c main_v147 = (wslice2 (m ((c : Thread nD τ).loc main_arg12)) : WMat F) := by
  refine (s4_v147 (W4 m ρ c)).trans ?_
  rw [W4_arg m ρ c main_arg12 (by decide) (by decide) (by decide) (by decide)]
theorem V5_v149 : V5 m ρ c main_v149 = (wslice0 (m ((c : Thread nD τ).loc main_arg14)) : WMat F) := by
  refine (s4_v149 (W4 m ρ c)).trans ?_
  rw [W4_arg m ρ c main_arg14 (by decide) (by decide) (by decide) (by decide)]
theorem V5_v151 : V5 m ρ c main_v151 = (wslice1 (m ((c : Thread nD τ).loc main_arg14)) : WMat F) := by
  refine (s4_v151 (W4 m ρ c)).trans ?_
  rw [W4_arg m ρ c main_arg14 (by decide) (by decide) (by decide) (by decide)]
theorem V5_v153 : V5 m ρ c main_v153 = (wslice2 (m ((c : Thread nD τ).loc main_arg14)) : WMat F) := by
  refine (s4_v153 (W4 m ρ c)).trans ?_
  rw [W4_arg m ρ c main_arg14 (by decide) (by decide) (by decide) (by decide)]

/-- Matrix `j` of a stack of three, cut out as the slice `[j : j+1]` and reshaped to a matrix, read at an entry. -/
theorem slice_mat_apply (j : Fin 3) (w : Chains.W3 F) (hs : S3x128x128.Slices ![j.val, 0, 0] S1x128x128) (k f : Fin 128) :
    shapeCast S128x128 (extractStridedSlice S1x128x128 ![j.val, 0, 0] w hs) shapeCasts_S1x128x128_S128x128 (ix2 k f)
      = w (ix3 j k f) := by
  refine (shapeCast_apply _ _ (ix2 k f) (ix3 (0 : Fin 1) k f) ?_).trans ?_
  · rw [Shape.rowMajor_val_three, Shape.rowMajor_val_two]
    show (0 * 128 + k.val) * 128 + f.val = k.val * 128 + f.val
    omega
  · refine extractStridedSlice_apply _ _ _ _ _ fun a => ?_
    match a with
    | ⟨0, _⟩ => show j.val = j.val + 0; omega
    | ⟨1, _⟩ => show k.val = 0 + k.val; omega
    | ⟨2, _⟩ => show f.val = 0 + f.val; omega

theorem wslice0_apply (w : Chains.W3 F) (k f : Fin 128) : wslice0 w (ix2 k f) = w (ix3 (0 : Fin 3) k f) :=
  slice_mat_apply 0 w _ k f
theorem wslice1_apply (w : Chains.W3 F) (k f : Fin 128) : wslice1 w (ix2 k f) = w (ix3 (1 : Fin 3) k f) :=
  slice_mat_apply 1 w _ k f
theorem wslice2_apply (w : Chains.W3 F) (k f : Fin 128) : wslice2 w (ix2 k f) = w (ix3 (2 : Fin 3) k f) :=
  slice_mat_apply 2 w _ k f

/-! ## At the candidate kernel's entry -/

/-- What neither the gate kernel nor the stretch after it writes is as at the gate kernel's entry. -/
theorem V7_kept (b : Ref sig .tc) (h : b ∉ wr_hostOps1) (h0 : b ≠ main_v154_0) (h1 : b ≠ main_v154_1) :
    V7 m ρ c b = V5 m ρ c b :=
  (keep_hostOps1 _ b h).trans (W6_of_ne m ρ c b h0 h1)
/-- The gate kernel's two outputs are what its write-backs left. -/
theorem V7_z : V7 m ρ c main_v154_0 = (dat0 (V5 m ρ) c).arrAt 23 cfg0.N :=
  (keep_hostOps1 _ main_v154_0 (by decide)).trans (W6_z m ρ c)
theorem V7_hr : V7 m ρ c main_v154_1 = (dat0 (V5 m ρ) c).arrAt 24 cfg0.N :=
  (keep_hostOps1 _ main_v154_1 (by decide)).trans (W6_hr m ρ c)

theorem W6_arg1 : W6 m ρ c (Proc.devRef .tc main_arg1) = aEI m c :=
  (W6_of_ne m ρ c main_arg1 (by decide) (by decide)).trans (V5_arg1 m ρ c)
theorem W6_v31 : W6 m ρ c (Proc.devRef .tc main_v31) = (aWn m c : EW F) :=
  (W6_of_ne m ρ c main_v31 (by decide) (by decide)).trans (V5_v31 m ρ c)
theorem W6_v154_1 : W6 m ρ c (Proc.devRef .tc main_v154_1) = V7 m ρ c main_v154_1 :=
  (keep_hostOps1 _ main_v154_1 (by decide)).symm

/-- The bases of the reset state: the same edge list and normalised weights as the gate kernel's bases. -/
theorem V7_v174 : V7 m ρ c main_v174 = (prop (aEI m c) (aWn m c) (V7 m ρ c main_v154_1) : Arr F) := by
  refine (s5_v174 (W6 m ρ c)).trans ?_
  rw [W6_arg1, W6_v31, W6_v154_1]
theorem V7_v197 : V7 m ρ c main_v197 = (cheb2 (aEI m c) (aWn m c) (V7 m ρ c main_v154_1) : Arr F) := by
  refine (s5_v197 (W6 m ρ c)).trans ?_
  rw [W6_arg1, W6_v31, W6_v154_1]

end Cert.KernelIdeal.Hand

end
-- ==== Proof.RefSideGru.lean ====
/-
  The gated recurrent unit over whole arrays, with the graph propagation left abstract.

  A node-feature array of 50000 rows and 128 features is read as the function `nf A (n, k) = A[n, k]`; slice `j` of a
  stacked weight array as `wm W j (k, f) = W[j, k, f]`; a bias as `bv b f = b[f]`; and a function of (node, feature) is
  laid out as an array by `ofNF`. Given the two maps `T1`, `T2` that send a signal to its first and second Chebyshev
  bases (whatever they are: here they are never opened), `cc` is one convolution of a signal and `gru` the whole cell:

      z = σ(cc X Wxz bxz + cc H Whz bhz),  r = σ(cc X Wxr bxr + cc H Whr bhr),
      out = z·H + (1 − z)·(tanh s + s),    s = cc X Wxh bxh + cc (H·r) Whh bhh.
-/
import proofs.«145498_j1855425872361_1_alg».proof.Proof.Spec

noncomputable section

namespace Cert.Gru

open Idealize.ShloMosaic

/-- A node-feature array: 50000 nodes, 128 features. -/
abbrev Arr : Type := FVec Ideal (⟨2, ![50000, 128]⟩ : Shape) .f32
/-- Three stacked 128 × 128 weight matrices. -/
abbrev W3 : Type := FVec Ideal (⟨3, ![3, 128, 128]⟩ : Shape) .f32
/-- A bias vector of 128 features. -/
abbrev B1 : Type := FVec Ideal (⟨1, ![128]⟩ : Shape) .f32

/-- An array read as a function of node and feature. -/
def nf (A : Arr) : Cert.Spec.NF 50000 := fun n k => A (ValueIdx.ix2 n k)
/-- Slice `j` of a stacked weight array, read as a function of input and output feature. -/
def wm (W : W3) (j : Fin 3) : Cert.Spec.WM := fun k f => W (ValueIdx.ix3 j k f)
/-- A bias read as a function of the feature. -/
def bv (b : B1) : Cert.Spec.BV := fun f => b (ValueIdx.ix1 f)
/-- A function of node and feature laid out as an array. -/
def ofNF (G : Cert.Spec.NF 50000) : Arr := fun i => G (i 0) (i 1)

theorem ofNF_ix2 (G : Cert.Spec.NF 50000) (n : Fin 50000) (f : Fin 128) : ofNF G (ValueIdx.ix2 n f) = G n f := rfl

theorem nf_ofNF (G : Cert.Spec.NF 50000) : nf (ofNF G) = G := rfl

/-- An array is determined by its reading. -/
theorem eq_ofNF (A : Arr) : A = ofNF (nf A) := by
  funext i
  obtain ⟨n, f, rfl⟩ : ∃ (n : Fin 50000) (f : Fin 128), i = ValueIdx.ix2 n f := ⟨i 0, i 1, ValueIdx.eq_ix2 i⟩
  rfl

/-- One Chebyshev convolution of the signal `A`, its further bases given by `T1` and `T2`. -/
def cc (T1 T2 : Arr → Arr) (A : Arr) (W : W3) (b : B1) : Cert.Spec.NF 50000 :=
  Cert.Spec.conv3 (nf A) (nf (T1 A)) (nf (T2 A)) (wm W 0) (wm W 1) (wm W 2) (bv b)

/-- The update gate. -/
def zgate (T1 T2 : Arr → Arr) (X H : Arr) (Wxz : W3) (bxz : B1) (Whz : W3) (bhz : B1) : Cert.Spec.NF 50000 :=
  Cert.Spec.gate (cc T1 T2 X Wxz bxz) (cc T1 T2 H Whz bhz)

/-- The reset state `H · r`, as an array (its bases are taken again by `T1`, `T2`). -/
def hr (T1 T2 : Arr → Arr) (X H : Arr) (Wxr : W3) (bxr : B1) (Whr : W3) (bhr : B1) : Arr :=
  ofNF (Cert.Spec.hreset (nf H) (Cert.Spec.gate (cc T1 T2 X Wxr bxr) (cc T1 T2 H Whr bhr)))

/-- The whole cell: the new state as a function of node and feature. -/
def gru (T1 T2 : Arr → Arr) (X H : Arr) (Wxz : W3) (bxz : B1) (Whz : W3) (bhz : B1) (Wxr : W3) (bxr : B1)
    (Whr : W3) (bhr : B1) (Wxh : W3) (bxh : B1) (Whh : W3) (bhh : B1) : Cert.Spec.NF 50000 :=
  Cert.Spec.cand (zgate T1 T2 X H Wxz bxz Whz bhz) (nf H) (cc T1 T2 X Wxh bxh)
    (cc T1 T2 (hr T1 T2 X H Wxr bxr Whr bhr) Whh bhh)

end Cert.Gru

end
-- ==== Proof.KiResult.lean ====
/-
  The kernel program's result as one function of the launched arrays.

  The candidate kernel's output array is the specification's new state of the arrays its region is entered
  with. Those are: the launched signal, state, weights and biases, unchanged; the two Chebyshev bases of the
  signal, which the host computes before the gate kernel as one and two propagations along the graph; the
  update gate and the reset state, which the gate kernel's region leaves — the specification's gate and
  reset state of the launched arrays and of the bases of the signal and of the state —; and the two bases of
  the reset state, which the host computes between the kernels by the same propagation. Put together, the
  output array is the gated recurrent unit of the launched arrays, with the propagation as its basis maps.
-/
import proofs.«145498_j1855425872361_1_alg».proof.Proof.KiValue0
import proofs.«145498_j1855425872361_1_alg».proof.Proof.KiValue1
import proofs.«145498_j1855425872361_1_alg».proof.Proof.KiChain
import proofs.«145498_j1855425872361_1_alg».proof.Proof.KiHostChain
import proofs.«145498_j1855425872361_1_alg».proof.Proof.RefSideGru

set_option maxRecDepth 16384

noncomputable section

namespace Cert.KernelIdeal.Hand

open Cert.KernelIdeal Cert.KernelIdeal.Gen
open Idealize.ShloMosaic Idealize.ShloMosaic.TcCoe Idealize.SL.Sem
open Cert.KernelIdeal.Hand.Chains
open Idealize.ShloMosaic.ValueIdx
open Idealize.ShloMosaic.Pipeline (Dat)
open Cert.Spec (M Wm Bv)

variable (m : (ℓ : Loc nD τ sig) → Buf (Elt Ideal) ℓ) (ρ : Dev nD → PrngReg) (c : Dev nD)

/-! ## Readings of arrays, in the cell's words -/

/-- Equal arrays read alike. -/
theorem rdM {A B : Cert.Gru.Arr} (h : A = B) (n : Fin 50000) (k : Fin 128) : M A n k = Cert.Gru.nf B n k := by
  subst h; rfl
theorem rdB {a b : Cert.Gru.B1} (h : a = b) (f : Fin 128) : Bv a f = Cert.Gru.bv b f := by
  subst h; rfl
/-- Matrix j of a stack of three, cut out as a matrix, reads as the stack's slice j. -/
theorem rdW0 {A : Chains.WMat Ideal} {W : Chains.W3 Ideal} (h : A = Chains.wslice0 W) (k f : Fin 128) :
    Wm A k f = Cert.Gru.wm W 0 k f := by
  subst h; exact wslice0_apply W k f
theorem rdW1 {A : Chains.WMat Ideal} {W : Chains.W3 Ideal} (h : A = Chains.wslice1 W) (k f : Fin 128) :
    Wm A k f = Cert.Gru.wm W 1 k f := by
  subst h; exact wslice1_apply W k f
theorem rdW2 {A : Chains.WMat Ideal} {W : Chains.W3 Ideal} (h : A = Chains.wslice2 W) (k f : Fin 128) :
    Wm A k f = Cert.Gru.wm W 2 k f := by
  subst h; exact wslice2_apply W k f

/-! ## Region 0's two output arrays -/

/-- The gate kernel leaves the update gate of the launched signal and state in its first output. -/
theorem z_arr : ((dat0 (F := Ideal) (V5 m ρ) c).arrAt 23 cfg0.N : Cert.Gru.Arr)
    = Cert.Gru.ofNF (Cert.Gru.zgate (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  refine (Cert.Gru.eq_ofNF _).trans (congrArg Cert.Gru.ofNF (funext fun n => funext fun f => ?_))
  show (dat0 (F := Ideal) (V5 m ρ) c).arrAt 23 cfg0.N (ix2 n f) = _
  refine (final0_23 (V5 m ρ) c n f).trans ?_
  show _ = Cert.Spec.gate (Cert.Spec.conv3 (Cert.Gru.nf (m ((c : Thread nD τ).loc main_arg0))) (Cert.Gru.nf ((Chains.prop (m ((c : Thread nD τ).loc main_arg1)) (Chains.edgeW (m ((c : Thread nD τ).loc main_arg1)) (m ((c : Thread nD τ).loc main_arg2)))) (m ((c : Thread nD τ).loc main_arg0)))) (Cert.Gru.nf ((Chains.cheb2 (m ((c : Thread nD τ).loc main_arg1)) (Chains.edgeW (m ((c : Thread nD τ).loc main_arg1)) (m ((c : Thread nD τ).loc main_arg2)))) (m ((c : Thread nD τ).loc main_arg0)))) (Cert.Gru.wm (m ((c : Thread nD τ).loc main_arg4)) 0) (Cert.Gru.wm (m ((c : Thread nD τ).loc main_arg4)) 1) (Cert.Gru.wm (m ((c : Thread nD τ).loc main_arg4)) 2) (Cert.Gru.bv (m ((c : Thread nD τ).loc main_arg5))))
      (Cert.Spec.conv3 (Cert.Gru.nf (m ((c : Thread nD τ).loc main_arg3))) (Cert.Gru.nf ((Chains.prop (m ((c : Thread nD τ).loc main_arg1)) (Chains.edgeW (m ((c : Thread nD τ).loc main_arg1)) (m ((c : Thread nD τ).loc main_arg2)))) (m ((c : Thread nD τ).loc main_arg3)))) (Cert.Gru.nf ((Chains.cheb2 (m ((c : Thread nD τ).loc main_arg1)) (Chains.edgeW (m ((c : Thread nD τ).loc main_arg1)) (m ((c : Thread nD τ).loc main_arg2)))) (m ((c : Thread nD τ).loc main_arg3)))) (Cert.Gru.wm (m ((c : Thread nD τ).loc main_arg6)) 0) (Cert.Gru.wm (m ((c : Thread nD τ).loc main_arg6)) 1) (Cert.Gru.wm (m ((c : Thread nD τ).loc main_arg6)) 2) (Cert.Gru.bv (m ((c : Thread nD τ).loc main_arg7)))) n f
  exact Cert.Spec.gate_congr
    (Cert.Spec.conv3_congr (fun k => rdM (V5_arg0 m ρ c) n k) (fun k => rdM (V5_v51 m ρ c) n k) (fun k => rdM (V5_v74 m ρ c) n k)
      (fun k => rdW0 (V5_v119 m ρ c) k f) (fun k => rdW1 (V5_v121 m ρ c) k f) (fun k => rdW2 (V5_v123 m ρ c) k f) (rdB (V5_arg5 m ρ c) f))
    (Cert.Spec.conv3_congr (fun k => rdM (V5_arg3 m ρ c) n k) (fun k => rdM (V5_v94 m ρ c) n k) (fun k => rdM (V5_v117 m ρ c) n k)
      (fun k => rdW0 (V5_v125 m ρ c) k f) (fun k => rdW1 (V5_v127 m ρ c) k f) (fun k => rdW2 (V5_v129 m ρ c) k f) (rdB (V5_arg7 m ρ c) f))

/-- … and the reset state in its second. -/
theorem hr_arr : ((dat0 (F := Ideal) (V5 m ρ) c).arrAt 24 cfg0.N : Cert.Gru.Arr)
    = (Cert.Gru.hr (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11))) := by
  refine (Cert.Gru.eq_ofNF _).trans (congrArg Cert.Gru.ofNF (funext fun n => funext fun f => ?_))
  show (dat0 (F := Ideal) (V5 m ρ) c).arrAt 24 cfg0.N (ix2 n f) = _
  refine (final0_24 (V5 m ρ) c n f).trans ?_
  show _ = Cert.Spec.hreset (Cert.Gru.nf (m ((c : Thread nD τ).loc main_arg3))) (Cert.Spec.gate (Cert.Spec.conv3 (Cert.Gru.nf (m ((c : Thread nD τ).loc main_arg0))) (Cert.Gru.nf ((Chains.prop (m ((c : Thread nD τ).loc main_arg1)) (Chains.edgeW (m ((c : Thread nD τ).loc main_arg1)) (m ((c : Thread nD τ).loc main_arg2)))) (m ((c : Thread nD τ).loc main_arg0)))) (Cert.Gru.nf ((Chains.cheb2 (m ((c : Thread nD τ).loc main_arg1)) (Chains.edgeW (m ((c : Thread nD τ).loc main_arg1)) (m ((c : Thread nD τ).loc main_arg2)))) (m ((c : Thread nD τ).loc main_arg0)))) (Cert.Gru.wm (m ((c : Thread nD τ).loc main_arg8)) 0) (Cert.Gru.wm (m ((c : Thread nD τ).loc main_arg8)) 1) (Cert.Gru.wm (m ((c : Thread nD τ).loc main_arg8)) 2) (Cert.Gru.bv (m ((c : Thread nD τ).loc main_arg9))))
      (Cert.Spec.conv3 (Cert.Gru.nf (m ((c : Thread nD τ).loc main_arg3))) (Cert.Gru.nf ((Chains.prop (m ((c : Thread nD τ).loc main_arg1)) (Chains.edgeW (m ((c : Thread nD τ).loc main_arg1)) (m ((c : Thread nD τ).loc main_arg2)))) (m ((c : Thread nD τ).loc main_arg3)))) (Cert.Gru.nf ((Chains.cheb2 (m ((c : Thread nD τ).loc main_arg1)) (Chains.edgeW (m ((c : Thread nD τ).loc main_arg1)) (m ((c : Thread nD τ).loc main_arg2)))) (m ((c : Thread nD τ).loc main_arg3)))) (Cert.Gru.wm (m ((c : Thread nD τ).loc main_arg10)) 0) (Cert.Gru.wm (m ((c : Thread nD τ).loc main_arg10)) 1) (Cert.Gru.wm (m ((c : Thread nD τ).loc main_arg10)) 2) (Cert.Gru.bv (m ((c : Thread nD τ).loc main_arg11))))) n f
  exact Cert.Spec.hreset_congr (rdM (V5_arg3 m ρ c) n f) (Cert.Spec.gate_congr
    (Cert.Spec.conv3_congr (fun k => rdM (V5_arg0 m ρ c) n k) (fun k => rdM (V5_v51 m ρ c) n k) (fun k => rdM (V5_v74 m ρ c) n k)
      (fun k => rdW0 (V5_v131 m ρ c) k f) (fun k => rdW1 (V5_v133 m ρ c) k f) (fun k => rdW2 (V5_v135 m ρ c) k f) (rdB (V5_arg9 m ρ c) f))
    (Cert.Spec.conv3_congr (fun k => rdM (V5_arg3 m ρ c) n k) (fun k => rdM (V5_v94 m ρ c) n k) (fun k => rdM (V5_v117 m ρ c) n k)
      (fun k => rdW0 (V5_v137 m ρ c) k f) (fun k => rdW1 (V5_v139 m ρ c) k f) (fun k => rdW2 (V5_v141 m ρ c) k f) (rdB (V5_arg11 m ρ c) f)))

/-! ## The result -/

/-- THE KERNEL PROGRAM'S RESULT: the output array of the candidate kernel is the cell's new state of the launched
    arrays, the two Chebyshev maps being one and two propagations along the launched graph. -/
theorem kernel_result : ((dat1 (F := Ideal) (V7 m ρ) c).arrAt 16 cfg1.N : Cert.Gru.Arr)
    = Cert.Gru.ofNF (Cert.Gru.gru (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2))))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  have hZ : V7 m ρ c main_v154_0 = Cert.Gru.ofNF (Cert.Gru.zgate (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := (V7_z m ρ c).trans (z_arr m ρ c)
  have hHR : V7 m ρ c main_v154_1 = (Cert.Gru.hr (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11))) := (V7_hr m ρ c).trans (hr_arr m ρ c)
  refine (Cert.Gru.eq_ofNF _).trans (congrArg Cert.Gru.ofNF (funext fun n => funext fun f => ?_))
  show (dat1 (F := Ideal) (V7 m ρ) c).arrAt 16 cfg1.N (ix2 n f) = _
  refine (final1_16 (V7 m ρ) c n f).trans ?_
  show _ = Cert.Spec.cand (Cert.Gru.zgate (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (Cert.Gru.nf (m ((c : Thread nD τ).loc main_arg3)))
      (Cert.Spec.conv3 (Cert.Gru.nf (m ((c : Thread nD τ).loc main_arg0))) (Cert.Gru.nf ((Chains.prop (m ((c : Thread nD τ).loc main_arg1)) (Chains.edgeW (m ((c : Thread nD τ).loc main_arg1)) (m ((c : Thread nD τ).loc main_arg2)))) (m ((c : Thread nD τ).loc main_arg0)))) (Cert.Gru.nf ((Chains.cheb2 (m ((c : Thread nD τ).loc main_arg1)) (Chains.edgeW (m ((c : Thread nD τ).loc main_arg1)) (m ((c : Thread nD τ).loc main_arg2)))) (m ((c : Thread nD τ).loc main_arg0)))) (Cert.Gru.wm (m ((c : Thread nD τ).loc main_arg12)) 0) (Cert.Gru.wm (m ((c : Thread nD τ).loc main_arg12)) 1) (Cert.Gru.wm (m ((c : Thread nD τ).loc main_arg12)) 2) (Cert.Gru.bv (m ((c : Thread nD τ).loc main_arg13))))
      (Cert.Spec.conv3 (Cert.Gru.nf (Cert.Gru.hr (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)))) (Cert.Gru.nf ((Chains.prop (m ((c : Thread nD τ).loc main_arg1)) (Chains.edgeW (m ((c : Thread nD τ).loc main_arg1)) (m ((c : Thread nD τ).loc main_arg2)))) (Cert.Gru.hr (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11))))) (Cert.Gru.nf ((Chains.cheb2 (m ((c : Thread nD τ).loc main_arg1)) (Chains.edgeW (m ((c : Thread nD τ).loc main_arg1)) (m ((c : Thread nD τ).loc main_arg2)))) (Cert.Gru.hr (Chains.prop (m ((c : Thread nD τ).loc main_arg1)) (Chains.edgeW (m ((c : Thread nD τ).loc main_arg1)) (m ((c : Thread nD τ).loc main_arg2)))) (Chains.cheb2 (m ((c : Thread nD τ).loc main_arg1)) (Chains.edgeW (m ((c : Thread nD τ).loc main_arg1)) (m ((c : Thread nD τ).loc main_arg2)))) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11))))) (Cert.Gru.wm (m ((c : Thread nD τ).loc main_arg14)) 0) (Cert.Gru.wm (m ((c : Thread nD τ).loc main_arg14)) 1) (Cert.Gru.wm (m ((c : Thread nD τ).loc main_arg14)) 2) (Cert.Gru.bv (m ((c : Thread nD τ).loc main_arg15)))) n f
  exact Cert.Spec.cand_congr (rdM hZ n f) (rdM ((V7_kept m ρ c main_arg3 (by decide) (by decide) (by decide)).trans (V5_arg3 m ρ c)) n f)
    (Cert.Spec.conv3_congr (fun k => rdM ((V7_kept m ρ c main_arg0 (by decide) (by decide) (by decide)).trans (V5_arg0 m ρ c)) n k) (fun k => rdM ((V7_kept m ρ c main_v51 (by decide) (by decide) (by decide)).trans (V5_v51 m ρ c)) n k) (fun k => rdM ((V7_kept m ρ c main_v74 (by decide) (by decide) (by decide)).trans (V5_v74 m ρ c)) n k)
      (fun k => rdW0 ((V7_kept m ρ c main_v143 (by decide) (by decide) (by decide)).trans (V5_v143 m ρ c)) k f) (fun k => rdW1 ((V7_kept m ρ c main_v145 (by decide) (by decide) (by decide)).trans (V5_v145 m ρ c)) k f) (fun k => rdW2 ((V7_kept m ρ c main_v147 (by decide) (by decide) (by decide)).trans (V5_v147 m ρ c)) k f) (rdB ((V7_kept m ρ c main_arg13 (by decide) (by decide) (by decide)).trans (V5_arg13 m ρ c)) f))
    (Cert.Spec.conv3_congr (fun k => rdM hHR n k) (fun k => rdM ((V7_v174 m ρ c).trans (congrArg (Chains.prop (m ((c : Thread nD τ).loc main_arg1)) (Chains.edgeW (m ((c : Thread nD τ).loc main_arg1)) (m ((c : Thread nD τ).loc main_arg2)))) hHR)) n k) (fun k => rdM ((V7_v197 m ρ c).trans (congrArg (Chains.cheb2 (m ((c : Thread nD τ).loc main_arg1)) (Chains.edgeW (m ((c : Thread nD τ).loc main_arg1)) (m ((c : Thread nD τ).loc main_arg2)))) hHR)) n k)
      (fun k => rdW0 ((V7_kept m ρ c main_v149 (by decide) (by decide) (by decide)).trans (V5_v149 m ρ c)) k f) (fun k => rdW1 ((V7_kept m ρ c main_v151 (by decide) (by decide) (by decide)).trans (V5_v151 m ρ c)) k f) (fun k => rdW2 ((V7_kept m ρ c main_v153 (by decide) (by decide) (by decide)).trans (V5_v153 m ρ c)) k f) (rdB ((V7_kept m ρ c main_arg15 (by decide) (by decide) (by decide)).trans (V5_arg15 m ρ c)) f))

end Cert.KernelIdeal.Hand

end
-- ==== Proof.RefSideChains.lean ====
/-
  The graph part of the reference, as whole-array functions that are never opened.

  From the edge list `ei` (row 0 the source node of each edge, row 1 its target) and the edge weights `ew`:
  the weighted degree of every node is a scatter-add of the weights by source node; `dinvOf` is its inverse square
  root where the degree is positive and zero elsewhere; `edgeW` the normalised weight `−d(src)^(−1/2) · w · d(tgt)^(−1/2)`
  of every edge. One propagation `prop` of a signal `x` gathers the rows of `x` at the edges' sources, scales each by its
  edge's normalised weight, scatter-adds the result by target node into zeros, and adds `0 · x` (the diagonal of the
  scaled Laplacian at largest eigenvalue two). The second Chebyshev basis is `cheb2 x = 2 · prop (prop x) − x`.
  An index below zero is wrapped by adding the node count first (`wrapIdx`), as the gathers' indexing does.
-/
import proofs.«145498_j1855425872361_1_alg».proof.ReferenceIdeal
import proofs.«145498_j1855425872361_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The edge list: two rows of 600000 node numbers. -/
abbrev EI (F : FTy → Type) : Type := (⟨S2x600000, .i32⟩ : BufTy).Contents (Elt F)
/-- One node number per edge. -/
abbrev EN (F : FTy → Type) : Type := (⟨S600000, .i32⟩ : BufTy).Contents (Elt F)
/-- One float per edge. -/
abbrev EW (F : FTy → Type) : Type := (⟨S600000, .f32⟩ : BufTy).Contents (Elt F)
/-- One float per node. -/
abbrev NV (F : FTy → Type) : Type := (⟨S50000, .f32⟩ : BufTy).Contents (Elt F)
/-- A node-feature array. -/
abbrev Arr (F : FTy → Type) : Type := (⟨S50000x128, .f32⟩ : BufTy).Contents (Elt F)

/-- The source node of every edge: row 0 of the edge list. -/
def rowOf (ei : EI F) : EN F :=
  shapeCast _ (extractStridedSlice S1x600000 ![0, 0] ei slices_S2x600000_S1x600000_0_0) shapeCasts_S1x600000_S600000

/-- The target node of every edge: row 1 of the edge list. -/
def colOf (ei : EI F) : EN F :=
  shapeCast _ (extractStridedSlice S1x600000 ![1, 0] ei slices_S2x600000_S1x600000_1_0) shapeCasts_S1x600000_S600000

/-- A node number below zero counts from the end: the node count is added to it. -/
def wrapIdx (r : EN F) : EN F :=
  select (cmpi .slt r (broadcastInDim S600000 ![] bcast_S_S600000 (constantI S_ 32 0#32)))
    (addi r (broadcastInDim S600000 ![] bcast_S_S600000 (constantI S_ 32 50000#32))) r

/-- Zero at every node. -/
def zeroNV : NV F := broadcastInDim S50000 ![] bcast_S_S50000 (constant S_ .f32 0x00000000#32)

/-- The weighted degree of every node: the edge weights added up by source node. -/
def degOf (ei : EI F) (ew : EW F) : NV F :=
  Host.scatterAdd scatter_S50000_S600000x1_S600000_n_0_0_1 zeroNV
    (broadcastInDim S600000x1 ![0] bcast_S600000_S600000x1_0 (rowOf ei)) ew

/-- The inverse square root of the degree where it is positive, zero elsewhere. -/
def dinvOf (ei : EI F) (ew : EW F) : NV F :=
  select (cmpf .ogt (degOf ei ew) zeroNV)
    (Host.rsqrt (select (cmpf .ogt (degOf ei ew) zeroNV) (degOf ei ew)
      (broadcastInDim S50000 ![] bcast_S_S50000 (id (constant S_ .f32 0x3F800000#32)))))
    (broadcastInDim S50000 ![] bcast_S_S50000 (id (constant S_ .f32 0x00000000#32)))

/-- The normalised weight of every edge: minus the weight scaled by the inverse square roots of the degrees of
    its two ends. -/
def edgeW (ei : EI F) (ew : EW F) : EW F :=
  mulf
    (mulf
      (mulf (broadcastInDim S600000 ![] bcast_S_S600000 (constant S_ .f32 0xBF800000#32))
        (Host.gather gather_S50000_S600000x1_S600000_n_0_n_n_0_1_1 (dinvOf ei ew)
          (broadcastInDim S600000x1 ![0] bcast_S600000_S600000x1_0 (wrapIdx (rowOf ei)))))
      ew)
    (Host.gather gather_S50000_S600000x1_S600000_n_0_n_n_0_1_1 (dinvOf ei ew)
      (broadcastInDim S600000x1 ![0] bcast_S600000_S600000x1_0 (wrapIdx (colOf ei))))

/-- Zero at every node and feature. -/
def zeroArr : Arr F := broadcastInDim S50000x128 ![] bcast_S_S50000x128 (constant S_ .f32 0x00000000#32)

/-- One propagation along the graph with the per-edge weights `wn`. -/
def prop (ei : EI F) (wn : EW F) (x : Arr F) : Arr F :=
  addf
    (Host.scatterAdd scatter_S50000x128_S600000x1_S600000x128_1_0_0_1 zeroArr
      (broadcastInDim S600000x1 ![0] bcast_S600000_S600000x1_0 (colOf ei))
      (mulf
        (broadcastInDim S600000x128 ![0, 1] bcast_S600000x1_S600000x128_0_1
          (broadcastInDim S600000x1 ![0] bcast_S600000_S600000x1_0 wn))
        (Host.gather gather_S50000x128_S600000x1_S600000x128_1_0_n_n_0_1_1128 x
          (broadcastInDim S600000x1 ![0] bcast_S600000_S600000x1_0 (wrapIdx (rowOf ei))))))
    (mulf zeroArr x)

/-- The second Chebyshev basis of a signal: twice the propagation of its propagation, minus the signal. -/
def cheb2 (ei : EI F) (wn : EW F) (x : Arr F) : Arr F :=
  subf
    (mulf (broadcastInDim S50000x128 ![] bcast_S_S50000x128 (constant S_ .f32 0x40000000#32))
      (prop ei wn (prop ei wn x)))
    x

end Cert.ReferenceIdeal.RefValue

end
-- ==== Proof.KiHostBridge.lean ====
/-
  The kernel program's graph functions are the reference's: the two programs print the same host operations over
  equal shape and dimension records, each under its own program's names. Every equation here is by unfolding the two
  definitions to the same operations over the same literals; no scatter or gather is opened.
-/
import proofs.«145498_j1855425872361_1_alg».proof.Proof.KiHostDefs
import proofs.«145498_j1855425872361_1_alg».proof.Proof.RefSideChains

set_option maxRecDepth 16384

noncomputable section

namespace Cert.KernelIdeal.Hand.Chains

open Idealize.ShloMosaic Idealize.ShloMosaic.TcCoe Idealize.SL.Sem

variable {F : FTy → Type} [FloatOps F]

theorem rowOf_eq_ref (ei : EI F) : rowOf ei = Cert.ReferenceIdeal.RefValue.rowOf ei := rfl
theorem colOf_eq_ref (ei : EI F) : colOf ei = Cert.ReferenceIdeal.RefValue.colOf ei := rfl
theorem wrapIdx_eq_ref (r : EN F) : wrapIdx r = Cert.ReferenceIdeal.RefValue.wrapIdx r := rfl
theorem zeroNV_eq_ref : (zeroNV : NV F) = Cert.ReferenceIdeal.RefValue.zeroNV := rfl
theorem degOf_eq_ref (ei : EI F) (ew : EW F) : degOf ei ew = Cert.ReferenceIdeal.RefValue.degOf ei ew := rfl
theorem dinvOf_eq_ref (ei : EI F) (ew : EW F) : dinvOf ei ew = Cert.ReferenceIdeal.RefValue.dinvOf ei ew := rfl
theorem edgeW_eq_ref (ei : EI F) (ew : EW F) : edgeW ei ew = Cert.ReferenceIdeal.RefValue.edgeW ei ew := rfl
theorem zeroArr_eq_ref : (zeroArr : Arr F) = Cert.ReferenceIdeal.RefValue.zeroArr := rfl
theorem prop_eq_ref (ei : EI F) (wn : EW F) (x : Arr F) : prop ei wn x = Cert.ReferenceIdeal.RefValue.prop ei wn x := rfl
theorem cheb2_eq_ref (ei : EI F) (wn : EW F) (x : Arr F) : cheb2 ei wn x = Cert.ReferenceIdeal.RefValue.cheb2 ei wn x := rfl

end Cert.KernelIdeal.Hand.Chains

end
-- ==== Proof.KiRefBridge.lean ====
/-
  The kernel program's result, with the graph functions under the reference's names: the two programs print the same
  host operations for the normalised edge weights and for the propagation along the graph, so the kernel program's
  chains ARE the reference's (equal by unfolding to the same operations over the same literals).
-/
import proofs.«145498_j1855425872361_1_alg».proof.Proof.KiResult
import proofs.«145498_j1855425872361_1_alg».proof.Proof.KiHostBridge

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The kernel program's result as the gated unit's new state over the reference's graph functions. -/
theorem kernel_result_ref : ((dat1 (F := Ideal) (V7 m ρ) c).arrAt 16 cfg1.N : Cert.Gru.Arr)
    = Cert.Gru.ofNF (Cert.Gru.gru
        (Cert.ReferenceIdeal.RefValue.prop (F := Ideal) (m ((c : Thread nD τ).loc main_arg1)) (Cert.ReferenceIdeal.RefValue.edgeW (F := Ideal) (m ((c : Thread nD τ).loc main_arg1)) (m ((c : Thread nD τ).loc main_arg2))))
        (Cert.ReferenceIdeal.RefValue.cheb2 (F := Ideal) (m ((c : Thread nD τ).loc main_arg1)) (Cert.ReferenceIdeal.RefValue.edgeW (F := Ideal) (m ((c : Thread nD τ).loc main_arg1)) (m ((c : Thread nD τ).loc main_arg2))))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (kernel_result m ρ c).trans ?_
  have e1 : Chains.edgeW (F := Ideal) (m ((c : Thread nD τ).loc main_arg1)) (m ((c : Thread nD τ).loc main_arg2)) = Cert.ReferenceIdeal.RefValue.edgeW (F := Ideal) (m ((c : Thread nD τ).loc main_arg1)) (m ((c : Thread nD τ).loc main_arg2)) :=
    Chains.edgeW_eq_ref _ _
  rw [e1]
  have e2 : Chains.prop (F := Ideal) (m ((c : Thread nD τ).loc main_arg1)) (Cert.ReferenceIdeal.RefValue.edgeW (F := Ideal) (m ((c : Thread nD τ).loc main_arg1)) (m ((c : Thread nD τ).loc main_arg2)))
      = Cert.ReferenceIdeal.RefValue.prop (F := Ideal) (m ((c : Thread nD τ).loc main_arg1)) (Cert.ReferenceIdeal.RefValue.edgeW (F := Ideal) (m ((c : Thread nD τ).loc main_arg1)) (m ((c : Thread nD τ).loc main_arg2))) :=
    funext fun x => Chains.prop_eq_ref _ _ x
  have e3 : Chains.cheb2 (F := Ideal) (m ((c : Thread nD τ).loc main_arg1)) (Cert.ReferenceIdeal.RefValue.edgeW (F := Ideal) (m ((c : Thread nD τ).loc main_arg1)) (m ((c : Thread nD τ).loc main_arg2)))
      = Cert.ReferenceIdeal.RefValue.cheb2 (F := Ideal) (m ((c : Thread nD τ).loc main_arg1)) (Cert.ReferenceIdeal.RefValue.edgeW (F := Ideal) (m ((c : Thread nD τ).loc main_arg1)) (m ((c : Thread nD τ).loc main_arg2))) :=
    funext fun x => Chains.cheb2_eq_ref _ _ x
  rw [e2, e3]

end Cert.KernelIdeal.Hand

end
-- ==== Proof.RefSideFrame.lean ====
/-
  The reference program runs, terminates, and leaves its sixteen argument arrays as it found them:
  the run of its host operations read back window by window, with the statement about the result array dropped.
-/
import proofs.«145498_j1855425872361_1_alg».proof.Defs
import proofs.«145498_j1855425872361_1_alg».proof.Proof.Gen.ReferenceIdeal
import proofs.«145498_j1855425872361_1_alg».proof.Proof.Gen.Pre_finite_inputs
import proofs.«145498_j1855425872361_1_alg».proof.Proof.RefRunP

noncomputable section

namespace Cert.ReferenceIdeal.RefValue

open Idealize.ShloMosaic Idealize.SL.Sem

/-- Every weakly fair execution of the reference terminates with the arguments unchanged. -/
theorem frame_ri : Cert.frame_ReferenceIdeal :=
  fun m ρ _ => (θ_run Cert.ReferenceIdeal.defs _ _).mono (fun _ h c => (h c).2)
    (Cert.ReferenceIdeal.ValueP.run (F := Ideal) m ρ)

end Cert.ReferenceIdeal.RefValue

end
-- ==== Proof.RefSideDense.lean ====
/-
  The dense part of the reference at one element.

  A product of a node-feature array with a 128 × 128 matrix, read at (n, f), is the sum over the 128 input features
  k of A[n, k] · B[k, f]. The matrix is slice j of a stacked weight array, re-laid from [1, 128, 128] to [128, 128]:
  its element (k, f) is W[j, k, f]. A bias is broadcast along the rows. So one Chebyshev convolution over three given
  bases, `ccArr`, read at (n, f), is the specification's `conv3` of the arrays' readings.
-/
import proofs.«145498_j1855425872361_1_alg».proof.ReferenceIdeal
import proofs.«145498_j1855425872361_1_alg».proof.Proof.Gen.ReferenceIdeal
import proofs.«145498_j1855425872361_1_alg».proof.Proof.RefSideGru
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

section Stages
variable {F : FTy → Type} [FloatOps F]

/-- Slice `0` of a stacked weight array as a 128 × 128 matrix. -/
def wslice0 (W : (⟨S3x128x128, .f32⟩ : BufTy).Contents (Elt F)) : (⟨S128x128, .f32⟩ : BufTy).Contents (Elt F) :=
  shapeCast _ (extractStridedSlice S1x128x128 ![0, 0, 0] W slices_S3x128x128_S1x128x128_0_0_0) shapeCasts_S1x128x128_S128x128
/-- Slice `1`. -/
def wslice1 (W : (⟨S3x128x128, .f32⟩ : BufTy).Contents (Elt F)) : (⟨S128x128, .f32⟩ : BufTy).Contents (Elt F) :=
  shapeCast _ (extractStridedSlice S1x128x128 ![1, 0, 0] W slices_S3x128x128_S1x128x128_1_0_0) shapeCasts_S1x128x128_S128x128
/-- Slice `2`. -/
def wslice2 (W : (⟨S3x128x128, .f32⟩ : BufTy).Contents (Elt F)) : (⟨S128x128, .f32⟩ : BufTy).Contents (Elt F) :=
  shapeCast _ (extractStridedSlice S1x128x128 ![2, 0, 0] W slices_S3x128x128_S1x128x128_2_0_0) shapeCasts_S1x128x128_S128x128

/-- A bias repeated along the 50000 rows. -/
def brows (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- One Chebyshev convolution over three given bases: the three products summed left to right, the bias last. -/
def ccArr (A0 A1 A2 : (⟨S50000x128, .f32⟩ : BufTy).Contents (Elt F)) (W : (⟨S3x128x128, .f32⟩ : BufTy).Contents (Elt F))
    (b : (⟨S128, .f32⟩ : BufTy).Contents (Elt F)) : (⟨S50000x128, .f32⟩ : BufTy).Contents (Elt F) :=
  addf
    (addf
      (addf (Host.dotGeneral dot_S50000x128_S128x128_S50000x128_1_0_0_1_n_n none A0 (wslice0 W))
        (Host.dotGeneral dot_S50000x128_S128x128_S50000x128_1_0_0_1_n_n none A1 (wslice1 W)))
      (Host.dotGeneral dot_S50000x128_S128x128_S50000x128_1_0_0_1_n_n none A2 (wslice2 W)))
    (brows b)

end Stages

/-! ## The contraction's operand indices -/

theorem lhs0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The product of an array with a matrix at (n, f): the sum over the input features. -/
theorem dot_at (A : (⟨S50000x128, .f32⟩ : BufTy).Contents (Elt Ideal)) (B : (⟨S128x128, .f32⟩ : BufTy).Contents (Elt Ideal))
    (n : Fin 50000) (f : Fin 128) :
    (Host.dotGeneral (F := Ideal) (φ₁ := .f32) (φ₂ := .f32) dot_S50000x128_S128x128_S50000x128_1_0_0_1_n_n none A B) (ValueIdx.ix2 n f)
      = ∑ k : Fin 128, A (ValueIdx.ix2 n k) * B (ValueIdx.ix2 k f) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ValueIdx.ix2 n f) ((ValueIdx.contrEquiv1 dot_S50000x128_S128x128_S50000x128_1_0_0_1_n_n 128 rfl rfl).symm k) = ValueIdx.ix2 n k := funext fun a => Fin.ext (by
    match a with
    | ⟨0, _⟩ => exact lhs0 _ _
    | ⟨1, _⟩ => exact (lhs1 _ _).trans hk)
  have er : dot_S50000x128_S128x128_S50000x128_1_0_0_1_n_n.rhsIdx (ValueIdx.ix2 n f) ((ValueIdx.contrEquiv1 dot_S50000x128_S128x128_S50000x128_1_0_0_1_n_n 128 rfl rfl).symm k) = ValueIdx.ix2 k f := funext fun a => Fin.ext (by
    match a with
    | ⟨0, _⟩ => exact (rhs0 _ _).trans hk
    | ⟨1, _⟩ => exact rhs1 _ _)
  rw [el, er]

/-! ## The weight slices, the bias -/

theorem wslice0_at (W : (⟨S3x128x128, .f32⟩ : BufTy).Contents (Elt Ideal)) (k f : Fin 128) :
    wslice0 (F := Ideal) W (ValueIdx.ix2 k f) = W (ValueIdx.ix3 (0 : Fin 3) k f) := by
  unfold wslice0
  refine (shapeCast_apply _ shapeCasts_S1x128x128_S128x128 (ValueIdx.ix2 k f) (ValueIdx.ix3 (0 : Fin 1) k f)
    (by rewrite [Shape.rowMajor_val_three, Shape.rowMajor_val_two]; show (0 * 128 + k.val) * 128 + f.val = k.val * 128 + f.val; omega)).trans ?_
  exact extractStridedSlice_apply ![0, 0, 0] W slices_S3x128x128_S1x128x128_0_0_0 (ValueIdx.ix3 (0 : Fin 1) k f)
    (ValueIdx.ix3 (0 : Fin 3) k f) (fun a => match a with
      | ⟨0, _⟩ => by show (0 : Nat) = 0 + 0; omega
      | ⟨1, _⟩ => by show k.val = 0 + k.val; omega
      | ⟨2, _⟩ => by show f.val = 0 + f.val; omega)

theorem wslice1_at (W : (⟨S3x128x128, .f32⟩ : BufTy).Contents (Elt Ideal)) (k f : Fin 128) :
    wslice1 (F := Ideal) W (ValueIdx.ix2 k f) = W (ValueIdx.ix3 (1 : Fin 3) k f) := by
  unfold wslice1
  refine (shapeCast_apply _ shapeCasts_S1x128x128_S128x128 (ValueIdx.ix2 k f) (ValueIdx.ix3 (0 : Fin 1) k f)
    (by rewrite [Shape.rowMajor_val_three, Shape.rowMajor_val_two]; show (0 * 128 + k.val) * 128 + f.val = k.val * 128 + f.val; omega)).trans ?_
  exact extractStridedSlice_apply ![1, 0, 0] W slices_S3x128x128_S1x128x128_1_0_0 (ValueIdx.ix3 (0 : Fin 1) k f)
    (ValueIdx.ix3 (1 : Fin 3) k f) (fun a => match a with
      | ⟨0, _⟩ => by show (1 : Nat) = 1 + 0; omega
      | ⟨1, _⟩ => by show k.val = 0 + k.val; omega
      | ⟨2, _⟩ => by show f.val = 0 + f.val; omega)

theorem wslice2_at (W : (⟨S3x128x128, .f32⟩ : BufTy).Contents (Elt Ideal)) (k f : Fin 128) :
    wslice2 (F := Ideal) W (ValueIdx.ix2 k f) = W (ValueIdx.ix3 (2 : Fin 3) k f) := by
  unfold wslice2
  refine (shapeCast_apply _ shapeCasts_S1x128x128_S128x128 (ValueIdx.ix2 k f) (ValueIdx.ix3 (0 : Fin 1) k f)
    (by rewrite [Shape.rowMajor_val_three, Shape.rowMajor_val_two]; show (0 * 128 + k.val) * 128 + f.val = k.val * 128 + f.val; omega)).trans ?_
  exact extractStridedSlice_apply ![2, 0, 0] W slices_S3x128x128_S1x128x128_2_0_0 (ValueIdx.ix3 (0 : Fin 1) k f)
    (ValueIdx.ix3 (2 : Fin 3) k f) (fun a => match a with
      | ⟨0, _⟩ => by show (2 : Nat) = 2 + 0; omega
      | ⟨1, _⟩ => by show k.val = 0 + k.val; omega
      | ⟨2, _⟩ => by show f.val = 0 + f.val; omega)

theorem brows_at (b : (⟨S128, .f32⟩ : BufTy).Contents (Elt Ideal)) (n : Fin 50000) (f : Fin 128) :
    brows (F := Ideal) b (ValueIdx.ix2 n f) = b (ValueIdx.ix1 f) := by
  unfold brows
  refine (broadcastInDim_apply _ bcast_S1x128_S50000x128_0_1 _ (ValueIdx.ix2 n f) (ValueIdx.ix2 (0 : Fin 1) f) (fun a => match a with
    | ⟨0, _⟩ => by show (0 : Nat) = if (1 : Nat) = 1 then 0 else n.val; rw [if_pos rfl]
    | ⟨1, _⟩ => by show f.val = if (128 : Nat) = 1 then 0 else f.val; rw [if_neg (by decide)])).trans ?_
  exact broadcastInDim_apply _ bcast_S128_S1x128_1 b (ValueIdx.ix2 (0 : Fin 1) f) (ValueIdx.ix1 f) (fun a => match a with
    | ⟨0, _⟩ => by show f.val = if (128 : Nat) = 1 then 0 else f.val; rw [if_neg (by decide)])

/-! ## One convolution at an element -/

theorem ccArr_at (A0 A1 A2 : (⟨S50000x128, .f32⟩ : BufTy).Contents (Elt Ideal)) (W : (⟨S3x128x128, .f32⟩ : BufTy).Contents (Elt Ideal))
    (b : (⟨S128, .f32⟩ : BufTy).Contents (Elt Ideal)) (n : Fin 50000) (f : Fin 128) :
    ccArr (F := Ideal) A0 A1 A2 W b (ValueIdx.ix2 n f)
      = Cert.Spec.conv3 (Cert.Gru.nf A0) (Cert.Gru.nf A1) (Cert.Gru.nf A2) (Cert.Gru.wm W 0) (Cert.Gru.wm W 1) (Cert.Gru.wm W 2)
          (Cert.Gru.bv b) n f := by
  show ((Host.dotGeneral (F := Ideal) (φ₁ := .f32) (φ₂ := .f32) dot_S50000x128_S128x128_S50000x128_1_0_0_1_n_n none A0 (wslice0 (F := Ideal) W)) (ValueIdx.ix2 n f)
        + (Host.dotGeneral (F := Ideal) (φ₁ := .f32) (φ₂ := .f32) dot_S50000x128_S128x128_S50000x128_1_0_0_1_n_n none A1 (wslice1 (F := Ideal) W)) (ValueIdx.ix2 n f)
        + (Host.dotGeneral (F := Ideal) (φ₁ := .f32) (φ₂ := .f32) dot_S50000x128_S128x128_S50000x128_1_0_0_1_n_n none A2 (wslice2 (F := Ideal) W)) (ValueIdx.ix2 n f))
      + brows (F := Ideal) b (ValueIdx.ix2 n f) = _
  rw [dot_at, dot_at, dot_at, brows_at]
  simp only [wslice0_at, wslice1_at, wslice2_at]
  rfl

end Cert.ReferenceIdeal.RefValue

end
-- ==== Proof.RefSideOut.lean ====
/-
  The whole reference as one small composition of named whole-array stages, and its value at one element.

  `sigArr` is the logistic function as the reference spells it: one over (one plus the exponential of the negation).
  `refOut` is the new state: with `wn` the normalised edge weights, `T1 = prop ei wn`, `T2 = cheb2 ei wn` and
  `conv A W b = ccArr A (T1 A) (T2 A) W b`,

      Z = sigArr (conv X Wxz bxz + conv H Whz bhz),   R = sigArr (conv X Wxr bxr + conv H Whr bhr),
      s = conv X Wxh bxh + conv (H · R) Whh bhh,       out = Z · H + (1 − Z) · (tanh s + s).

  At the element (n, f) this is the specification's cell `Cert.Gru.gru T1 T2 …`: every stage but the propagations is
  read at the element; the propagations stay whole-array functions, applied to `H · R` as an array.
-/
import proofs.«145498_j1855425872361_1_alg».proof.Proof.RefSideChains
import proofs.«145498_j1855425872361_1_alg».proof.Proof.RefSideDense
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo

section Stages
variable {F : FTy → Type} [FloatOps F]

/-- One at every node and feature. -/
def oneArr : Arr F := broadcastInDim S50000x128 ![] bcast_S_S50000x128 (constant S_ .f32 0x3F800000#32)

/-- The logistic function, spelt as one over one plus the exponential of the negation. -/
def sigArr (x : Arr F) : Arr F := Host.divf oneArr (addf oneArr (Host.exp (Host.negf x)))

/-- One Chebyshev convolution of a signal: its bases by `prop` and `cheb2` along the graph. -/
def convArr (ei : EI F) (wn : EW F) (A : Arr F) (W : (⟨S3x128x128, .f32⟩ : BufTy).Contents (Elt F))
    (b : (⟨S128, .f32⟩ : BufTy).Contents (Elt F)) : Arr F :=
  ccArr A (prop ei wn A) (cheb2 ei wn A) W b

/-- A gate as an array. -/
def gateArr (ei : EI F) (wn : EW F) (X H : Arr F) (Wx : (⟨S3x128x128, .f32⟩ : BufTy).Contents (Elt F))
    (bx : (⟨S128, .f32⟩ : BufTy).Contents (Elt F)) (Wh : (⟨S3x128x128, .f32⟩ : BufTy).Contents (Elt F))
    (bh : (⟨S128, .f32⟩ : BufTy).Contents (Elt F)) : Arr F :=
  sigArr (addf (convArr ei wn X Wx bx) (convArr ei wn H Wh bh))

/-- The candidate's pre-activation `s`. -/
def sArr (ei : EI F) (wn : EW F) (X HR : Arr F) (Wx : (⟨S3x128x128, .f32⟩ : BufTy).Contents (Elt F))
    (bx : (⟨S128, .f32⟩ : BufTy).Contents (Elt F)) (Wh : (⟨S3x128x128, .f32⟩ : BufTy).Contents (Elt F))
    (bh : (⟨S128, .f32⟩ : BufTy).Contents (Elt F)) : Arr F :=
  addf (convArr ei wn X Wx bx) (convArr ei wn HR Wh bh)

/-- The new state from the update gate `Z`, the old state and the pre-activation. -/
def mixArr (Z H s : Arr F) : Arr F :=
  addf (mulf Z H) (mulf (subf oneArr Z) (addf (Host.tanh s) s))

/-- The reference's result as a function of its sixteen arguments. -/
def refOut (x0 : (⟨S50000x128, .f32⟩ : BufTy).Contents (Elt F)) (x1 : (⟨S2x600000, .i32⟩ : BufTy).Contents (Elt F)) (x2 : (⟨S600000, .f32⟩ : BufTy).Contents (Elt F)) (x3 : (⟨S50000x128, .f32⟩ : BufTy).Contents (Elt F))
    (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F))
    (x8 : (⟨S3x128x128, .f32⟩ : BufTy).Contents (Elt F)) (x9 : (⟨S128, .f32⟩ : BufTy).Contents (Elt F)) (x10 : (⟨S3x128x128, .f32⟩ : BufTy).Contents (Elt F)) (x11 : (⟨S128, .f32⟩ : BufTy).Contents (Elt F))
    (x12 : (⟨S3x128x128, .f32⟩ : BufTy).Contents (Elt F)) (x13 : (⟨S128, .f32⟩ : BufTy).Contents (Elt F)) (x14 : (⟨S3x128x128, .f32⟩ : BufTy).Contents (Elt F)) (x15 : (⟨S128, .f32⟩ : BufTy).Contents (Elt F)) : Arr F :=
  mixArr (gateArr x1 (edgeW x1 x2) x0 x3 x4 x5 x6 x7) x3
    (sArr x1 (edgeW x1 x2) x0 (mulf x3 (gateArr x1 (edgeW x1 x2) x0 x3 x8 x9 x10 x11)) x12 x13 x14 x15)

end Stages

/-! ## At one element -/

theorem oneArr_at (i : S50000x128.Idx) : oneArr (F := Ideal) i = Cert.Spec.one :=
  ValueIdx.broadcastInDim_scalar_apply bcast_S_S50000x128 _ i

/-- The reference's spelling of the logistic function is the logistic function. -/
theorem sigArr_at (x : Arr Ideal) (i : S50000x128.Idx) : sigArr (F := Ideal) x i = Ideal.logistic (x i) := by
  show Ideal.div (oneArr (F := Ideal) i) (oneArr (F := Ideal) i + Ideal.exp (-(x i))) = _
  rw [oneArr_at, Cert.Spec.one, Ideal.ofBits_one_f32]
  rfl

theorem convArr_at (ei : EI Ideal) (wn : EW Ideal) (A : Arr Ideal) (W : (⟨S3x128x128, .f32⟩ : BufTy).Contents (Elt Ideal))
    (b : (⟨S128, .f32⟩ : BufTy).Contents (Elt Ideal)) (n : Fin 50000) (f : Fin 128) :
    convArr (F := Ideal) ei wn A W b (ValueIdx.ix2 n f)
      = Cert.Gru.cc (prop (F := Ideal) ei wn) (cheb2 (F := Ideal) ei wn) A W b n f :=
  ccArr_at A _ _ W b n f

theorem gateArr_at (ei : EI Ideal) (wn : EW Ideal) (X H : Arr Ideal) (Wx : (⟨S3x128x128, .f32⟩ : BufTy).Contents (Elt Ideal))
    (bx : (⟨S128, .f32⟩ : BufTy).Contents (Elt Ideal)) (Wh : (⟨S3x128x128, .f32⟩ : BufTy).Contents (Elt Ideal))
    (bh : (⟨S128, .f32⟩ : BufTy).Contents (Elt Ideal)) (n : Fin 50000) (f : Fin 128) :
    gateArr (F := Ideal) ei wn X H Wx bx Wh bh (ValueIdx.ix2 n f)
      = Cert.Spec.gate (Cert.Gru.cc (prop (F := Ideal) ei wn) (cheb2 (F := Ideal) ei wn) X Wx bx)
          (Cert.Gru.cc (prop (F := Ideal) ei wn) (cheb2 (F := Ideal) ei wn) H Wh bh) n f := by
  unfold gateArr
  rw [sigArr_at]
  show Ideal.logistic (convArr (F := Ideal) ei wn X Wx bx (ValueIdx.ix2 n f) + convArr (F := Ideal) ei wn H Wh bh (ValueIdx.ix2 n f)) = _
  rw [convArr_at, convArr_at]
  rfl

/-- The reset state as an array is the specification's, laid out. -/
theorem hr_eq (ei : EI Ideal) (wn : EW Ideal) (X H : Arr Ideal) (Wx : (⟨S3x128x128, .f32⟩ : BufTy).Contents (Elt Ideal))
    (bx : (⟨S128, .f32⟩ : BufTy).Contents (Elt Ideal)) (Wh : (⟨S3x128x128, .f32⟩ : BufTy).Contents (Elt Ideal))
    (bh : (⟨S128, .f32⟩ : BufTy).Contents (Elt Ideal)) :
    mulf (F := Ideal) (φ := .f32) H (gateArr (F := Ideal) ei wn X H Wx bx Wh bh)
      = Cert.Gru.hr (prop (F := Ideal) ei wn) (cheb2 (F := Ideal) ei wn) X H Wx bx Wh bh := by
  funext i
  obtain ⟨n, f, rfl⟩ : ∃ (n : Fin 50000) (f : Fin 128), i = ValueIdx.ix2 n f := ⟨i 0, i 1, ValueIdx.eq_ix2 i⟩
  show H (ValueIdx.ix2 n f) * gateArr (F := Ideal) ei wn X H Wx bx Wh bh (ValueIdx.ix2 n f) = _
  rw [gateArr_at]
  rfl

/-- The reference's result at the element (n, f) is the specification's cell. -/
theorem refOut_at (x0 : Arr Ideal) (x1 : EI Ideal) (x2 : EW Ideal) (x3 : Arr Ideal)
    (x4 : (⟨S3x128x128, .f32⟩ : BufTy).Contents (Elt Ideal)) (x5 : (⟨S128, .f32⟩ : BufTy).Contents (Elt Ideal))
    (x6 : (⟨S3x128x128, .f32⟩ : BufTy).Contents (Elt Ideal)) (x7 : (⟨S128, .f32⟩ : BufTy).Contents (Elt Ideal))
    (x8 : (⟨S3x128x128, .f32⟩ : BufTy).Contents (Elt Ideal)) (x9 : (⟨S128, .f32⟩ : BufTy).Contents (Elt Ideal))
    (x10 : (⟨S3x128x128, .f32⟩ : BufTy).Contents (Elt Ideal)) (x11 : (⟨S128, .f32⟩ : BufTy).Contents (Elt Ideal))
    (x12 : (⟨S3x128x128, .f32⟩ : BufTy).Contents (Elt Ideal)) (x13 : (⟨S128, .f32⟩ : BufTy).Contents (Elt Ideal))
    (x14 : (⟨S3x128x128, .f32⟩ : BufTy).Contents (Elt Ideal)) (x15 : (⟨S128, .f32⟩ : BufTy).Contents (Elt Ideal))
    (n : Fin 50000) (f : Fin 128) :
    refOut (F := Ideal) x0 x1 x2 x3 x4 x5 x6 x7 x8 x9 x10 x11 x12 x13 x14 x15 (ValueIdx.ix2 n f)
      = Cert.Gru.gru (prop (F := Ideal) x1 (edgeW (F := Ideal) x1 x2)) (cheb2 (F := Ideal) x1 (edgeW (F := Ideal) x1 x2))
          x0 x3 x4 x5 x6 x7 x8 x9 x10 x11 x12 x13 x14 x15 n f := by
  unfold refOut
  rw [hr_eq]
  show gateArr (F := Ideal) x1 (edgeW (F := Ideal) x1 x2) x0 x3 x4 x5 x6 x7 (ValueIdx.ix2 n f) * x3 (ValueIdx.ix2 n f)
      + (oneArr (F := Ideal) (ValueIdx.ix2 n f) - gateArr (F := Ideal) x1 (edgeW (F := Ideal) x1 x2) x0 x3 x4 x5 x6 x7 (ValueIdx.ix2 n f))
        * (Ideal.tanh (convArr (F := Ideal) x1 (edgeW (F := Ideal) x1 x2) x0 x12 x13 (ValueIdx.ix2 n f)
              + convArr (F := Ideal) x1 (edgeW (F := Ideal) x1 x2) (Cert.Gru.hr _ _ x0 x3 x8 x9 x10 x11) x14 x15 (ValueIdx.ix2 n f))
            + (convArr (F := Ideal) x1 (edgeW (F := Ideal) x1 x2) x0 x12 x13 (ValueIdx.ix2 n f)
              + convArr (F := Ideal) x1 (edgeW (F := Ideal) x1 x2) (Cert.Gru.hr _ _ x0 x3 x8 x9 x10 x11) x14 x15 (ValueIdx.ix2 n f))) = _
  rw [gateArr_at, oneArr_at, convArr_at, convArr_at]
  rfl

/-- The same as an equation of arrays. -/
theorem refOut_eq (x0 : Arr Ideal) (x1 : EI Ideal) (x2 : EW Ideal) (x3 : Arr Ideal)
    (x4 : (⟨S3x128x128, .f32⟩ : BufTy).Contents (Elt Ideal)) (x5 : (⟨S128, .f32⟩ : BufTy).Contents (Elt Ideal))
    (x6 : (⟨S3x128x128, .f32⟩ : BufTy).Contents (Elt Ideal)) (x7 : (⟨S128, .f32⟩ : BufTy).Contents (Elt Ideal))
    (x8 : (⟨S3x128x128, .f32⟩ : BufTy).Contents (Elt Ideal)) (x9 : (⟨S128, .f32⟩ : BufTy).Contents (Elt Ideal))
    (x10 : (⟨S3x128x128, .f32⟩ : BufTy).Contents (Elt Ideal)) (x11 : (⟨S128, .f32⟩ : BufTy).Contents (Elt Ideal))
    (x12 : (⟨S3x128x128, .f32⟩ : BufTy).Contents (Elt Ideal)) (x13 : (⟨S128, .f32⟩ : BufTy).Contents (Elt Ideal))
    (x14 : (⟨S3x128x128, .f32⟩ : BufTy).Contents (Elt Ideal)) (x15 : (⟨S128, .f32⟩ : BufTy).Contents (Elt Ideal)) :
    refOut (F := Ideal) x0 x1 x2 x3 x4 x5 x6 x7 x8 x9 x10 x11 x12 x13 x14 x15
      = Cert.Gru.ofNF (Cert.Gru.gru (prop (F := Ideal) x1 (edgeW (F := Ideal) x1 x2)) (cheb2 (F := Ideal) x1 (edgeW (F := Ideal) x1 x2))
          x0 x3 x4 x5 x6 x7 x8 x9 x10 x11 x12 x13 x14 x15) := by
  funext i
  obtain ⟨n, f, rfl⟩ : ∃ (n : Fin 50000) (f : Fin 128), i = ValueIdx.ix2 n f := ⟨i 0, i 1, ValueIdx.eq_ix2 i⟩
  exact refOut_at x0 x1 x2 x3 x4 x5 x6 x7 x8 x9 x10 x11 x12 x13 x14 x15 n f

end Cert.ReferenceIdeal.RefValue

end
-- ==== Proof.RefSideResult.lean ====
/-
  The reference's result is the specification's cell, laid out as an array.

  The run states the result array as the last of the program's 470 stages; that stage, unfolded
  stage by stage, is the small composition `refOut` of named whole-array functions (each equation below unfolds names
  only: the propagations along the graph are matched as whole terms and never opened), and `refOut` at every element is
  the gated recurrent unit of the specification over the propagation maps `prop` and `cheb2`.
-/
import proofs.«145498_j1855425872361_1_alg».proof.Proof.RefReadP
import proofs.«145498_j1855425872361_1_alg».proof.Proof.RefRunP
import proofs.«145498_j1855425872361_1_alg».proof.Proof.RefSideOut

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

section Stages
variable {F : FTy → Type} [FloatOps F]
variable (x0 : (⟨S50000x128, .f32⟩ : BufTy).Contents (Elt F)) (x1 : (⟨S2x600000, .i32⟩ : BufTy).Contents (Elt F)) (x2 : (⟨S600000, .f32⟩ : BufTy).Contents (Elt F)) (x3 : (⟨S50000x128, .f32⟩ : BufTy).Contents (Elt F))
    (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F))
    (x8 : (⟨S3x128x128, .f32⟩ : BufTy).Contents (Elt F)) (x9 : (⟨S128, .f32⟩ : BufTy).Contents (Elt F)) (x10 : (⟨S3x128x128, .f32⟩ : BufTy).Contents (Elt F)) (x11 : (⟨S128, .f32⟩ : BufTy).Contents (Elt F))
    (x12 : (⟨S3x128x128, .f32⟩ : BufTy).Contents (Elt F)) (x13 : (⟨S128, .f32⟩ : BufTy).Contents (Elt F)) (x14 : (⟨S3x128x128, .f32⟩ : BufTy).Contents (Elt F)) (x15 : (⟨S128, .f32⟩ : BufTy).Contents (Elt F))

/-! The stages of the program, by name, are the named whole-array functions: each equation unfolds names only. -/

theorem st_edgeW : val_main_v31 (F := F) x1 x2 = edgeW x1 x2 := rfl

theorem st_convXz : val_main_v88 (F := F) x0 x1 x2 x4 x5 = convArr x1 (edgeW x1 x2) x0 x4 x5 := rfl
theorem st_convHz : val_main_v145 (F := F) x1 x2 x3 x6 x7 = convArr x1 (edgeW x1 x2) x3 x6 x7 := rfl
theorem st_Z : val_main_v152 (F := F) x0 x1 x2 x3 x4 x5 x6 x7 = gateArr x1 (edgeW x1 x2) x0 x3 x4 x5 x6 x7 :=
  congrArg sigArr (congrArg₂ addf (st_convXz x0 x1 x2 x4 x5) (st_convHz x1 x2 x3 x6 x7))

theorem st_convXr : val_main_v209 (F := F) x0 x1 x2 x8 x9 = convArr x1 (edgeW x1 x2) x0 x8 x9 := rfl
theorem st_convHr : val_main_v266 (F := F) x1 x2 x3 x10 x11 = convArr x1 (edgeW x1 x2) x3 x10 x11 := rfl
theorem st_R : val_main_v273 (F := F) x0 x1 x2 x3 x8 x9 x10 x11 = gateArr x1 (edgeW x1 x2) x0 x3 x8 x9 x10 x11 :=
  congrArg sigArr (congrArg₂ addf (st_convXr x0 x1 x2 x8 x9) (st_convHr x1 x2 x3 x10 x11))

theorem st_convXh : val_main_v330 (F := F) x0 x1 x2 x12 x13 = convArr x1 (edgeW x1 x2) x0 x12 x13 := rfl

/-- The reset state. -/
theorem st_HR : val_main_v331 (F := F) x0 x1 x2 x3 x8 x9 x10 x11 = mulf x3 (gateArr x1 (edgeW x1 x2) x0 x3 x8 x9 x10 x11) :=
  congrArg (mulf x3) (st_R x0 x1 x2 x3 x8 x9 x10 x11)

theorem st_convHRh : val_main_v388 (F := F) x0 x1 x2 x3 x8 x9 x10 x11 x14 x15
    = convArr x1 (edgeW x1 x2) (val_main_v331 (F := F) x0 x1 x2 x3 x8 x9 x10 x11) x14 x15 := rfl

/-- The candidate's pre-activation. -/
theorem st_s : val_main_v389 (F := F) x0 x1 x2 x3 x8 x9 x10 x11 x12 x13 x14 x15
    = sArr x1 (edgeW x1 x2) x0 (mulf x3 (gateArr x1 (edgeW x1 x2) x0 x3 x8 x9 x10 x11)) x12 x13 x14 x15 :=
  (congrArg₂ addf (st_convXh x0 x1 x2 x12 x13) (st_convHRh x0 x1 x2 x3 x8 x9 x10 x11 x14 x15)).trans
    (congrArg (fun hr => sArr x1 (edgeW x1 x2) x0 hr x12 x13 x14 x15) (st_HR x0 x1 x2 x3 x8 x9 x10 x11))

/-- The last stage of the program is the composition `refOut`. -/
theorem st_out : val_main_v396 (F := F) x0 x1 x2 x3 x4 x5 x6 x7 x8 x9 x10 x11 x12 x13 x14 x15 = refOut x0 x1 x2 x3 x4 x5 x6 x7 x8 x9 x10 x11 x12 x13 x14 x15 :=
  have e1 : val_main_v396 (F := F) x0 x1 x2 x3 x4 x5 x6 x7 x8 x9 x10 x11 x12 x13 x14 x15
      = mixArr (val_main_v152 (F := F) x0 x1 x2 x3 x4 x5 x6 x7) x3 (val_main_v389 (F := F) x0 x1 x2 x3 x8 x9 x10 x11 x12 x13 x14 x15) := rfl
  e1.trans (congrArg₂ (fun z s => mixArr z x3 s) (st_Z x0 x1 x2 x3 x4 x5 x6 x7) (st_s x0 x1 x2 x3 x8 x9 x10 x11 x12 x13 x14 x15))

end Stages

/-- The result array the reference's run ends with, as the specification's cell over the whole-array propagation maps.
    Arguments in the program's order: the input, the edge list, the edge weights, the state, then the six weight and
    bias pairs (input and state of the update gate, of the reset gate, of the candidate). -/
theorem result_eq (m : (ℓ : Loc nD τ sig) → Buf (Elt Ideal) ℓ) (c : Dev nD) :
    Cert.ReferenceIdeal.ValueP.res_main_v396 (F := Ideal) m c
      = Cert.Gru.ofNF (Cert.Gru.gru
          (prop (F := Ideal) (m ((c.tc : Thread nD τ).loc main_arg1)) (edgeW (F := Ideal) (m ((c.tc : Thread nD τ).loc main_arg1)) (m ((c.tc : Thread nD τ).loc main_arg2))))
          (cheb2 (F := Ideal) (m ((c.tc : Thread nD τ).loc main_arg1)) (edgeW (F := Ideal) (m ((c.tc : Thread nD τ).loc main_arg1)) (m ((c.tc : Thread nD τ).loc main_arg2))))
          (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :=
  ((st_out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).trans
      (refOut_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))))

end Cert.ReferenceIdeal.RefValue

end
-- ==== Proof.lean ====
/-
  The certificate of the Chebyshev-convolution gated recurrent unit kernel against its reference.

  Frames. The kernel program — at the word level and idealized, the same text — is @main's eight segments (five
  stretches of host operations, the gate kernel's region, one more stretch, the candidate kernel's region) run by the
  launch over segments; no host operation and no region writes an argument array. The reference is its host
  operations run in order. The idealization rewrote nothing.
  Values. At the ideal instance both programs end with the result array at one function of the argument arrays:
  the new state z·h + (1 − z)·(tanh s + s) of the gated unit, z and the reset gate r the logistic function of the sums
  of two order-three Chebyshev convolutions, s the sum of the input's convolution and that of the reset state h·r;
  the bases of a signal are the signal, its propagation along the graph and twice the propagation of that minus the
  signal, the propagation the same chain of host operations (scatter-add, gather, the normalised edge weights) in both
  programs. The kernels compute the convolutions block by block (25 blocks of 2000 rows) with matrix products into a
  zero accumulator, the reference with whole-array contractions: the same sums, index by index.
-/
import proofs.«145498_j1855425872361_1_alg».proof.Defs
import proofs.«145498_j1855425872361_1_alg».proof.Proof.Gen.Kernel
import proofs.«145498_j1855425872361_1_alg».proof.Proof.Gen.KernelIdeal
import proofs.«145498_j1855425872361_1_alg».proof.Proof.Gen.ReferenceIdeal
import proofs.«145498_j1855425872361_1_alg».proof.Proof.Gen.Pre_finite_inputs
import proofs.«145498_j1855425872361_1_alg».proof.Proof.KiSegs
import proofs.«145498_j1855425872361_1_alg».proof.Proof.KbSegs
import proofs.«145498_j1855425872361_1_alg».proof.Proof.KiRefBridge
import proofs.«145498_j1855425872361_1_alg».proof.Proof.RefSideFrame
import proofs.«145498_j1855425872361_1_alg».proof.Proof.RefSideResult

set_option maxRecDepth 16384

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The ideal pass rewrote no operation. -/
theorem preserves : Cert.preserves_Kernel_KernelIdeal := trivial

/-- At the ideal instance the kernel program's result array ends at what the candidate kernel's write-backs leave,
    which is the gated unit's new state of the launched arrays; the reference's result is the same function of its
    arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.dat1 (F := Ideal) (Cert.KernelIdeal.Hand.V7 m ρ) c).arrAt 16 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  refine (Cert.ReferenceIdeal.RefValue.result_eq m' c).trans ?_
  rw [h0, h1, h2, h3, h4, h5, h6, h7, h8, h9, h10, h11, h12, h13, h14, h15]
  exact (Cert.KernelIdeal.Hand.kernel_result_ref m ρ c).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
